-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096x4096 : Shape := ⟨2, ![4096, 4096]⟩
abbrev S4096 : Shape := ⟨1, ![4096]⟩
abbrev S128x256 : Shape := ⟨2, ![128, 256]⟩
abbrev S1x256 : Shape := ⟨2, ![1, 256]⟩
abbrev S256x64 : Shape := ⟨2, ![256, 64]⟩
abbrev S1x64 : Shape := ⟨2, ![1, 64]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S128x256 : S_.BroadcastsInDim S128x256 (![] : Fin 0 → Fin S128x256.rank)
  reducesTo_S128x256_S_d0_1 : S128x256.ReducesTo [0, 1] S_
  bcast_S_S1x256 : S_.BroadcastsInDim S1x256 (![] : Fin 0 → Fin S1x256.rank)
  reducesTo_S1x256_S_d0_1 : S1x256.ReducesTo [0, 1] S_
  bcast_S_S256x64 : S_.BroadcastsInDim S256x64 (![] : Fin 0 → Fin S256x64.rank)
  reducesTo_S256x64_S_d0_1 : S256x64.ReducesTo [0, 1] S_
  bcast_S_S1x64 : S_.BroadcastsInDim S1x64 (![] : Fin 0 → Fin S1x64.rank)
  reducesTo_S1x64_S_d0_1 : S1x64.ReducesTo [0, 1] S_

variable [Facts]

def fn_part2 {F : FTy → Type} [FloatOps F] (main_arg7 : FVec F S256x64 .f32) (main_arg8 : FVec F S1x64 .f32) (main_v33 : IVec S_ 1) : IVec S_ 1 :=
  let main_v34 : FVec F S256x64 .f32 := Host.absf main_arg7
  let main_cst_12 : FVec F S_ .f32 := constant S_ .f32 0x7F800000#32
  let main_v35 : FVec F S256x64 .f32 := broadcastInDim S256x64 ![] bcast_S_S256x64 main_cst_12
  let main_v36 : IVec S256x64 1 := cmpf .olt main_v34 main_v35
  let main_c_13 : IVec S_ 1 := constantI S_ 1 1#1
  let main_v37 : IVec S_ 1 := (fun x v => Host.reduce IntOp.andi x v reducesTo_S256x64_S_d0_1 h_S_) main_v36 main_c_13
  let main_v38 : IVec S_ 1 := andi main_v33 main_v37
  let main_v39 : FVec F S1x64 .f32 := Host.absf main_arg8
  let main_cst_14 : FVec F S_ .f32 := constant S_ .f32 0x7F800000#32
  let main_v40 : FVec F S1x64 .f32 := broadcastInDim S1x64 ![] bcast_S_S1x64 main_cst_14
  let main_v41 : IVec S1x64 1 := cmpf .olt main_v39 main_v40
  let main_c_15 : IVec S_ 1 := constantI S_ 1 1#1
  let main_v42 : IVec S_ 1 := (fun x v => Host.reduce IntOp.andi x v reducesTo_S1x64_S_d0_1 h_S_) main_v41 main_c_15
  let main_v43 : IVec S_ 1 := andi main_v38 main_v42
  main_v43

def fn_part1 {F : FTy → Type} [FloatOps F] (main_arg4 : FVec F S128x256 .f32) (main_arg5 : FVec F S1x256 .f32) (main_arg6 : FVec F S256x64 .f32) (main_arg7 : FVec F S256x64 .f32) (main_arg8 : FVec F S1x64 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128x256 .f32 := Host.absf main_arg4
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S1x256 .f32 := Host.absf main_arg5
  let main_cst_8 : FVec F S_ .f32 := constant S_ .f32 0x7F800000#32
  let main_v25 : FVec F S1x256 .f32 := broadcastInDim S1x256 ![] bcast_S_S1x256 main_cst_8
  let main_v26 : IVec S1x256 1 := cmpf .olt main_v24 main_v25
  let main_c_9 : IVec S_ 1 := constantI S_ 1 1#1
  let main_v27 : IVec S_ 1 := (fun x v => Host.reduce IntOp.andi x v reducesTo_S1x256_S_d0_1 h_S_) main_v26 main_c_9
  let main_v28 : IVec S_ 1 := andi main_v23 main_v27
  let main_v29 : FVec F S256x64 .f32 := Host.absf main_arg6
  let main_cst_10 : FVec F S_ .f32 := constant S_ .f32 0x7F800000#32
  let main_v30 : FVec F S256x64 .f32 := broadcastInDim S256x64 ![] bcast_S_S256x64 main_cst_10
  let main_v31 : IVec S256x64 1 := cmpf .olt main_v29 main_v30
  let main_c_11 : IVec S_ 1 := constantI S_ 1 1#1
  let main_v32 : IVec S_ 1 := (fun x v => Host.reduce IntOp.andi x v reducesTo_S256x64_S_d0_1 h_S_) main_v31 main_c_11
  let main_v33 : IVec S_ 1 := andi main_v28 main_v32
  fn_part2 (F := F) main_arg7 main_arg8 main_v33

def fn {F : FTy → Type} [FloatOps F] (main_arg0 : FVec F S4096x128 .f32) (main_arg1 : FVec F S4096x4096 .f32) (main_arg2 : FVec F S4096 .f32) (main_arg3 : FVec F S128x256 .f32) (main_arg4 : FVec F S128x256 .f32) (main_arg5 : FVec F S1x256 .f32) (main_arg6 : FVec F S256x64 .f32) (main_arg7 : FVec F S256x64 .f32) (main_arg8 : FVec F S1x64 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_arg5 main_arg6 main_arg7 main_arg8 main_v13 main_v16
-- ==== Kernel.lean ====
abbrev S4096x128 : Shape := ⟨2, ![4096, 128]⟩
abbrev S4096x4096 : Shape := ⟨2, ![4096, 4096]⟩
abbrev S4096 : Shape := ⟨1, ![4096]⟩
abbrev S128x256 : Shape := ⟨2, ![128, 256]⟩
abbrev S1x256 : Shape := ⟨2, ![1, 256]⟩
abbrev S256x64 : Shape := ⟨2, ![256, 64]⟩
abbrev S1x64 : Shape := ⟨2, ![1, 64]⟩
abbrev S4096x1 : Shape := ⟨2, ![4096, 1]⟩
abbrev S_ : Shape := ⟨0, ![]⟩
abbrev S256x128 : Shape := ⟨2, ![256, 128]⟩
abbrev S1x128 : Shape := ⟨2, ![1, 128]⟩
abbrev S512x4096 : Shape := ⟨2, ![512, 4096]⟩
abbrev S512x128 : Shape := ⟨2, ![512, 128]⟩
abbrev S512x1 : Shape := ⟨2, ![512, 1]⟩
abbrev S512x256 : Shape := ⟨2, ![512, 256]⟩
abbrev S512 : Shape := ⟨1, ![512]⟩
abbrev S4096x64 : Shape := ⟨2, ![4096, 64]⟩

abbrev nBuf : Space → Nat
  | .hbm => 25
  | .vmem => 28
  | .smem => 0
  | _ => 0

abbrev bufTy : (tb : Table) → Fin (tcTables nBuf tb) → BufTy
  | .hbm, ⟨0, _⟩ => ⟨S4096x128, .f32⟩
  | .hbm, ⟨1, _⟩ => ⟨S4096x4096, .f32⟩
  | .hbm, ⟨2, _⟩ => ⟨S4096, .f32⟩
  | .hbm, ⟨3, _⟩ => ⟨S128x256, .f32⟩
  | .hbm, ⟨4, _⟩ => ⟨S128x256, .f32⟩
  | .hbm, ⟨5, _⟩ => ⟨S1x256, .f32⟩
  | .hbm, ⟨6, _⟩ => ⟨S256x64, .f32⟩
  | .hbm, ⟨7, _⟩ => ⟨S256x64, .f32⟩
  | .hbm, ⟨8, _⟩ => ⟨S1x64, .f32⟩
  | .hbm, ⟨9, _⟩ => ⟨S4096x128, .bf16⟩
  | .hbm, ⟨10, _⟩ => ⟨S4096x1, .f32⟩
  | .hbm, ⟨11, _⟩ => ⟨S_, .i32⟩
  | .hbm, ⟨12, _⟩ => ⟨S_, .f32⟩
  | .hbm, ⟨13, _⟩ => ⟨S256x128, .f32⟩
  | .hbm, ⟨14, _⟩ => ⟨S_, .i32⟩
  | .hbm, ⟨15, _⟩ => ⟨S_, .f32⟩
  | .hbm, ⟨16, _⟩ => ⟨S256x128, .f32⟩
  | .hbm, ⟨17, _⟩ => ⟨S_, .i32⟩
  | .hbm, ⟨18, _⟩ => ⟨S_, .f32⟩
  | .hbm, ⟨19, _⟩ => ⟨S1x128, .f32⟩
  | .hbm, ⟨20, _⟩ => ⟨S4096x128, .bf16⟩
  | .hbm, ⟨21, _⟩ => ⟨S4096x128, .f32⟩
  | .hbm, ⟨22, _⟩ => ⟨S4096x4096, .bf16⟩
  | .hbm, ⟨23, _⟩ => ⟨S4096x128, .f32⟩
  | .hbm, ⟨24, _⟩ => ⟨S4096x64, .f32⟩
  | .local _ .vmem, ⟨0, _⟩ => ⟨S512x4096, .f32⟩
  | .local _ .vmem, ⟨1, _⟩ => ⟨S512x4096, .f32⟩
  | .local _ .vmem, ⟨2, _⟩ => ⟨S4096x128, .bf16⟩
  | .local _ .vmem, ⟨3, _⟩ => ⟨S512x128, .f32⟩
  | .local _ .vmem, ⟨4, _⟩ => ⟨S512x128, .f32⟩
  | .local _ .vmem, ⟨5, _⟩ => ⟨S512x1, .f32⟩
  | .local _ .vmem, ⟨6, _⟩ => ⟨S512x1, .f32⟩
  | .local _ .vmem, ⟨7, _⟩ => ⟨S128x256, .f32⟩
  | .local _ .vmem, ⟨8, _⟩ => ⟨S128x256, .f32⟩
  | .local _ .vmem, ⟨9, _⟩ => ⟨S1x256, .f32⟩
  | .local _ .vmem, ⟨10, _⟩ => ⟨S256x128, .f32⟩
  | .local _ .vmem, ⟨11, _⟩ => ⟨S256x128, .f32⟩
  | .local _ .vmem, ⟨12, _⟩ => ⟨S1x128, .f32⟩
  | .local _ .vmem, ⟨13, _⟩ => ⟨S512x128, .bf16⟩
  | .local _ .vmem, ⟨14, _⟩ => ⟨S512x128, .bf16⟩
  | .local _ .vmem, ⟨15, _⟩ => ⟨S512x128, .f32⟩
  | .local _ .vmem, ⟨16, _⟩ => ⟨S512x128, .f32⟩
  | .local _ .vmem, ⟨17, _⟩ => ⟨S512x4096, .bf16⟩
  | .local _ .vmem, ⟨18, _⟩ => ⟨S512x4096, .bf16⟩
  | .local _ .vmem, ⟨19, _⟩ => ⟨S512x4096, .bf16⟩
  | .local _ .vmem, ⟨20, _⟩ => ⟨S512x4096, .bf16⟩
  | .local _ .vmem, ⟨21, _⟩ => ⟨S4096x128, .bf16⟩
  | .local _ .vmem, ⟨22, _⟩ => ⟨S512x1, .f32⟩
  | .local _ .vmem, ⟨23, _⟩ => ⟨S512x1, .f32⟩
  | .local _ .vmem, ⟨24, _⟩ => ⟨S512x128, .f32⟩
  | .local _ .vmem, ⟨25, _⟩ => ⟨S512x128, .f32⟩
  | .local _ .vmem, ⟨26, _⟩ => ⟨S512x128, .f32⟩
  | .local _ .vmem, ⟨27, _⟩ => ⟨S512x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_call0_v0 : Ref sig .tc := ⟨.hbm, 12, rfl⟩
abbrev main_v2 : Ref sig .tc := ⟨.hbm, 13, rfl⟩
abbrev main_c_0 : Ref sig .tc := ⟨.hbm, 14, rfl⟩
abbrev main_call1_v0 : Ref sig .tc := ⟨.hbm, 15, rfl⟩
abbrev main_v3 : Ref sig .tc := ⟨.hbm, 16, rfl⟩
abbrev main_c_1 : Ref sig .tc := ⟨.hbm, 17, rfl⟩
abbrev main_call2_v0 : Ref sig .tc := ⟨.hbm, 18, rfl⟩
abbrev main_v4 : Ref sig .tc := ⟨.hbm, 19, rfl⟩
abbrev main_v5_0 : Ref sig .tc := ⟨.hbm, 20, rfl⟩
abbrev main_v5_1 : Ref sig .tc := ⟨.hbm, 21, rfl⟩
abbrev main_v5_2 : Ref sig .tc := ⟨.hbm, 22, rfl⟩
abbrev main_v6 : Ref sig .tc := ⟨.hbm, 23, rfl⟩
abbrev main_v7 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc1_sem0_0 : DmaSem sig := 19
abbrev cc1_sem0_1 : DmaSem sig := 20
abbrev cc1_sem1_0 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x4096 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bitsLt_bf16_f32 : FTy.bits .bf16 < FTy.bits .f32
  shapeCasts_S4096_S4096x1 : S4096.ShapeCasts S4096x1
  pads_S256x64_S256x128_000_0640 : S256x64.Pads (![0, 0] : Fin 2 → Nat) ![0, 64] ![0, 0] S256x128
  h_S_ : 0 < S_.numel
  pads_S1x64_S1x128_000_0640 : S1x64.Pads (![0, 0] : Fin 2 → Nat) ![0, 64] ![0, 0] S1x128
  inb_S512x4096_S512x4096_0_0 : ∀ a, (![0, 0] : Fin 2 → Nat) a + S512x4096.size a ≤ S512x4096.size a
  h_S512x4096 : 0 < S512x4096.numel
  packedbf16_S512x4096_S512x4096_0_0 : (Rect.unit (s := S512x4096) ![0, 0] S512x4096.size inb_S512x4096_S512x4096_0_0).PackedRows (EltTy.packing .bf16)
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x128 : S512x1.Broadcasts S512x128
  inb_S128x256_S128x256_0_0 : ∀ a, (![0, 0] : Fin 2 → Nat) a + S128x256.size a ≤ S128x256.size a
  h_S128x256 : 0 < S128x256.numel
  inb_S512x128_S512x128_0_0 : ∀ a, (![0, 0] : Fin 2 → Nat) a + S512x128.size a ≤ S512x128.size a
  h_S512x128 : 0 < S512x128.numel
  inb_S1x256_S1x256_0_0 : ∀ a, (![0, 0] : Fin 2 → Nat) a + S1x256.size a ≤ S1x256.size a
  h_S1x256 : 0 < S1x256.numel
  broadcasts_S1x256_S512x256 : S1x256.Broadcasts S512x256
  reduces_S512x256_S512 : S512x256.Reduces [1] S512
  shapeCasts_S512_S512x1 : S512.ShapeCasts S512x1
  broadcasts_S512x1_S512x256 : S512x1.Broadcasts S512x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  packedbf16_S512x128_S512x128_0_0 : (Rect.unit (s := S512x128) ![0, 0] S512x128.size inb_S512x128_S512x128_0_0).PackedRows (EltTy.packing .bf16)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  shapeCasts_S512x4096_S512x4096 : S512x4096.ShapeCasts S512x4096
  shapeCasts_S512x128_S512x128 : S512x128.ShapeCasts S512x128
  reduces_S512x128_S512 : S512x128.Reduces [1] S512
  iota_S512x128_d1_w32 : S512x128.Iotas .tc 32 [1]
  slices_S4096x128_S4096x64_0_0 : S4096x128.Slices ![0, 0] S4096x64
  dot_S512x4096_S4096x128_S512x128_1_0_0_1_n_n_wf : DotDims.WF S512x4096 S4096x128 S512x128 [1] [0] [0] [1] [] []
  dot_S512x128_S128x256_S512x256_1_0_0_1_n_n_wf : DotDims.WF S512x128 S128x256 S512x256 [1] [0] [0] [1] [] []
  dot_S512x256_S256x128_S512x128_1_0_0_1_n_n_wf : DotDims.WF S512x256 S256x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S4096x128.size a
  hwx0_1 : ∀ i : grid0.Coords, EltTy.bits .bf16 = 32 ∨ (Rect.block (s := S4096x128) S4096x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S4096x128.size a
  hwx0_2 : ∀ i : grid0.Coords, EltTy.bits .f32 = 32 ∨ (Rect.block (s := S4096x128) S512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S4096x1.size a
  hwx0_3 : ∀ i : grid0.Coords, EltTy.bits .f32 = 32 ∨ (Rect.block (s := S4096x1) S512x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .f32 = 32 ∨ (Rect.block (s := S128x256) S128x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S256x128.size a
  hwx0_7 : ∀ i : grid0.Coords, EltTy.bits .f32 = 32 ∨ (Rect.block (s := S256x128) S256x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x128.size a ≤ S256x128.size a
  hwx0_8 : ∀ i : grid0.Coords, EltTy.bits .f32 = 32 ∨ (Rect.block (s := S256x128) S256x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x128.size a ≤ S4096x128.size a
  hwx0_10 : ∀ i : grid0.Coords, EltTy.bits .bf16 = 32 ∨ (Rect.block (s := S4096x128) S512x128.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x128.size a ≤ S4096x128.size a
  hwx0_11 : ∀ i : grid0.Coords, EltTy.bits .f32 = 32 ∨ (Rect.block (s := S4096x128) S512x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x4096.size a ≤ S4096x4096.size a
  hwx0_12 : ∀ i : grid0.Coords, EltTy.bits .bf16 = 32 ∨ (Rect.block (s := S4096x4096) S512x4096.size (cc0_transform_12 i) (hinb0_12 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .bf16 = 32 ∨ (Rect.block (s := S4096x4096) S512x4096.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S4096x128.size a
  hwx1_1 : ∀ i : grid1.Coords, EltTy.bits .bf16 = 32 ∨ (Rect.block (s := S4096x128) S4096x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S4096x1.size a
  hwx1_2 : ∀ i : grid1.Coords, EltTy.bits .f32 = 32 ∨ (Rect.block (s := S4096x1) S512x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x128.size a ≤ S4096x128.size a
  hwx1_3 : ∀ i : grid1.Coords, EltTy.bits .f32 = 32 ∨ (Rect.block (s := S4096x128) S512x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x128.size a ≤ S4096x128.size a
  hwx1_4 : ∀ i : grid1.Coords, EltTy.bits .f32 = 32 ∨ (Rect.block (s := S4096x128) S512x128.size (cc1_transform_4 i) (hinb1_4 i)).WholeWords (EltTy.packing .f32)

variable [Facts₀]

def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf
def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S256x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S256x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5_0) S512x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v5_1) S512x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v5_2) S512x4096.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_v5_2) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5_0) S4096x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5_1) S512x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v6) S512x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4096x128 : Shape := ⟨2, ![4096, 128]⟩
abbrev S4096x4096 : Shape := ⟨2, ![4096, 4096]⟩
abbrev S4096 : Shape := ⟨1, ![4096]⟩
abbrev S128x256 : Shape := ⟨2, ![128, 256]⟩
abbrev S1x256 : Shape := ⟨2, ![1, 256]⟩
abbrev S256x64 : Shape := ⟨2, ![256, 64]⟩
abbrev S1x64 : Shape := ⟨2, ![1, 64]⟩
abbrev S0 : Shape := ⟨1, ![0]⟩
abbrev S_ : Shape := ⟨0, ![]⟩
abbrev S4096x1 : Shape := ⟨2, ![4096, 1]⟩
abbrev S256x128 : Shape := ⟨2, ![256, 128]⟩
abbrev S1 : Shape := ⟨1, ![1]⟩
abbrev S1x128 : Shape := ⟨2, ![1, 128]⟩
abbrev S512x512 : Shape := ⟨2, ![512, 512]⟩
abbrev S512x1 : Shape := ⟨2, ![512, 1]⟩
abbrev S512x128 : Shape := ⟨2, ![512, 128]⟩
abbrev S512x256 : Shape := ⟨2, ![512, 256]⟩
abbrev S512 : Shape := ⟨1, ![512]⟩
abbrev S4096x64 : Shape := ⟨2, ![4096, 64]⟩

abbrev nBuf : Space → Nat
  | .hbm => 54
  | .vmem => 26
  | .smem => 0
  | _ => 0

abbrev bufTy : (tb : Table) → Fin (tcTables nBuf tb) → BufTy
  | .hbm, ⟨0, _⟩ => ⟨S4096x128, .f32⟩
  | .hbm, ⟨1, _⟩ => ⟨S4096x4096, .f32⟩
  | .hbm, ⟨2, _⟩ => ⟨S4096, .f32⟩
  | .hbm, ⟨3, _⟩ => ⟨S128x256, .f32⟩
  | .hbm, ⟨4, _⟩ => ⟨S128x256, .f32⟩
  | .hbm, ⟨5, _⟩ => ⟨S1x256, .f32⟩
  | .hbm, ⟨6, _⟩ => ⟨S256x64, .f32⟩
  | .hbm, ⟨7, _⟩ => ⟨S256x64, .f32⟩
  | .hbm, ⟨8, _⟩ => ⟨S1x64, .f32⟩
  | .hbm, ⟨9, _⟩ => ⟨S0, .i32⟩
  | .hbm, ⟨10, _⟩ => ⟨S0, .i32⟩
  | .hbm, ⟨11, _⟩ => ⟨S0, .i32⟩
  | .hbm, ⟨12, _⟩ => ⟨S0, .i32⟩
  | .hbm, ⟨13, _⟩ => ⟨S0, .i32⟩
  | .hbm, ⟨14, _⟩ => ⟨S0, .i32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S4096x4096, .bf16⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x128, .f32⟩
  | .hbm, ⟨25, _⟩ => ⟨S4096x128, .f32⟩
  | .hbm, ⟨26, _⟩ => ⟨S_, .f32⟩
  | .hbm, ⟨27, _⟩ => ⟨S128x256, .f32⟩
  | .hbm, ⟨28, _⟩ => ⟨S128x256, .f32⟩
  | .hbm, ⟨29, _⟩ => ⟨S_, .f32⟩
  | .hbm, ⟨30, _⟩ => ⟨S128x256, .f32⟩
  | .hbm, ⟨31, _⟩ => ⟨S128x256, .f32⟩
  | .hbm, ⟨32, _⟩ => ⟨S_, .f32⟩
  | .hbm, ⟨33, _⟩ => ⟨S1x256, .f32⟩
  | .hbm, ⟨34, _⟩ => ⟨S1x256, .f32⟩
  | .hbm, ⟨35, _⟩ => ⟨S_, .f32⟩
  | .hbm, ⟨36, _⟩ => ⟨S256x128, .f32⟩
  | .hbm, ⟨37, _⟩ => ⟨S_, .i32⟩
  | .hbm, ⟨38, _⟩ => ⟨S1, .i32⟩
  | .hbm, ⟨39, _⟩ => ⟨S256x128, .f32⟩
  | .hbm, ⟨40, _⟩ => ⟨S_, .f32⟩
  | .hbm, ⟨41, _⟩ => ⟨S256x128, .f32⟩
  | .hbm, ⟨42, _⟩ => ⟨S_, .i32⟩
  | .hbm, ⟨43, _⟩ => ⟨S1, .i32⟩
  | .hbm, ⟨44, _⟩ => ⟨S256x128, .f32⟩
  | .hbm, ⟨45, _⟩ => ⟨S_, .f32⟩
  | .hbm, ⟨46, _⟩ => ⟨S1x128, .f32⟩
  | .hbm, ⟨47, _⟩ => ⟨S_, .i32⟩
  | .hbm, ⟨48, _⟩ => ⟨S1, .i32⟩
  | .hbm, ⟨49, _⟩ => ⟨S1x128, .f32⟩
  | .hbm, ⟨50, _⟩ => ⟨S4096x128, .f32⟩
  | .hbm, ⟨51, _⟩ => ⟨S4096x128, .f32⟩
  | .hbm, ⟨52, _⟩ => ⟨S4096x128, .f32⟩
  | .hbm, ⟨53, _⟩ => ⟨S4096x64, .f32⟩
  | .local _ .vmem, ⟨0, _⟩ => ⟨S512x512, .bf16⟩
  | .local _ .vmem, ⟨1, _⟩ => ⟨S512x512, .bf16⟩
  | .local _ .vmem, ⟨2, _⟩ => ⟨S4096x128, .f32⟩
  | .local _ .vmem, ⟨3, _⟩ => ⟨S512x1, .f32⟩
  | .local _ .vmem, ⟨4, _⟩ => ⟨S512x1, .f32⟩
  | .local _ .vmem, ⟨5, _⟩ => ⟨S128x256, .f32⟩
  | .local _ .vmem, ⟨6, _⟩ => ⟨S128x256, .f32⟩
  | .local _ .vmem, ⟨7, _⟩ => ⟨S1x256, .f32⟩
  | .local _ .vmem, ⟨8, _⟩ => ⟨S256x128, .f32⟩
  | .local _ .vmem, ⟨9, _⟩ => ⟨S256x128, .f32⟩
  | .local _ .vmem, ⟨10, _⟩ => ⟨S1x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x512, .bf16⟩
  | .local _ .vmem, ⟨17, _⟩ => ⟨S512x512, .bf16⟩
  | .local _ .vmem, ⟨18, _⟩ => ⟨S4096x128, .f32⟩
  | .local _ .vmem, ⟨19, _⟩ => ⟨S512x1, .f32⟩
  | .local _ .vmem, ⟨20, _⟩ => ⟨S512x1, .f32⟩
  | .local _ .vmem, ⟨21, _⟩ => ⟨S512x128, .f32⟩
  | .local _ .vmem, ⟨22, _⟩ => ⟨S512x128, .f32⟩
  | .local _ .vmem, ⟨23, _⟩ => ⟨S512x128, .f32⟩
  | .local _ .vmem, ⟨24, _⟩ => ⟨S512x128, .f32⟩
  | .local _ .vmem, ⟨25, _⟩ => ⟨S512x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_c_1 : Ref sig .tc := ⟨.hbm, 11, rfl⟩
abbrev main_c_2 : Ref sig .tc := ⟨.hbm, 12, rfl⟩
abbrev main_c_3 : Ref sig .tc := ⟨.hbm, 13, rfl⟩
abbrev main_c_4 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_5 : Ref sig .tc := ⟨.hbm, 20, rfl⟩
abbrev main_v4 : Ref sig .tc := ⟨.hbm, 21, rfl⟩
abbrev main_v5 : Ref sig .tc := ⟨.hbm, 22, rfl⟩
abbrev main_cst_6 : Ref sig .tc := ⟨.hbm, 23, rfl⟩
abbrev main_v6 : Ref sig .tc := ⟨.hbm, 24, rfl⟩
abbrev main_v7 : Ref sig .tc := ⟨.hbm, 25, rfl⟩
abbrev main_cst_7 : Ref sig .tc := ⟨.hbm, 26, rfl⟩
abbrev main_v8 : Ref sig .tc := ⟨.hbm, 27, rfl⟩
abbrev main_v9 : Ref sig .tc := ⟨.hbm, 28, rfl⟩
abbrev main_cst_8 : Ref sig .tc := ⟨.hbm, 29, rfl⟩
abbrev main_v10 : Ref sig .tc := ⟨.hbm, 30, rfl⟩
abbrev main_v11 : Ref sig .tc := ⟨.hbm, 31, rfl⟩
abbrev main_cst_9 : Ref sig .tc := ⟨.hbm, 32, rfl⟩
abbrev main_v12 : Ref sig .tc := ⟨.hbm, 33, rfl⟩
abbrev main_v13 : Ref sig .tc := ⟨.hbm, 34, rfl⟩
abbrev main_cst_10 : Ref sig .tc := ⟨.hbm, 35, rfl⟩
abbrev main_v14 : Ref sig .tc := ⟨.hbm, 36, rfl⟩
abbrev main_c_11 : Ref sig .tc := ⟨.hbm, 37, rfl⟩
abbrev main_v15 : Ref sig .tc := ⟨.hbm, 38, rfl⟩
abbrev main_v16 : Ref sig .tc := ⟨.hbm, 39, rfl⟩
abbrev main_cst_12 : Ref sig .tc := ⟨.hbm, 40, rfl⟩
abbrev main_v17 : Ref sig .tc := ⟨.hbm, 41, rfl⟩
abbrev main_c_13 : Ref sig .tc := ⟨.hbm, 42, rfl⟩
abbrev main_v18 : Ref sig .tc := ⟨.hbm, 43, rfl⟩
abbrev main_v19 : Ref sig .tc := ⟨.hbm, 44, rfl⟩
abbrev main_cst_14 : Ref sig .tc := ⟨.hbm, 45, rfl⟩
abbrev main_v20 : Ref sig .tc := ⟨.hbm, 46, rfl⟩
abbrev main_c_15 : Ref sig .tc := ⟨.hbm, 47, rfl⟩
abbrev main_v21 : Ref sig .tc := ⟨.hbm, 48, rfl⟩
abbrev main_v22 : Ref sig .tc := ⟨.hbm, 49, rfl⟩
abbrev main_v23_0 : Ref sig .tc := ⟨.hbm, 50, rfl⟩
abbrev main_v23_1 : Ref sig .tc := ⟨.hbm, 51, rfl⟩
abbrev main_v24 : Ref sig .tc := ⟨.hbm, 52, rfl⟩
abbrev main_v25 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc1_sem0_0 : DmaSem sig := 15
abbrev cc1_sem0_1 : DmaSem sig := 16
abbrev cc1_sem1_0 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0 : Index := 0#32
  ![v5.toNat, 0]
def k0_cond2 (i : grid0.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_7 : BitVec 32 := 0#32
  let v19 : BitVec 1 := Scalar.cmpi .ne v18 c0_i32_7
  v19

def k0_mult2 (i : grid0.Coords) : BitVec 32 :=
  let arg0 : BitVec 32 := BitVec.ofNat 32 (i 0).val
  let c512_i32_12 : BitVec 32 := 512#32
  let v25 : BitVec 32 := Scalar.muli arg0 c512_i32_12
  v25
def k0_off2 (i : grid0.Coords) : Fin 2 → Nat :=
  let arg0 : BitVec 32 := BitVec.ofNat 32 (i 0).val
  let c512_i32_12 : BitVec 32 := 512#32
  let v25 : BitVec 32 := Scalar.muli arg0 c512_i32_12
  let v26 : BitVec 32 := v25
  let v27 : Index := Scalar.indexCast v26
  let c0_13 : Index := 0#32
  ![v27.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev grid1 : Pipeline.Grid := ⟨2, ![8, 8], ![false, false]⟩

def k1_mult1 (i : grid1.Coords) : BitVec 32 :=
  let arg1 : BitVec 32 := BitVec.ofNat 32 (i 1).val
  let c512_i32 : BitVec 32 := 512#32
  let v3 : BitVec 32 := Scalar.muli arg1 c512_i32
  v3
def k1_off1 (i : grid1.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0 : Index := 0#32
  ![v5.toNat, 0]
def k1_cond2 (i : grid1.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_7 : BitVec 32 := 0#32
  let v19 : BitVec 1 := Scalar.cmpi .ne v18 c0_i32_7
  v19

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S4096x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  hz_S0 : S0.numel = 0
  bcast_S_S4096x4096 : S_.BroadcastsInDim S4096x4096 (![] : Fin 0 → Fin S4096x4096.rank)
  bitsLt_bf16_f32 : FTy.bits .bf16 < FTy.bits .f32
  shapeCasts_S4096_S4096x1 : S4096.ShapeCasts S4096x1
  bcast_S_S4096x1 : S_.BroadcastsInDim S4096x1 (![] : Fin 0 → Fin S4096x1.rank)
  bcast_S_S4096x128 : S_.BroadcastsInDim S4096x128 (![] : Fin 0 → Fin S4096x128.rank)
  bcast_S_S128x256 : S_.BroadcastsInDim S128x256 (![] : Fin 0 → Fin S128x256.rank)
  bcast_S_S1x256 : S_.BroadcastsInDim S1x256 (![] : Fin 0 → Fin S1x256.rank)
  bcast_S_S256x128 : S_.BroadcastsInDim S256x128 (![] : Fin 0 → Fin S256x128.rank)
  bcast_S_S1 : S_.BroadcastsInDim S1 (![] : Fin 0 → Fin S1.rank)
  bcast_S_S1x128 : S_.BroadcastsInDim S1x128 (![] : Fin 0 → Fin S1x128.rank)
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x128 : S512x1.Broadcasts S512x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  reduces_S512x256_S512 : S512x256.Reduces [1] S512
  shapeCasts_S512_S512x1 : S512.ShapeCasts S512x1
  broadcasts_S512x1_S512x256 : S512x1.Broadcasts S512x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  reduces_S512x128_S512 : S512x128.Reduces [1] S512
  iota_S512x128_d1_w32 : S512x128.Iotas .tc 32 [1]
  slices_S4096x128_S4096x64_0_0 : S4096x128.Slices ![0, 0] S4096x64
  scatter_S4096x4096_S0_S4096x4096_01_n_n_0_wf : ScatterDims.WF S4096x4096 S0 S4096x4096 [0, 1] [] [] 0
  scatter_S4096x1_S0_S4096x1_01_n_n_0_wf : ScatterDims.WF S4096x1 S0 S4096x1 [0, 1] [] [] 0
  scatter_S4096x128_S0_S4096x128_01_n_n_0_wf : ScatterDims.WF S4096x128 S0 S4096x128 [0, 1] [] [] 0
  scatter_S128x256_S0_S128x256_01_n_n_0_wf : ScatterDims.WF S128x256 S0 S128x256 [0, 1] [] [] 0
  scatter_S1x256_S0_S1x256_01_n_n_0_wf : ScatterDims.WF S1x256 S0 S1x256 [0, 1] [] [] 0
  scatter_S256x128_S1_S256x64_01_n_1_0_wf : ScatterDims.WF S256x128 S1 S256x64 [0, 1] [] [1] 0
  scatter_S1x128_S1_S1x64_01_n_1_0_wf : ScatterDims.WF S1x128 S1 S1x64 [0, 1] [] [1] 0
  dot_S512x512_S512x128_S512x128_1_0_0_1_n_n_wf : DotDims.WF S512x512 S512x128 S512x128 [1] [0] [0] [1] [] []
  dot_S512x128_S128x256_S512x256_1_0_0_1_n_n_wf : DotDims.WF S512x128 S128x256 S512x256 [1] [0] [0] [1] [] []
  dot_S512x256_S256x128_S512x128_1_0_0_1_n_n_wf : DotDims.WF S512x256 S256x128 S512x128 [1] [0] [0] [1] [] []
  hrank0 : 0 < grid0.rank
  k0_mult1_dvd : ∀ i : grid0.Coords, 512 ∣ (k0_mult1 i).toNat
  k0_off1_inb : ∀ i : grid0.Coords, ∀ a, (k0_off1 i) a + S512x128.size a ≤ S4096x128.size a
  k0_mult2_dvd : ∀ i : grid0.Coords, ∀ (k0_h2 : k0_cond2 i = 1#1), 512 ∣ (k0_mult2 i).toNat
  k0_off2_inb : ∀ i : grid0.Coords, ∀ (k0_h2 : k0_cond2 i = 1#1), ∀ a, (k0_off2 i) a + S512x128.size a ≤ S4096x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x4096.size a
  hwx0_0 : ∀ i : grid0.Coords, EltTy.bits .bf16 = 32 ∨ (Rect.block (s := S4096x4096) S512x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S4096x128.size a
  hwx0_1 : ∀ i : grid0.Coords, EltTy.bits .f32 = 32 ∨ (Rect.block (s := S4096x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .f32 = 32 ∨ (Rect.block (s := S4096x1) S512x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x128.size a ≤ S256x128.size a
  hwx0_6 : ∀ i : grid0.Coords, EltTy.bits .f32 = 32 ∨ (Rect.block (s := S256x128) S256x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S256x128.size a
  hwx0_7 : ∀ i : grid0.Coords, EltTy.bits .f32 = 32 ∨ (Rect.block (s := S256x128) S256x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x128.size a ≤ S4096x128.size a
  hwx0_9 : ∀ i : grid0.Coords, EltTy.bits .f32 = 32 ∨ (Rect.block (s := S4096x128) S512x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x128.size a ≤ S4096x128.size a
  hwx0_10 : ∀ i : grid0.Coords, EltTy.bits .f32 = 32 ∨ (Rect.block (s := S4096x128) S512x128.size (cc0_transform_10 i) (hinb0_10 i)).WholeWords (EltTy.packing .f32)
  hrank1 : 0 < grid1.rank
  k1_mult1_dvd : ∀ i : grid1.Coords, 512 ∣ (k1_mult1 i).toNat
  k1_off1_inb : ∀ i : grid1.Coords, ∀ a, (k1_off1 i) a + S512x128.size a ≤ S4096x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S4096x4096.size a
  hwx1_0 : ∀ i : grid1.Coords, EltTy.bits .bf16 = 32 ∨ (Rect.block (s := S4096x4096) S512x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S4096x128.size a
  hwx1_1 : ∀ i : grid1.Coords, EltTy.bits .f32 = 32 ∨ (Rect.block (s := S4096x128) S4096x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S4096x1.size a
  hwx1_2 : ∀ i : grid1.Coords, EltTy.bits .f32 = 32 ∨ (Rect.block (s := S4096x1) S512x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x128.size a ≤ S4096x128.size a
  hwx1_3 : ∀ i : grid1.Coords, EltTy.bits .f32 = 32 ∨ (Rect.block (s := S4096x128) S512x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x128.size a ≤ S4096x128.size a
  hwx1_4 : ∀ i : grid1.Coords, EltTy.bits .f32 = 32 ∨ (Rect.block (s := S4096x128) S512x128.size (cc1_transform_4 i) (hinb1_4 i)).WholeWords (EltTy.packing .f32)

variable [Facts₀]

def scatter_S4096x4096_S0_S4096x4096_01_n_n_0 : ScatterDims S4096x4096 S0 S4096x4096 where
  updateWindowDims := [0, 1]
  insertedWindowDims := []
  scatterDimsToOperandDims := []
  indexVectorDim := 0
  wf := scatter_S4096x4096_S0_S4096x4096_01_n_n_0_wf
def scatter_S4096x1_S0_S4096x1_01_n_n_0 : ScatterDims S4096x1 S0 S4096x1 where
  updateWindowDims := [0, 1]
  insertedWindowDims := []
  scatterDimsToOperandDims := []
  indexVectorDim := 0
  wf := scatter_S4096x1_S0_S4096x1_01_n_n_0_wf
def scatter_S4096x128_S0_S4096x128_01_n_n_0 : ScatterDims S4096x128 S0 S4096x128 where
  updateWindowDims := [0, 1]
  insertedWindowDims := []
  scatterDimsToOperandDims := []
  indexVectorDim := 0
  wf := scatter_S4096x128_S0_S4096x128_01_n_n_0_wf
def scatter_S128x256_S0_S128x256_01_n_n_0 : ScatterDims S128x256 S0 S128x256 where
  updateWindowDims := [0, 1]
  insertedWindowDims := []
  scatterDimsToOperandDims := []
  indexVectorDim := 0
  wf := scatter_S128x256_S0_S128x256_01_n_n_0_wf
def scatter_S1x256_S0_S1x256_01_n_n_0 : ScatterDims S1x256 S0 S1x256 where
  updateWindowDims := [0, 1]
  insertedWindowDims := []
  scatterDimsToOperandDims := []
  indexVectorDim := 0
  wf := scatter_S1x256_S0_S1x256_01_n_n_0_wf
def scatter_S256x128_S1_S256x64_01_n_1_0 : ScatterDims S256x128 S1 S256x64 where
  updateWindowDims := [0, 1]
  insertedWindowDims := []
  scatterDimsToOperandDims := [1]
  indexVectorDim := 0
  wf := scatter_S256x128_S1_S256x64_01_n_1_0_wf
def scatter_S1x128_S1_S1x64_01_n_1_0 : ScatterDims S1x128 S1 S1x64 where
  updateWindowDims := [0, 1]
  insertedWindowDims := []
  scatterDimsToOperandDims := [1]
  indexVectorDim := 0
  wf := scatter_S1x128_S1_S1x64_01_n_1_0_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf

abbrev win0_0 : Pipeline.Window sig grid0 :=
  Pipeline.Window.ofSpec (Memref.whole main_v2) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S4096x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S256x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S256x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v22) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v23_0) S512x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v23_1) S512x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | 10 => fun i => !(k0_cond2 i == 1#1) | ⟨_ + 11, h⟩ => absurd h (Nat.not_lt.2 (Nat.le_add_left _ _))

abbrev win1_0 : Pipeline.Window sig grid1 :=
  Pipeline.Window.ofSpec (Memref.whole main_v2) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23_0) S4096x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23_1) S512x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v24) S512x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== Proof.KerRun.lean ====
/-
  The first program's run with its result named: from any memory with zero counters every weakly fair execution of
  @main on the TensorCores terminates, nothing faulting, the result array ends at the last boundary's contents
  `W9 … main_v7` (the fold of the buffer contents through @main's segments) and every argument array ends as launched.
-/
import proofs.«173193_g2000702591456375_pallasbulk_739_11_alg».proof.Proof.Gen.KernelIdeal.Frame

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option backward.isDefEq.respectTransparency.types false in
/-- The run: the launch over @main's segments; the last thread state holds every unscoped buffer at `W9`, read against
    the final state; the result is one of those buffers, and each argument's fold walks back to the launch memory. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v7) = W9 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v7 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c)⟩)

end Cert.KernelIdeal.Hand

end
-- ==== Proof.Spec.lean ====
/-
  The functions both programs are compared against, at the exact values (floats are extended reals).

  The network is a two-layer mean-aggregation graph network on 4096 nodes, computed row tile by row tile
  (eight tiles of 512 nodes). For a row tile `i`:
    layer 1:  agg = (B_i · X) ∘ (1/deg)_i ;  h = agg · W1l + X_i · W1r + b1 ;  h ← h / max(‖h‖₂², ε²)^(1/2) ;  h ← max(h, 0) ;
              z2_i = h · W2l ,  s2_i = h · W2r + b2
    layer 2:  o = (B_i · z2) ∘ (1/deg)_i + s2_i ; o ← o / max(‖o‖₂², ε²)^(1/2) ; the log-softmax of o over its first 64 lanes,
              zero on the other lanes.
  The tile functions are the first program's own payload terms (one pure term per stored value); the whole arrays
  stack the eight tiles. `tile…` reads a row tile of a whole array, `stack…` builds a whole array from its tiles.
-/
import proofs.«173193_g2000702591456375_pallasbulk_739_11_alg».proof.Proof.Gen.KernelIdeal.Skeleton
import Idealize.ShloMosaic.PureOps.Ideal
import Idealize.ShloMosaic.Lib.ValueIdx

noncomputable section

namespace Cert.Sage

open Idealize.ShloMosaic Idealize.ShloMosaic.ValueIdx
open Cert.KernelIdeal Cert.KernelIdeal.Gen

variable [Cert.KernelIdeal.Facts]

/-! ## Row tiles of a 4096-row array, and a 4096-row array from its eight tiles -/

theorem tile_row_lt (i : Fin 8) (r : Nat) (hr : r < 512) : 512 * i.val + r < 4096 := by have := i.isLt; omega
theorem row_div_lt (r : Nat) (hr : r < 4096) : r / 512 < 8 := by omega
theorem row_mod_lt (r : Nat) : r % 512 < 512 := Nat.mod_lt _ (by decide)

/-- Rows `512 i … 512 i + 511` of an array of 4096 rows and 128 columns. -/
def tile128 (A : S4096x128.Idx → EReal) (i : Fin 8) : S512x128.Idx → EReal :=
  fun y => A (ix2 ⟨512 * i.val + (y 0).val, tile_row_lt i _ (idx2_lt0 y)⟩ ⟨(y 1).val, idx2_lt1 y⟩)
/-- Rows `512 i … 512 i + 511` of an array of 4096 rows and 4096 columns. -/
def tile4096 (A : S4096x4096.Idx → EReal) (i : Fin 8) : S512x4096.Idx → EReal :=
  fun y => A (ix2 ⟨512 * i.val + (y 0).val, tile_row_lt i _ (idx2_lt0 y)⟩ ⟨(y 1).val, idx2_lt1 y⟩)
/-- Rows `512 i … 512 i + 511` of a column of 4096 entries. -/
def tile1 (A : S4096x1.Idx → EReal) (i : Fin 8) : S512x1.Idx → EReal :=
  fun y => A (ix2 ⟨512 * i.val + (y 0).val, tile_row_lt i _ (idx2_lt0 y)⟩ ⟨(y 1).val, idx2_lt1 y⟩)

/-- The array of 4096 rows and 128 columns whose rows `512 i … 512 i + 511` are the tile `T i`. -/
def stack128 (T : Fin 8 → S512x128.Idx → EReal) : S4096x128.Idx → EReal :=
  fun j => T ⟨(j 0).val / 512, row_div_lt _ (idx2_lt0 j)⟩ (ix2 ⟨(j 0).val % 512, row_mod_lt _⟩ ⟨(j 1).val, idx2_lt1 j⟩)
/-- The array of 4096 rows and 4096 columns whose rows `512 i … 512 i + 511` are the tile `T i`. -/
def stack4096 (T : Fin 8 → S512x4096.Idx → EReal) : S4096x4096.Idx → EReal :=
  fun j => T ⟨(j 0).val / 512, row_div_lt _ (idx2_lt0 j)⟩ (ix2 ⟨(j 0).val % 512, row_mod_lt _⟩ ⟨(j 1).val, idx2_lt1 j⟩)

theorem tile128_stack128 (T : Fin 8 → S512x128.Idx → EReal) (i : Fin 8) : tile128 (stack128 T) i = T i := by
  funext y
  have h0 := idx2_lt0 y
  have hd : (512 * i.val + (y 0).val) / 512 = i.val := by omega
  have hm : (512 * i.val + (y 0).val) % 512 = (y 0).val := by omega
  unfold tile128 stack128
  have e1 : (⟨(512 * i.val + (y 0).val) / 512, row_div_lt _ (tile_row_lt i _ h0)⟩ : Fin 8) = i := Fin.ext hd
  have e2 : (ix2 (⟨(512 * i.val + (y 0).val) % 512, row_mod_lt _⟩ : Fin 512) (⟨(y 1).val, idx2_lt1 y⟩ : Fin 128) : S512x128.Idx) = y := by
    funext a; apply Fin.ext
    match a with
    | ⟨0, _⟩ => exact hm
    | ⟨1, _⟩ => rfl
  show T ⟨(512 * i.val + (y 0).val) / 512, _⟩ (ix2 ⟨(512 * i.val + (y 0).val) % 512, _⟩ ⟨(y 1).val, _⟩) = T i y
  rw [e1, e2]

theorem tile4096_stack4096 (T : Fin 8 → S512x4096.Idx → EReal) (i : Fin 8) : tile4096 (stack4096 T) i = T i := by
  funext y
  have h0 := idx2_lt0 y
  have hd : (512 * i.val + (y 0).val) / 512 = i.val := by omega
  have hm : (512 * i.val + (y 0).val) % 512 = (y 0).val := by omega
  unfold tile4096 stack4096
  have e1 : (⟨(512 * i.val + (y 0).val) / 512, row_div_lt _ (tile_row_lt i _ h0)⟩ : Fin 8) = i := Fin.ext hd
  have e2 : (ix2 (⟨(512 * i.val + (y 0).val) % 512, row_mod_lt _⟩ : Fin 512) (⟨(y 1).val, idx2_lt1 y⟩ : Fin 4096) : S512x4096.Idx) = y := by
    funext a; apply Fin.ext
    match a with
    | ⟨0, _⟩ => exact hm
    | ⟨1, _⟩ => rfl
  show T ⟨(512 * i.val + (y 0).val) / 512, _⟩ (ix2 ⟨(512 * i.val + (y 0).val) % 512, _⟩ ⟨(y 1).val, _⟩) = T i y
  rw [e1, e2]

/-! ## The two layers, tile by tile -/

/-- Layer 1's first output: `z2 = relu(normalize(((B·X)∘(1/deg))·W1l + X·W1r + b1))·W2l`, row tile by row tile. -/
def z2 (B : S4096x4096.Idx → EReal) (Xk X : S4096x128.Idx → EReal) (D : S4096x1.Idx → EReal)
    (W1l W1r : S128x256.Idx → EReal) (b1 : S1x256.Idx → EReal) (W2l : S256x128.Idx → EReal) : S4096x128.Idx → EReal :=
  stack128 fun i => k0_pay4 (F := Ideal) (tile4096 B i) Xk (tile1 D i) W1l (tile128 X i) W1r b1 W2l

/-- Layer 1's second output: `s2 = relu(normalize(…))·W2r + b2`, row tile by row tile. -/
def s2 (B : S4096x4096.Idx → EReal) (Xk X : S4096x128.Idx → EReal) (D : S4096x1.Idx → EReal)
    (W1l W1r : S128x256.Idx → EReal) (b1 : S1x256.Idx → EReal) (W2r : S256x128.Idx → EReal) (b2 : S1x128.Idx → EReal) : S4096x128.Idx → EReal :=
  stack128 fun i => k0_pay1 (F := Ideal) (k0_pay3 (F := Ideal) (tile4096 B i) Xk (tile1 D i) W1l (tile128 X i) W1r b1) W2r b2

/-- The copy of `B` layer 1 hands to layer 2 (a change of float format: the same numbers). -/
def bcopy (B : S4096x4096.Idx → EReal) : S4096x4096.Idx → EReal :=
  stack4096 fun i => k0_pay2 (F := Ideal) (tile4096 B i)

/-- Layer 2: the masked log-softmax of `normalize((B·z2)∘(1/deg) + s2)`, row tile by row tile. -/
def out (Bc : S4096x4096.Idx → EReal) (Z2 : S4096x128.Idx → EReal) (D : S4096x1.Idx → EReal) (S2 : S4096x128.Idx → EReal) : S4096x128.Idx → EReal :=
  stack128 fun i => k1_pay1 (F := Ideal) (tile4096 Bc i) Z2 (tile1 D i) (tile128 S2 i)

/-- The padded result of the whole network from the arrays the first region is entered with. -/
def padded (B : S4096x4096.Idx → EReal) (Xk X : S4096x128.Idx → EReal) (D : S4096x1.Idx → EReal)
    (W1l W1r : S128x256.Idx → EReal) (b1 : S1x256.Idx → EReal) (W2l W2r : S256x128.Idx → EReal) (b2 : S1x128.Idx → EReal) : S4096x128.Idx → EReal :=
  out (bcopy B) (z2 B Xk X D W1l W1r b1 W2l) D (s2 B Xk X D W1l W1r b1 W2r b2)

end Cert.Sage

end
-- ==== Proof.KerTiles.lean ====
/-
  Index arithmetic of the row tiling: an element of row tile `i` at the tile's coordinate `y` sits in the whole array at
  row `512 i + y₀` and column `y₁`; so a tile of an array, and a stack of tiles, are read at an index by one equation
  per axis.
-/
import proofs.«173193_g2000702591456375_pallasbulk_739_11_alg».proof.Proof.Spec
import Idealize.ShloMosaic.Lib.ValueIdx

noncomputable section

namespace Cert.KernelIdeal.Hand

open Idealize.ShloMosaic Idealize.ShloMosaic.TcCoe Idealize.SL.Sem Idealize.ShloMosaic.ValueIdx
open Cert.KernelIdeal Cert.KernelIdeal.Gen Cert.Sage

theorem hz : (![0, 0] : Fin 2 → Nat) = fun _ => 0 := funext fun a => by fin_cases a <;> rfl

/-- Equal coordinates, equal entries. -/
theorem apply_congr2 {d0 d1 : Nat} {α : Type} (A : (⟨2, ![d0, d1]⟩ : Shape).Idx → α) (k y : (⟨2, ![d0, d1]⟩ : Shape).Idx)
    (h0 : (k 0).val = (y 0).val) (h1 : (k 1).val = (y 1).val) : A k = A y := by
  refine congrArg A ?_
  funext a; apply Fin.ext
  match a with
  | ⟨0, _⟩ => exact h0
  | ⟨1, _⟩ => exact h1

/-! ## Reading a tile and a stack of tiles at an index

An element of row tile `i` at the tile's coordinate `y` sits in the whole array at row `512 i + y₀`, column `y₁`. -/

theorem tile128_apply (A : S4096x128.Idx → EReal) (i : Fin 8) (y : S512x128.Idx) (k : S4096x128.Idx)
    (h0 : (k 0).val = 512 * i.val + (y 0).val) (h1 : (k 1).val = (y 1).val) : tile128 A i y = A k := by
  unfold tile128
  refine congrArg A ?_
  funext a; apply Fin.ext
  match a with
  | ⟨0, _⟩ => exact h0.symm
  | ⟨1, _⟩ => exact h1.symm

theorem tile4096_apply (A : S4096x4096.Idx → EReal) (i : Fin 8) (y : S512x4096.Idx) (k : S4096x4096.Idx)
    (h0 : (k 0).val = 512 * i.val + (y 0).val) (h1 : (k 1).val = (y 1).val) : tile4096 A i y = A k := by
  unfold tile4096
  refine congrArg A ?_
  funext a; apply Fin.ext
  match a with
  | ⟨0, _⟩ => exact h0.symm
  | ⟨1, _⟩ => exact h1.symm

theorem tile1_apply (A : S4096x1.Idx → EReal) (i : Fin 8) (y : S512x1.Idx) (k : S4096x1.Idx)
    (h0 : (k 0).val = 512 * i.val + (y 0).val) (h1 : (k 1).val = (y 1).val) : tile1 A i y = A k := by
  unfold tile1
  refine congrArg A ?_
  funext a; apply Fin.ext
  match a with
  | ⟨0, _⟩ => exact h0.symm
  | ⟨1, _⟩ => exact h1.symm

theorem stack128_apply (T : Fin 8 → S512x128.Idx → EReal) (i : Fin 8) (y : S512x128.Idx) (k : S4096x128.Idx)
    (h0 : (k 0).val = 512 * i.val + (y 0).val) (h1 : (k 1).val = (y 1).val) : stack128 T k = T i y := by
  have hy : (y 0).val < 512 := idx2_lt0 y
  have hd : (k 0).val / 512 = i.val := by omega
  have hm : (k 0).val % 512 = (y 0).val := by omega
  unfold stack128
  have e1 : (⟨(k 0).val / 512, row_div_lt _ (idx2_lt0 k)⟩ : Fin 8) = i := Fin.ext hd
  have e2 : (ix2 (⟨(k 0).val % 512, row_mod_lt _⟩ : Fin 512) (⟨(k 1).val, idx2_lt1 k⟩ : Fin 128) : S512x128.Idx) = y := by
    funext a; apply Fin.ext
    match a with
    | ⟨0, _⟩ => exact hm
    | ⟨1, _⟩ => exact h1
  show T ⟨(k 0).val / 512, _⟩ (ix2 ⟨(k 0).val % 512, _⟩ ⟨(k 1).val, _⟩) = T i y
  rw [e1, e2]

theorem stack4096_apply (T : Fin 8 → S512x4096.Idx → EReal) (i : Fin 8) (y : S512x4096.Idx) (k : S4096x4096.Idx)
    (h0 : (k 0).val = 512 * i.val + (y 0).val) (h1 : (k 1).val = (y 1).val) : stack4096 T k = T i y := by
  have hy : (y 0).val < 512 := idx2_lt0 y
  have hd : (k 0).val / 512 = i.val := by omega
  have hm : (k 0).val % 512 = (y 0).val := by omega
  unfold stack4096
  have e1 : (⟨(k 0).val / 512, row_div_lt _ (idx2_lt0 k)⟩ : Fin 8) = i := Fin.ext hd
  have e2 : (ix2 (⟨(k 0).val % 512, row_mod_lt _⟩ : Fin 512) (⟨(k 1).val, idx2_lt1 k⟩ : Fin 4096) : S512x4096.Idx) = y := by
    funext a; apply Fin.ext
    match a with
    | ⟨0, _⟩ => exact hm
    | ⟨1, _⟩ => exact h1
  show T ⟨(k 0).val / 512, _⟩ (ix2 ⟨(k 0).val % 512, _⟩ ⟨(k 1).val, _⟩) = T i y
  rw [e1, e2]

end Cert.KernelIdeal.Hand

end
-- ==== Proof.KerValue0.lean ====
/-
  The first region (layer 1), at any entry contents `V`: what its three result arrays hold when it is left.
  Each input window's block at a grid point is a row tile of the window's array or the whole array; each output
  window's staging buffer after the body is the body's one store, so the point's write-back is the point's tile of the
  specification's stack; the eight blocks tile the array, so the array ends at the specification's function.
-/
import proofs.«173193_g2000702591456375_pallasbulk_739_11_alg».proof.Proof.Gen.KernelIdeal.Frame
import proofs.«173193_g2000702591456375_pallasbulk_739_11_alg».proof.Proof.Spec
import proofs.«173193_g2000702591456375_pallasbulk_739_11_alg».proof.Proof.KerTiles
import Idealize.ShloMosaic.Lib.Pipeline.Value
import Idealize.ShloMosaic.Lib.Tactic

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.Sage

variable (V : (c : Dev nD) → (b : Ref sig .tc) → Buf (Elt Ideal) ((c : Thread nD τ).loc b))

/-- A grid point of the first region as a row-tile number. -/
def pt0 (t : Fin cfg0.N) : Fin 8 := ⟨t.val, by have := t.isLt; have h : cfg0.N = 8 := N_0; omega⟩

/-- The printed index maps over the grid: a row-tiled window's block index is (the point, 0), a whole-array window's (0, 0). -/
theorem idx0 : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0)
    ∧ (win0_12.index t (0 : Fin 2) = t.val ∧ win0_12.index t (1 : Fin 2) = 0) :=
  (by decide +kernel : ∀ t : Fin grid0.N, _)

/-! ## The input windows' blocks: a row tile of the window's array, or the whole array -/

theorem blk0_0 (c : Dev nD) (t : Fin cfg0.N) : (iblk0 V c 0 t : Vec Ideal S512x4096 .f32) = tile4096 (V c main_arg1) (pt0 t) := by
  obtain ⟨e0, e1⟩ := (idx0 t).1
  funext y
  unfold iblk0
  rw [View.read_apply]
  refine (tile4096_apply (V c main_arg1) (pt0 t) y _ ?_ ?_).symm
  · show win0_0.index t (0 : Fin 2) * 512 + 1 * (y 0).val = 512 * t.val + (y 0).val; rw [e0]; omega
  · show win0_0.index t (1 : Fin 2) * 4096 + 1 * (y 1).val = (y 1).val; rw [e1]; omega

theorem blk0_1 (c : Dev nD) (t : Fin cfg0.N) : (iblk0 V c 1 t : Vec Ideal S4096x128 .bf16) = V c main_v0 := by
  obtain ⟨e0, e1⟩ := (idx0 t).2.1
  funext y
  unfold iblk0
  rw [View.read_apply]
  refine apply_congr2 (V c main_v0) _ y ?_ ?_
  · show win0_1.index t (0 : Fin 2) * 4096 + 1 * (y 0).val = (y 0).val; rw [e0]; omega
  · show win0_1.index t (1 : Fin 2) * 128 + 1 * (y 1).val = (y 1).val; rw [e1]; omega

theorem blk0_2 (c : Dev nD) (t : Fin cfg0.N) : (iblk0 V c 2 t : Vec Ideal S512x128 .f32) = tile128 (V c main_arg0) (pt0 t) := by
  obtain ⟨e0, e1⟩ := (idx0 t).2.2.1
  funext y
  unfold iblk0
  rw [View.read_apply]
  refine (tile128_apply (V c main_arg0) (pt0 t) y _ ?_ ?_).symm
  · show win0_2.index t (0 : Fin 2) * 512 + 1 * (y 0).val = 512 * t.val + (y 0).val; rw [e0]; omega
  · show win0_2.index t (1 : Fin 2) * 128 + 1 * (y 1).val = (y 1).val; rw [e1]; omega

theorem blk0_3 (c : Dev nD) (t : Fin cfg0.N) : (iblk0 V c 3 t : Vec Ideal S512x1 .f32) = tile1 (V c main_v1) (pt0 t) := by
  obtain ⟨e0, e1⟩ := (idx0 t).2.2.2.1
  funext y
  unfold iblk0
  rw [View.read_apply]
  refine (tile1_apply (V c main_v1) (pt0 t) y _ ?_ ?_).symm
  · show win0_3.index t (0 : Fin 2) * 512 + 1 * (y 0).val = 512 * t.val + (y 0).val; rw [e0]; omega
  · show win0_3.index t (1 : Fin 2) * 1 + 1 * (y 1).val = (y 1).val; rw [e1]; omega

theorem blk0_4 (c : Dev nD) (t : Fin cfg0.N) : (iblk0 V c 4 t : Vec Ideal S128x256 .f32) = V c main_arg3 := by
  obtain ⟨e0, e1⟩ := (idx0 t).2.2.2.2.1
  funext y
  unfold iblk0
  rw [View.read_apply]
  refine apply_congr2 (V c main_arg3) _ y ?_ ?_
  · show win0_4.index t (0 : Fin 2) * 128 + 1 * (y 0).val = (y 0).val; rw [e0]; omega
  · show win0_4.index t (1 : Fin 2) * 256 + 1 * (y 1).val = (y 1).val; rw [e1]; omega

theorem blk0_5 (c : Dev nD) (t : Fin cfg0.N) : (iblk0 V c 5 t : Vec Ideal S128x256 .f32) = V c main_arg4 := by
  obtain ⟨e0, e1⟩ := (idx0 t).2.2.2.2.2.1
  funext y
  unfold iblk0
  rw [View.read_apply]
  refine apply_congr2 (V c main_arg4) _ y ?_ ?_
  · show win0_5.index t (0 : Fin 2) * 128 + 1 * (y 0).val = (y 0).val; rw [e0]; omega
  · show win0_5.index t (1 : Fin 2) * 256 + 1 * (y 1).val = (y 1).val; rw [e1]; omega

theorem blk0_6 (c : Dev nD) (t : Fin cfg0.N) : (iblk0 V c 6 t : Vec Ideal S1x256 .f32) = V c main_arg5 := by
  obtain ⟨e0, e1⟩ := (idx0 t).2.2.2.2.2.2.1
  funext y
  unfold iblk0
  rw [View.read_apply]
  refine apply_congr2 (V c main_arg5) _ y ?_ ?_
  · show win0_6.index t (0 : Fin 2) * 1 + 1 * (y 0).val = (y 0).val; rw [e0]; omega
  · show win0_6.index t (1 : Fin 2) * 256 + 1 * (y 1).val = (y 1).val; rw [e1]; omega

theorem blk0_7 (c : Dev nD) (t : Fin cfg0.N) : (iblk0 V c 7 t : Vec Ideal S256x128 .f32) = V c main_v2 := by
  obtain ⟨e0, e1⟩ := (idx0 t).2.2.2.2.2.2.2.1
  funext y
  unfold iblk0
  rw [View.read_apply]
  refine apply_congr2 (V c main_v2) _ y ?_ ?_
  · show win0_7.index t (0 : Fin 2) * 256 + 1 * (y 0).val = (y 0).val; rw [e0]; omega
  · show win0_7.index t (1 : Fin 2) * 128 + 1 * (y 1).val = (y 1).val; rw [e1]; omega

theorem blk0_8 (c : Dev nD) (t : Fin cfg0.N) : (iblk0 V c 8 t : Vec Ideal S256x128 .f32) = V c main_v3 := by
  obtain ⟨e0, e1⟩ := (idx0 t).2.2.2.2.2.2.2.2.1
  funext y
  unfold iblk0
  rw [View.read_apply]
  refine apply_congr2 (V c main_v3) _ y ?_ ?_
  · show win0_8.index t (0 : Fin 2) * 256 + 1 * (y 0).val = (y 0).val; rw [e0]; omega
  · show win0_8.index t (1 : Fin 2) * 128 + 1 * (y 1).val = (y 1).val; rw [e1]; omega

theorem blk0_9 (c : Dev nD) (t : Fin cfg0.N) : (iblk0 V c 9 t : Vec Ideal S1x128 .f32) = V c main_v4 := by
  obtain ⟨e0, e1⟩ := (idx0 t).2.2.2.2.2.2.2.2.2.1
  funext y
  unfold iblk0
  rw [View.read_apply]
  refine apply_congr2 (V c main_v4) _ y ?_ ?_
  · show win0_9.index t (0 : Fin 2) * 1 + 1 * (y 0).val = (y 0).val; rw [e0]; omega
  · show win0_9.index t (1 : Fin 2) * 128 + 1 * (y 1).val = (y 1).val; rw [e1]; omega

/-! ## An output window's block of a stack of tiles is the point's tile -/

theorem read_stack0_10 (T : Fin 8 → S512x128.Idx → EReal) (t : Fin cfg0.N) :
    ((cfg0.win 10).blk t).view.read (Elt Ideal) (stack128 T) = T (pt0 t) := by
  obtain ⟨e0, e1⟩ := (idx0 t).2.2.2.2.2.2.2.2.2.2.1
  funext y
  rw [View.read_apply]
  refine stack128_apply T (pt0 t) y _ ?_ ?_
  · show win0_10.index t (0 : Fin 2) * 512 + 1 * (y 0).val = 512 * t.val + (y 0).val; rw [e0]; omega
  · show win0_10.index t (1 : Fin 2) * 128 + 1 * (y 1).val = (y 1).val; rw [e1]; omega

theorem read_stack0_11 (T : Fin 8 → S512x128.Idx → EReal) (t : Fin cfg0.N) :
    ((cfg0.win 11).blk t).view.read (Elt Ideal) (stack128 T) = T (pt0 t) := by
  obtain ⟨e0, e1⟩ := (idx0 t).2.2.2.2.2.2.2.2.2.2.2.1
  funext y
  rw [View.read_apply]
  refine stack128_apply T (pt0 t) y _ ?_ ?_
  · show win0_11.index t (0 : Fin 2) * 512 + 1 * (y 0).val = 512 * t.val + (y 0).val; rw [e0]; omega
  · show win0_11.index t (1 : Fin 2) * 128 + 1 * (y 1).val = (y 1).val; rw [e1]; omega

theorem read_stack0_12 (T : Fin 8 → S512x4096.Idx → EReal) (t : Fin cfg0.N) :
    ((cfg0.win 12).blk t).view.read (Elt Ideal) (stack4096 T) = T (pt0 t) := by
  obtain ⟨e0, e1⟩ := (idx0 t).2.2.2.2.2.2.2.2.2.2.2.2
  funext y
  rw [View.read_apply]
  refine stack4096_apply T (pt0 t) y _ ?_ ?_
  · show win0_12.index t (0 : Fin 2) * 512 + 1 * (y 0).val = 512 * t.val + (y 0).val; rw [e0]; omega
  · show win0_12.index t (1 : Fin 2) * 4096 + 1 * (y 1).val = (y 1).val; rw [e1]; omega

/-! ## What each point writes back -/

theorem flushed0_10 (c : Dev nD) (t : Fin cfg0.N) :
    (dat0 V c).flushed 10 t = ((cfg0.win 10).blk t).view.read (Elt Ideal)
      (z2 (V c main_arg1) (V c main_v0) (V c main_arg0) (V c main_v1) (V c main_arg3) (V c main_arg4) (V c main_arg5) (V c main_v2)) := by
  show (cfg0.win 10).cut (grid0.coords t) ((dat0 V c).after 10 t) = _
  rw [after0_10]
  unfold out0_10
  rw [View.canon_unit_zero hz]
  simp only [View.ld_unit_zero (S := S512x4096) hz, View.ld_unit_zero (S := S4096x128) hz, View.ld_unit_zero (S := S512x1) hz,
    View.ld_unit_zero (S := S128x256) hz, View.ld_unit_zero (S := S512x128) hz, View.ld_unit_zero (S := S1x256) hz,
    View.ld_unit_zero (S := S256x128) hz, View.ld_unit_zero (S := S1x128) hz]
  rw [blk0_0 V c t, blk0_1 V c t, blk0_2 V c t, blk0_3 V c t, blk0_4 V c t, blk0_5 V c t, blk0_6 V c t, blk0_7 V c t]
  unfold z2
  rw [read_stack0_10]
  rfl

theorem flushed0_11 (c : Dev nD) (t : Fin cfg0.N) :
    (dat0 V c).flushed 11 t = ((cfg0.win 11).blk t).view.read (Elt Ideal)
      (s2 (V c main_arg1) (V c main_v0) (V c main_arg0) (V c main_v1) (V c main_arg3) (V c main_arg4) (V c main_arg5) (V c main_v3) (V c main_v4)) := by
  show (cfg0.win 11).cut (grid0.coords t) ((dat0 V c).after 11 t) = _
  rw [after0_11]
  unfold out0_11
  rw [View.canon_unit_zero hz]
  simp only [View.ld_unit_zero (S := S512x4096) hz, View.ld_unit_zero (S := S4096x128) hz, View.ld_unit_zero (S := S512x1) hz,
    View.ld_unit_zero (S := S128x256) hz, View.ld_unit_zero (S := S512x128) hz, View.ld_unit_zero (S := S1x256) hz,
    View.ld_unit_zero (S := S256x128) hz, View.ld_unit_zero (S := S1x128) hz]
  rw [blk0_0 V c t, blk0_1 V c t, blk0_2 V c t, blk0_3 V c t, blk0_4 V c t, blk0_5 V c t, blk0_6 V c t, blk0_8 V c t, blk0_9 V c t]
  unfold s2
  rw [read_stack0_11]
  rfl

theorem flushed0_12 (c : Dev nD) (t : Fin cfg0.N) :
    (dat0 V c).flushed 12 t = ((cfg0.win 12).blk t).view.read (Elt Ideal) (bcopy (V c main_arg1)) := by
  show (cfg0.win 12).cut (grid0.coords t) ((dat0 V c).after 12 t) = _
  rw [after0_12]
  unfold out0_12
  rw [View.canon_unit_zero hz]
  simp only [View.ld_unit_zero (S := S512x4096) hz, View.ld_unit_zero (S := S4096x128) hz, View.ld_unit_zero (S := S512x1) hz,
    View.ld_unit_zero (S := S128x256) hz, View.ld_unit_zero (S := S512x128) hz, View.ld_unit_zero (S := S1x256) hz,
    View.ld_unit_zero (S := S256x128) hz, View.ld_unit_zero (S := S1x128) hz]
  rw [blk0_0 V c t]
  unfold bcopy
  rw [read_stack0_12]
  rfl

/-! ## The output blocks tile their arrays: the point that covers row `r` is `r / 512` -/

/-- The grid point of a row. -/
def rowPt0 (r : Nat) (h : r < 4096) : Fin cfg0.N := ⟨r / 512, by have h8 : cfg0.N = 8 := N_0; omega⟩

theorem cover0_10' (i : S4096x128.Idx) : ∃ t : Fin cfg0.N, (cfg0.win 10).flush t = true ∧ i ∈ ((cfg0.win 10).blk t).view.set := by
  have h0 : (i 0).val < 4096 := idx2_lt0 i
  have h1 : (i 1).val < 128 := idx2_lt1 i
  refine ⟨rowPt0 (i 0).val h0, flush0_10 _, ?_⟩
  obtain ⟨e0, e1⟩ := (idx0 (rowPt0 (i 0).val h0)).2.2.2.2.2.2.2.2.2.2.1
  have ev : (rowPt0 (i 0).val h0).val = (i 0).val / 512 := rfl
  show i ∈ ((View.whole main_v5_0).slice (win0_10.rect (rowPt0 (i 0).val h0))).set
  rw [View.set_slice_whole, Rect.mem_set_unit]
  intro a
  match a with
  | ⟨0, _⟩ => show win0_10.index (rowPt0 (i 0).val h0) (0 : Fin 2) * 512 ≤ (i 0).val ∧ (i 0).val < win0_10.index (rowPt0 (i 0).val h0) (0 : Fin 2) * 512 + 512; rw [e0, ev]; omega
  | ⟨1, _⟩ => show win0_10.index (rowPt0 (i 0).val h0) (1 : Fin 2) * 128 ≤ (i 1).val ∧ (i 1).val < win0_10.index (rowPt0 (i 0).val h0) (1 : Fin 2) * 128 + 128; rw [e1]; omega

theorem cover0_11' (i : S4096x128.Idx) : ∃ t : Fin cfg0.N, (cfg0.win 11).flush t = true ∧ i ∈ ((cfg0.win 11).blk t).view.set := by
  have h0 : (i 0).val < 4096 := idx2_lt0 i
  have h1 : (i 1).val < 128 := idx2_lt1 i
  refine ⟨rowPt0 (i 0).val h0, flush0_11 _, ?_⟩
  obtain ⟨e0, e1⟩ := (idx0 (rowPt0 (i 0).val h0)).2.2.2.2.2.2.2.2.2.2.2.1
  have ev : (rowPt0 (i 0).val h0).val = (i 0).val / 512 := rfl
  show i ∈ ((View.whole main_v5_1).slice (win0_11.rect (rowPt0 (i 0).val h0))).set
  rw [View.set_slice_whole, Rect.mem_set_unit]
  intro a
  match a with
  | ⟨0, _⟩ => show win0_11.index (rowPt0 (i 0).val h0) (0 : Fin 2) * 512 ≤ (i 0).val ∧ (i 0).val < win0_11.index (rowPt0 (i 0).val h0) (0 : Fin 2) * 512 + 512; rw [e0, ev]; omega
  | ⟨1, _⟩ => show win0_11.index (rowPt0 (i 0).val h0) (1 : Fin 2) * 128 ≤ (i 1).val ∧ (i 1).val < win0_11.index (rowPt0 (i 0).val h0) (1 : Fin 2) * 128 + 128; rw [e1]; omega

theorem cover0_12' (i : S4096x4096.Idx) : ∃ t : Fin cfg0.N, (cfg0.win 12).flush t = true ∧ i ∈ ((cfg0.win 12).blk t).view.set := by
  have h0 : (i 0).val < 4096 := idx2_lt0 i
  have h1 : (i 1).val < 4096 := idx2_lt1 i
  refine ⟨rowPt0 (i 0).val h0, flush0_12 _, ?_⟩
  obtain ⟨e0, e1⟩ := (idx0 (rowPt0 (i 0).val h0)).2.2.2.2.2.2.2.2.2.2.2.2
  have ev : (rowPt0 (i 0).val h0).val = (i 0).val / 512 := rfl
  show i ∈ ((View.whole main_v5_2).slice (win0_12.rect (rowPt0 (i 0).val h0))).set
  rw [View.set_slice_whole, Rect.mem_set_unit]
  intro a
  match a with
  | ⟨0, _⟩ => show win0_12.index (rowPt0 (i 0).val h0) (0 : Fin 2) * 512 ≤ (i 0).val ∧ (i 0).val < win0_12.index (rowPt0 (i 0).val h0) (0 : Fin 2) * 512 + 512; rw [e0, ev]; omega
  | ⟨1, _⟩ => show win0_12.index (rowPt0 (i 0).val h0) (1 : Fin 2) * 4096 ≤ (i 1).val ∧ (i 1).val < win0_12.index (rowPt0 (i 0).val h0) (1 : Fin 2) * 4096 + 4096; rw [e1]; omega

/-! ## The first region's three results, whole -/

theorem final0_10 (c : Dev nD) : (dat0 V c).arrAt 10 cfg0.N
    = z2 (V c main_arg1) (V c main_v0) (V c main_arg0) (V c main_v1) (V c main_arg3) (V c main_arg4) (V c main_arg5) (V c main_v2) :=
  (dat0 V c).arrAt_eq_of_cover 10 _ (fun t _ => flushed0_10 V c t) cover0_10'

theorem final0_11 (c : Dev nD) : (dat0 V c).arrAt 11 cfg0.N
    = s2 (V c main_arg1) (V c main_v0) (V c main_arg0) (V c main_v1) (V c main_arg3) (V c main_arg4) (V c main_arg5) (V c main_v3) (V c main_v4) :=
  (dat0 V c).arrAt_eq_of_cover 11 _ (fun t _ => flushed0_11 V c t) cover0_11'

theorem final0_12 (c : Dev nD) : (dat0 V c).arrAt 12 cfg0.N = bcopy (V c main_arg1) :=
  (dat0 V c).arrAt_eq_of_cover 12 _ (fun t _ => flushed0_12 V c t) cover0_12'

end Cert.KernelIdeal.Hand

end
-- ==== Proof.KerValue1.lean ====
/-
  The second region (layer 2), at any entry contents `V`: what its result array holds when it is left — the same road as
  the first region's: blocks of the windows' arrays as row tiles or whole arrays, the body's one store, the point's
  write-back as the point's tile of the specification's stack, the eight blocks tiling the array.
-/
import proofs.«173193_g2000702591456375_pallasbulk_739_11_alg».proof.Proof.Gen.KernelIdeal.Frame
import proofs.«173193_g2000702591456375_pallasbulk_739_11_alg».proof.Proof.Spec
import proofs.«173193_g2000702591456375_pallasbulk_739_11_alg».proof.Proof.KerTiles
import Idealize.ShloMosaic.Lib.Pipeline.Value
import Idealize.ShloMosaic.Lib.Tactic

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.Sage

variable (V : (c : Dev nD) → (b : Ref sig .tc) → Buf (Elt Ideal) ((c : Thread nD τ).loc b))

/-- A grid point of the second region as a row-tile number. -/
def pt1 (t : Fin cfg1.N) : Fin 8 := ⟨t.val, by have := t.isLt; have h : cfg1.N = 8 := N_1; omega⟩

/-- The printed index maps over the grid: a row-tiled window's block index is (the point, 0), a whole-array window's (0, 0). -/
theorem idx1 : ∀ t : Fin cfg1.N,
    (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 2) = t.val ∧ win1_4.index t (1 : Fin 2) = 0) :=
  (by decide +kernel : ∀ t : Fin grid1.N, _)

/-! ## The input windows' blocks: a row tile of the window's array, or the whole array -/

theorem blk1_0 (c : Dev nD) (t : Fin cfg1.N) : (iblk1 V c 0 t : Vec Ideal S512x4096 .bf16) = tile4096 (V c main_v5_2) (pt1 t) := by
  obtain ⟨e0, e1⟩ := (idx1 t).1
  funext y
  unfold iblk1
  rw [View.read_apply]
  refine (tile4096_apply (V c main_v5_2) (pt1 t) y _ ?_ ?_).symm
  · show win1_0.index t (0 : Fin 2) * 512 + 1 * (y 0).val = 512 * t.val + (y 0).val; rw [e0]; omega
  · show win1_0.index t (1 : Fin 2) * 4096 + 1 * (y 1).val = (y 1).val; rw [e1]; omega

theorem blk1_1 (c : Dev nD) (t : Fin cfg1.N) : (iblk1 V c 1 t : Vec Ideal S4096x128 .bf16) = V c main_v5_0 := by
  obtain ⟨e0, e1⟩ := (idx1 t).2.1
  funext y
  unfold iblk1
  rw [View.read_apply]
  refine apply_congr2 (V c main_v5_0) _ y ?_ ?_
  · show win1_1.index t (0 : Fin 2) * 4096 + 1 * (y 0).val = (y 0).val; rw [e0]; omega
  · show win1_1.index t (1 : Fin 2) * 128 + 1 * (y 1).val = (y 1).val; rw [e1]; omega

theorem blk1_2 (c : Dev nD) (t : Fin cfg1.N) : (iblk1 V c 2 t : Vec Ideal S512x1 .f32) = tile1 (V c main_v1) (pt1 t) := by
  obtain ⟨e0, e1⟩ := (idx1 t).2.2.1
  funext y
  unfold iblk1
  rw [View.read_apply]
  refine (tile1_apply (V c main_v1) (pt1 t) y _ ?_ ?_).symm
  · show win1_2.index t (0 : Fin 2) * 512 + 1 * (y 0).val = 512 * t.val + (y 0).val; rw [e0]; omega
  · show win1_2.index t (1 : Fin 2) * 1 + 1 * (y 1).val = (y 1).val; rw [e1]; omega

theorem blk1_3 (c : Dev nD) (t : Fin cfg1.N) : (iblk1 V c 3 t : Vec Ideal S512x128 .f32) = tile128 (V c main_v5_1) (pt1 t) := by
  obtain ⟨e0, e1⟩ := (idx1 t).2.2.2.1
  funext y
  unfold iblk1
  rw [View.read_apply]
  refine (tile128_apply (V c main_v5_1) (pt1 t) y _ ?_ ?_).symm
  · show win1_3.index t (0 : Fin 2) * 512 + 1 * (y 0).val = 512 * t.val + (y 0).val; rw [e0]; omega
  · show win1_3.index t (1 : Fin 2) * 128 + 1 * (y 1).val = (y 1).val; rw [e1]; omega

/-! ## The output window's block of a stack of tiles is the point's tile -/

theorem read_stack1_4 (T : Fin 8 → S512x128.Idx → EReal) (t : Fin cfg1.N) :
    ((cfg1.win 4).blk t).view.read (Elt Ideal) (stack128 T) = T (pt1 t) := by
  obtain ⟨e0, e1⟩ := (idx1 t).2.2.2.2
  funext y
  rw [View.read_apply]
  refine stack128_apply T (pt1 t) y _ ?_ ?_
  · show win1_4.index t (0 : Fin 2) * 512 + 1 * (y 0).val = 512 * t.val + (y 0).val; rw [e0]; omega
  · show win1_4.index t (1 : Fin 2) * 128 + 1 * (y 1).val = (y 1).val; rw [e1]; omega

/-! ## What each point writes back -/

theorem flushed1_4 (c : Dev nD) (t : Fin cfg1.N) :
    (dat1 V c).flushed 4 t = ((cfg1.win 4).blk t).view.read (Elt Ideal)
      (out (V c main_v5_2) (V c main_v5_0) (V c main_v1) (V c main_v5_1)) := by
  show (cfg1.win 4).cut (grid1.coords t) ((dat1 V c).after 4 t) = _
  rw [after1_4]
  unfold out1_4
  rw [View.canon_unit_zero hz]
  simp only [View.ld_unit_zero (S := S512x4096) hz, View.ld_unit_zero (S := S4096x128) hz, View.ld_unit_zero (S := S512x1) hz,
    View.ld_unit_zero (S := S512x128) hz]
  rw [blk1_0 V c t, blk1_1 V c t, blk1_2 V c t, blk1_3 V c t]
  unfold out
  rw [read_stack1_4]
  rfl

/-! ## The output blocks tile the array: the point that covers row `r` is `r / 512` -/

/-- The grid point of a row. -/
def rowPt1 (r : Nat) (h : r < 4096) : Fin cfg1.N := ⟨r / 512, by have h8 : cfg1.N = 8 := N_1; omega⟩

theorem cover1_4' (i : S4096x128.Idx) : ∃ t : Fin cfg1.N, (cfg1.win 4).flush t = true ∧ i ∈ ((cfg1.win 4).blk t).view.set := by
  have h0 : (i 0).val < 4096 := idx2_lt0 i
  have h1 : (i 1).val < 128 := idx2_lt1 i
  refine ⟨rowPt1 (i 0).val h0, flush1_4 _, ?_⟩
  obtain ⟨e0, e1⟩ := (idx1 (rowPt1 (i 0).val h0)).2.2.2.2
  have ev : (rowPt1 (i 0).val h0).val = (i 0).val / 512 := rfl
  show i ∈ ((View.whole main_v6).slice (win1_4.rect (rowPt1 (i 0).val h0))).set
  rw [View.set_slice_whole, Rect.mem_set_unit]
  intro a
  match a with
  | ⟨0, _⟩ => show win1_4.index (rowPt1 (i 0).val h0) (0 : Fin 2) * 512 ≤ (i 0).val ∧ (i 0).val < win1_4.index (rowPt1 (i 0).val h0) (0 : Fin 2) * 512 + 512; rw [e0, ev]; omega
  | ⟨1, _⟩ => show win1_4.index (rowPt1 (i 0).val h0) (1 : Fin 2) * 128 ≤ (i 1).val ∧ (i 1).val < win1_4.index (rowPt1 (i 0).val h0) (1 : Fin 2) * 128 + 128; rw [e1]; omega

/-! ## The second region's result, whole -/

theorem final1_4 (c : Dev nD) : (dat1 V c).arrAt 4 cfg1.N = out (V c main_v5_2) (V c main_v5_0) (V c main_v1) (V c main_v5_1) :=
  (dat1 V c).arrAt_eq_of_cover 4 _ (fun t _ => flushed1_4 V c t) cover1_4'

end Cert.KernelIdeal.Hand

end
-- ==== Proof.KerEntry.lean ====
/-
  The arrays the first region is entered with that the host prefix computes, read at an index, and the arguments it is
  entered with: the format change of `x` is the identity at the exact values; the column of inverse degrees is the
  argument vector reshaped; each padded weight is its argument on the first 64 lanes and zero on the other 64.
  The fold of buffer contents is walked one stretch at a time: a stretch keeps every buffer it does not write.
-/
import proofs.«173193_g2000702591456375_pallasbulk_739_11_alg».proof.Proof.Gen.KernelIdeal.Frame
import Idealize.ShloMosaic.Lib.Pipeline.Value
import Idealize.ShloMosaic.Lib.KernelVsHost
import Idealize.ShloMosaic.Lib.ValueIdx
import Idealize.ShloMosaic.Lib.Tactic

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-! ## What each stretch of host operations writes, and so keeps -/

abbrev wr0 : List (Ref sig .tc) := [main_v0, main_v1, main_c]
abbrev wr1 : List (Ref sig .tc) := [main_call0_v0, main_v2]
abbrev wr2 : List (Ref sig .tc) := [main_c_0]
abbrev wr3 : List (Ref sig .tc) := [main_call1_v0, main_v3]
abbrev wr4 : List (Ref sig .tc) := [main_c_1]
abbrev wr5 : List (Ref sig .tc) := [main_call2_v0, main_v4]

local macro "writes_sub" : tactic =>
  `(tactic| (simp only [StableHlo.nullary_writes, StableHlo.unary_writes, StableHlo.binary_writes, StableHlo.reshape_writes,
      Finset.singleton_subset_iff, List.mem_toFinset]; exact List.mem_map_of_mem (by decide)))

theorem hostOps0_writes : (hostOps0 : List (HloOp τ sig (Elt F))).Forall fun op => op.writes ⊆ (wr0.map (Proc.devRef (τ := τ) .tc)).toFinset := by
  simp only [List.Forall]; refine ⟨?_, ?_, ?_⟩ <;> writes_sub
theorem hostOps0_1_writes : (hostOps0_1 : List (HloOp τ sig (Elt F))).Forall fun op => op.writes ⊆ (wr1.map (Proc.devRef (τ := τ) .tc)).toFinset := by
  simp only [List.Forall]; refine ⟨?_, ?_⟩ <;> writes_sub
theorem hostOps0_2_writes : (hostOps0_2 : List (HloOp τ sig (Elt F))).Forall fun op => op.writes ⊆ (wr2.map (Proc.devRef (τ := τ) .tc)).toFinset := by
  simp only [List.Forall]; writes_sub
theorem hostOps0_3_writes : (hostOps0_3 : List (HloOp τ sig (Elt F))).Forall fun op => op.writes ⊆ (wr3.map (Proc.devRef (τ := τ) .tc)).toFinset := by
  simp only [List.Forall]; refine ⟨?_, ?_⟩ <;> writes_sub
theorem hostOps0_4_writes : (hostOps0_4 : List (HloOp τ sig (Elt F))).Forall fun op => op.writes ⊆ (wr4.map (Proc.devRef (τ := τ) .tc)).toFinset := by
  simp only [List.Forall]; writes_sub
theorem hostOps0_5_writes : (hostOps0_5 : List (HloOp τ sig (Elt F))).Forall fun op => op.writes ⊆ (wr5.map (Proc.devRef (τ := τ) .tc)).toFinset := by
  simp only [List.Forall]; refine ⟨?_, ?_⟩ <;> writes_sub

theorem W1_of (c : Dev nD) (r : Ref sig .tc) (h : r ∉ wr0) : W1 m ρ c (Proc.devRef .tc r) = W0 m ρ c (Proc.devRef .tc r) :=
  StableHlo.after_of_writes_sub hostOps0 _ hostOps0_writes h
theorem W2_of (c : Dev nD) (r : Ref sig .tc) (h : r ∉ wr1) : W2 m ρ c (Proc.devRef .tc r) = W1 m ρ c (Proc.devRef .tc r) :=
  StableHlo.after_of_writes_sub hostOps0_1 _ hostOps0_1_writes h
theorem W3_of (c : Dev nD) (r : Ref sig .tc) (h : r ∉ wr2) : W3 m ρ c (Proc.devRef .tc r) = W2 m ρ c (Proc.devRef .tc r) :=
  StableHlo.after_of_writes_sub hostOps0_2 _ hostOps0_2_writes h
theorem W4_of (c : Dev nD) (r : Ref sig .tc) (h : r ∉ wr3) : W4 m ρ c (Proc.devRef .tc r) = W3 m ρ c (Proc.devRef .tc r) :=
  StableHlo.after_of_writes_sub hostOps0_3 _ hostOps0_3_writes h
theorem W5_of (c : Dev nD) (r : Ref sig .tc) (h : r ∉ wr4) : W5 m ρ c (Proc.devRef .tc r) = W4 m ρ c (Proc.devRef .tc r) :=
  StableHlo.after_of_writes_sub hostOps0_4 _ hostOps0_4_writes h
theorem W6_of (c : Dev nD) (r : Ref sig .tc) (h : r ∉ wr5) : W6 m ρ c (Proc.devRef .tc r) = W5 m ρ c (Proc.devRef .tc r) :=
  StableHlo.after_of_writes_sub hostOps0_5 _ hostOps0_5_writes h

/-- A buffer no stretch of the prefix writes enters the first region as launched. -/
theorem V6_launch (c : Dev nD) (r : Ref sig .tc) (h : r ∉ wr0 ++ wr1 ++ wr2 ++ wr3 ++ wr4 ++ wr5) :
    V6 m ρ c r = m ((c : Thread nD τ).loc r) := by
  simp only [List.mem_append, not_or] at h
  obtain ⟨⟨⟨⟨⟨h0, h1⟩, h2⟩, h3⟩, h4⟩, h5⟩ := h
  exact (W6_of m ρ c r h5).trans ((W5_of m ρ c r h4).trans ((W4_of m ρ c r h3).trans ((W3_of m ρ c r h2).trans
    ((W2_of m ρ c r h1).trans (W1_of m ρ c r h0)))))

/-! ## The entry arrays the prefix computes -/

section AtIdeal
variable (m : (ℓ : Loc nD τ sig) → Buf (Elt Ideal) ℓ) (ρ : Dev nD → PrngReg)

/-- The format change of `x` keeps every entry. -/
theorem entry_v0 (c : Dev nD) : (V6 (F := Ideal) m ρ c main_v0 : S4096x128.Idx → EReal) = m ((c : Thread nD τ).loc main_arg0) := by
  refine (W6_of m ρ c main_v0 (by decide)).trans ((W5_of m ρ c main_v0 (by decide)).trans ((W4_of m ρ c main_v0 (by decide)).trans
    ((W3_of m ρ c main_v0 (by decide)).trans ((W2_of m ρ c main_v0 (by decide)).trans ?_))))
  show StableHlo.after hostOps0 (W0 m ρ c) (Proc.devRef .tc main_v0) = _
  after_results
  rfl

/-- The column of inverse degrees is the argument vector, entry by entry. -/
theorem entry_v1_apply (c : Dev nD) (j : S4096x1.Idx) :
    (V6 (F := Ideal) m ρ c main_v1 : S4096x1.Idx → EReal) j = (m ((c : Thread nD τ).loc main_arg2) : S4096.Idx → EReal) (ix1 ⟨(j 0).val, idx2_lt0 j⟩) := by
  have e : V6 (F := Ideal) m ρ c main_v1 = W1 m ρ c (Proc.devRef .tc main_v1) :=
    (W6_of m ρ c main_v1 (by decide)).trans ((W5_of m ρ c main_v1 (by decide)).trans ((W4_of m ρ c main_v1 (by decide)).trans
      ((W3_of m ρ c main_v1 (by decide)).trans (W2_of m ρ c main_v1 (by decide)))))
  rw [e]
  show StableHlo.after hostOps0 (W0 m ρ c) (Proc.devRef .tc main_v1) j = _
  after_results
  show shapeCast S4096x1 (m ((c : Thread nD τ).loc main_arg2) : S4096.Idx → EReal) shapeCasts_S4096_S4096x1 j = _
  refine shapeCast_apply _ _ j (ix1 ⟨(j 0).val, idx2_lt0 j⟩) ?_
  rw [Shape.rowMajor_val_one, Shape.rowMajor_val_two]
  show (j 0).val = (j 0).val * 1 + (j 1).val
  have := idx2_lt1 j
  omega

theorem entry_v2_apply (c : Dev nD) (j : S256x128.Idx) :
    (V6 (F := Ideal) m ρ c main_v2 : S256x128.Idx → EReal) j
      = if h : (j 1).val < 64 then (m ((c : Thread nD τ).loc main_arg6) : S256x64.Idx → EReal) (ix2 ⟨(j 0).val, idx2_lt0 j⟩ ⟨(j 1).val, h⟩) else (0 : EReal) := by
  have e : V6 (F := Ideal) m ρ c main_v2 = W2 m ρ c (Proc.devRef .tc main_v2) :=
    (W6_of m ρ c main_v2 (by decide)).trans ((W5_of m ρ c main_v2 (by decide)).trans ((W4_of m ρ c main_v2 (by decide)).trans
      (W3_of m ρ c main_v2 (by decide))))
  rw [e]
  show StableHlo.after hostOps0_1 _ (Proc.devRef .tc main_v2) j = _
  after_results
  show pad S256x128 ![0, 0] ![0, 64] ![0, 0] (m ((c : Thread nD τ).loc main_arg6) : S256x64.Idx → EReal)
      (sitofp (F := Ideal) .f32 (constantI S_ 32 0#32)) pads_S256x64_S256x128_000_0640 h_S_ j = _
  have h0 : (j 0).val < 256 := idx2_lt0 j
  by_cases h : (j 1).val < 64
  · rw [dif_pos h]
    refine pad_apply_of_inside _ _ _ _ _ pads_S256x64_S256x128_000_0640 h_S_ j (ix2 ⟨(j 0).val, h0⟩ ⟨(j 1).val, h⟩) fun a => ?_
    match a with
    | ⟨0, _⟩ => show (j 0).val = 0 + (j 0).val * (0 + 1); omega
    | ⟨1, _⟩ => show (j 1).val = 0 + (j 1).val * (0 + 1); omega
  · rw [dif_neg h]
    refine (pad_apply_of_not_inside _ _ _ _ _ pads_S256x64_S256x128_000_0640 h_S_ j (1 : Fin 2) ?_).trans ?_
    · show ¬(0 ≤ (j 1).val ∧ ((j 1).val - 0) % (0 + 1) = 0 ∧ ((j 1).val - 0) / (0 + 1) < 64)
      omega
    · exact sitofp_zero (φ := .f32)

theorem entry_v3_apply (c : Dev nD) (j : S256x128.Idx) :
    (V6 (F := Ideal) m ρ c main_v3 : S256x128.Idx → EReal) j
      = if h : (j 1).val < 64 then (m ((c : Thread nD τ).loc main_arg7) : S256x64.Idx → EReal) (ix2 ⟨(j 0).val, idx2_lt0 j⟩ ⟨(j 1).val, h⟩) else (0 : EReal) := by
  have e : V6 (F := Ideal) m ρ c main_v3 = W4 m ρ c (Proc.devRef .tc main_v3) :=
    (W6_of m ρ c main_v3 (by decide)).trans (W5_of m ρ c main_v3 (by decide))
  rw [e]
  show StableHlo.after hostOps0_3 _ (Proc.devRef .tc main_v3) j = _
  after_results
  show pad S256x128 ![0, 0] ![0, 64] ![0, 0] (m ((c : Thread nD τ).loc main_arg7) : S256x64.Idx → EReal)
      (sitofp (F := Ideal) .f32 (constantI S_ 32 0#32)) pads_S256x64_S256x128_000_0640 h_S_ j = _
  have h0 : (j 0).val < 256 := idx2_lt0 j
  by_cases h : (j 1).val < 64
  · rw [dif_pos h]
    refine pad_apply_of_inside _ _ _ _ _ pads_S256x64_S256x128_000_0640 h_S_ j (ix2 ⟨(j 0).val, h0⟩ ⟨(j 1).val, h⟩) fun a => ?_
    match a with
    | ⟨0, _⟩ => show (j 0).val = 0 + (j 0).val * (0 + 1); omega
    | ⟨1, _⟩ => show (j 1).val = 0 + (j 1).val * (0 + 1); omega
  · rw [dif_neg h]
    refine (pad_apply_of_not_inside _ _ _ _ _ pads_S256x64_S256x128_000_0640 h_S_ j (1 : Fin 2) ?_).trans ?_
    · show ¬(0 ≤ (j 1).val ∧ ((j 1).val - 0) % (0 + 1) = 0 ∧ ((j 1).val - 0) / (0 + 1) < 64)
      omega
    · exact sitofp_zero (φ := .f32)

theorem entry_v4_apply (c : Dev nD) (j : S1x128.Idx) :
    (V6 (F := Ideal) m ρ c main_v4 : S1x128.Idx → EReal) j
      = if h : (j 1).val < 64 then (m ((c : Thread nD τ).loc main_arg8) : S1x64.Idx → EReal) (ix2 ⟨(j 0).val, idx2_lt0 j⟩ ⟨(j 1).val, h⟩) else (0 : EReal) := by
  have e : V6 (F := Ideal) m ρ c main_v4 = W6 m ρ c (Proc.devRef .tc main_v4) :=
    rfl
  rw [e]
  show StableHlo.after hostOps0_5 _ (Proc.devRef .tc main_v4) j = _
  after_results
  show pad S1x128 ![0, 0] ![0, 64] ![0, 0] (m ((c : Thread nD τ).loc main_arg8) : S1x64.Idx → EReal)
      (sitofp (F := Ideal) .f32 (constantI S_ 32 0#32)) pads_S1x64_S1x128_000_0640 h_S_ j = _
  have h0 : (j 0).val < 1 := idx2_lt0 j
  by_cases h : (j 1).val < 64
  · rw [dif_pos h]
    refine pad_apply_of_inside _ _ _ _ _ pads_S1x64_S1x128_000_0640 h_S_ j (ix2 ⟨(j 0).val, h0⟩ ⟨(j 1).val, h⟩) fun a => ?_
    match a with
    | ⟨0, _⟩ => show (j 0).val = 0 + (j 0).val * (0 + 1); omega
    | ⟨1, _⟩ => show (j 1).val = 0 + (j 1).val * (0 + 1); omega
  · rw [dif_neg h]
    refine (pad_apply_of_not_inside _ _ _ _ _ pads_S1x64_S1x128_000_0640 h_S_ j (1 : Fin 2) ?_).trans ?_
    · show ¬(0 ≤ (j 1).val ∧ ((j 1).val - 0) % (0 + 1) = 0 ∧ ((j 1).val - 0) / (0 + 1) < 64)
      omega
    · exact sitofp_zero (φ := .f32)

end AtIdeal

end Cert.KernelIdeal.Hand

end
-- ==== Proof.KerValue.lean ====
/-
  The first program's result array as the specification states it: the last host operation cuts the first 64 lanes out
  of the second region's result; the second region's result is the specification's layer 2 of the first region's three
  results (and of the column of inverse degrees, which the first region only reads); the first region's results are
  the specification's layer 1 of the arrays it is entered with, the arguments among them as launched.
-/
import proofs.«173193_g2000702591456375_pallasbulk_739_11_alg».proof.Proof.Gen.KernelIdeal.Frame
import proofs.«173193_g2000702591456375_pallasbulk_739_11_alg».proof.Proof.Spec
import proofs.«173193_g2000702591456375_pallasbulk_739_11_alg».proof.Proof.KerValue0
import proofs.«173193_g2000702591456375_pallasbulk_739_11_alg».proof.Proof.KerValue1
import proofs.«173193_g2000702591456375_pallasbulk_739_11_alg».proof.Proof.KerEntry
import Idealize.ShloMosaic.Lib.Pipeline.Value
import Idealize.ShloMosaic.Lib.Tactic

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.Sage

variable (m : (ℓ : Loc nD τ sig) → Buf (Elt Ideal) ℓ) (ρ : Dev nD → PrngReg)

/-- The first region's results when it is left. -/
theorem exit0_z2 (c : Dev nD) : (V7 (F := Ideal) m ρ c main_v5_0 : S4096x128.Idx → EReal)
    = z2 (m ((c : Thread nD τ).loc main_arg1)) (V6 m ρ c main_v0) (m ((c : Thread nD τ).loc main_arg0)) (V6 m ρ c main_v1)
        (m ((c : Thread nD τ).loc main_arg3)) (m ((c : Thread nD τ).loc main_arg4)) (m ((c : Thread nD τ).loc main_arg5)) (V6 m ρ c main_v2) := by
  refine (W7_arr m ρ c 10).trans ((final0_10 (V6 m ρ) c).trans ?_)
  rw [V6_launch m ρ c main_arg1 (by decide), V6_launch m ρ c main_arg0 (by decide), V6_launch m ρ c main_arg3 (by decide),
    V6_launch m ρ c main_arg4 (by decide), V6_launch m ρ c main_arg5 (by decide)]

theorem exit0_s2 (c : Dev nD) : (V7 (F := Ideal) m ρ c main_v5_1 : S4096x128.Idx → EReal)
    = s2 (m ((c : Thread nD τ).loc main_arg1)) (V6 m ρ c main_v0) (m ((c : Thread nD τ).loc main_arg0)) (V6 m ρ c main_v1)
        (m ((c : Thread nD τ).loc main_arg3)) (m ((c : Thread nD τ).loc main_arg4)) (m ((c : Thread nD τ).loc main_arg5)) (V6 m ρ c main_v3) (V6 m ρ c main_v4) := by
  refine (W7_arr m ρ c 11).trans ((final0_11 (V6 m ρ) c).trans ?_)
  rw [V6_launch m ρ c main_arg1 (by decide), V6_launch m ρ c main_arg0 (by decide), V6_launch m ρ c main_arg3 (by decide),
    V6_launch m ρ c main_arg4 (by decide), V6_launch m ρ c main_arg5 (by decide)]

theorem exit0_bcopy (c : Dev nD) : (V7 (F := Ideal) m ρ c main_v5_2 : S4096x4096.Idx → EReal) = bcopy (m ((c : Thread nD τ).loc main_arg1)) := by
  refine (W7_arr m ρ c 12).trans ((final0_12 (V6 m ρ) c).trans ?_)
  rw [V6_launch m ρ c main_arg1 (by decide)]

/-- The first region only reads the column of inverse degrees (an input window's array is left as entered). -/
theorem exit0_v1 (c : Dev nD) : V7 (F := Ideal) m ρ c main_v1 = V6 m ρ c main_v1 :=
  (W7_arr m ρ c 3).trans (((dat0 (V6 m ρ) c).arrAt_in 3 rfl _).trans (A_eq0 (V6 m ρ) c 3))

/-- The second region's result when it is left. -/
theorem exit1_out (c : Dev nD) : (W8 (F := Ideal) m ρ c (Proc.devRef .tc main_v6) : S4096x128.Idx → EReal)
    = padded (m ((c : Thread nD τ).loc main_arg1)) (V6 m ρ c main_v0) (m ((c : Thread nD τ).loc main_arg0)) (V6 m ρ c main_v1)
        (m ((c : Thread nD τ).loc main_arg3)) (m ((c : Thread nD τ).loc main_arg4)) (m ((c : Thread nD τ).loc main_arg5))
        (V6 m ρ c main_v2) (V6 m ρ c main_v3) (V6 m ρ c main_v4) := by
  refine (W8_arr m ρ c 4).trans ((final1_4 (V7 m ρ) c).trans ?_)
  rw [exit0_bcopy m ρ c, exit0_z2 m ρ c, exit0_v1 m ρ c, exit0_s2 m ρ c]
  rfl

/-- THE RESULT: the first 64 lanes of the specification's padded result. -/
theorem result_eq (c : Dev nD) :
    (W9 (F := Ideal) m ρ c (Proc.devRef .tc main_v7) : S4096x64.Idx → EReal)
      = extractStridedSlice S4096x64 ![0, 0] (padded (m ((c : Thread nD τ).loc main_arg1)) (V6 m ρ c main_v0) (m ((c : Thread nD τ).loc main_arg0)) (V6 m ρ c main_v1)
          (m ((c : Thread nD τ).loc main_arg3)) (m ((c : Thread nD τ).loc main_arg4)) (m ((c : Thread nD τ).loc main_arg5))
          (V6 m ρ c main_v2) (V6 m ρ c main_v3) (V6 m ρ c main_v4)) slices_S4096x128_S4096x64_0_0 := by
  show StableHlo.after hostOps2 (W8 m ρ c) (Proc.devRef .tc main_v7) = _
  after_results
  rw [exit1_out m ρ c]

end Cert.KernelIdeal.Hand

end
-- ==== Proof.RefRun.lean ====
/-
  The second program's run. Its @main is a stretch of host operations, two kernel regions and one last host
  operation. Between two of them every unscoped buffer of a core holds the contents named here: the launch memory,
  then what the host stretch computes, then — region by region — each window's array at what the region's
  write-backs leave and every other buffer as before, then the last operation's result. Given each region's proof data
  and body obligation at ANY entry contents (the hypotheses of this module), every weakly fair execution of @main
  terminates with the result array at the last contents and the argument arrays as launched.
-/
import proofs.«173193_g2000702591456375_pallasbulk_739_11_alg».proof.Proof.Gen.ReferenceIdeal.Launch
import proofs.«173193_g2000702591456375_pallasbulk_739_11_alg».proof.Proof.Gen.ReferenceIdeal.Skeleton
import proofs.«173193_g2000702591456375_pallasbulk_739_11_alg».proof.Proof.Gen.ReferenceIdeal.Points
import proofs.«173193_g2000702591456375_pallasbulk_739_11_alg».proof.Proof.Gen.ReferenceIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A core's buffer contents at a region's entry. -/
abbrev Entry (F : FTy → Type) : Type := (c : Dev nD) → (b : Ref sig .tc) → Buf (Elt F) ((c : Thread nD τ).loc b)

variable (m : (ℓ : Loc nD τ sig) → Buf (Elt F) ℓ) (ρ : Dev nD → PrngReg)
-- each region's proof data at any entry contents, and what this module needs of them
variable (dat0 : Entry F → (c : Dev nD) → Dat τ (Elt F) Unit ℕ (UR sig nD τ) ℕ cfg0 c)
variable (dat1 : Entry F → (c : Dev nD) → Dat τ (Elt F) Unit ℕ (UR sig nD τ) ℕ cfg1 c)

/-! ## The buffer contents between @main's items -/

/-- Core `c`'s buffers at launch. -/
abbrev W0 : Dev nD → Valuation τ sig (Elt F) := fun c b => m ((c : Dev nD), b)
/-- After the host stretch (region 0's entry). -/
abbrev W1 : Dev nD → Valuation τ sig (Elt F) := fun c => StableHlo.after hostOps0 (W0 m c)
abbrev V1 : Entry F := fun c b => W1 m c b
/-- After region 0: its arrays at what the write-backs leave, every other buffer as entered (region 1's entry). -/
def W2 (c : Dev nD) : Valuation τ sig (Elt F) :=
  Pipeline.withArrays spec0 c (W1 m c) fun w => (dat0 (V1 m) c).arrAt w cfg0.N
theorem W2_arr (c : Dev nD) (w : Fin cfg0.W) :
    W2 m dat0 c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m dat0 c (Proc.devRef .tc b) = W1 m c (Proc.devRef .tc b) := by
  unfold W2; exact Pipeline.withArrays_of_ne spec0 c _ _ b hb
abbrev V2 : Entry F := fun c b => W2 m dat0 c b
theorem hF0 (c : Dev nD) (w : Fin cfg0.W) : (dat0 (V1 m) c).arrAt w cfg0.N = V2 m dat0 c (Pipeline.arrRef spec0 w) :=
  (W2_arr m dat0 c w).symm
theorem hrest0 (c : Dev nD) : ∀ b, b ∉ Finset.univ.image (Pipeline.arrRef spec0) → V2 m dat0 c b = V1 m c b :=
  fun b hb => W2_of_ne m dat0 c b fun w e => hb (Finset.mem_image.mpr ⟨w, Finset.mem_univ _, e⟩)
/-- After region 1. -/
def W3 (c : Dev nD) : Valuation τ sig (Elt F) :=
  Pipeline.withArrays spec1 c (W2 m dat0 c) fun w => (dat1 (V2 m dat0) c).arrAt w cfg1.N
theorem W3_arr (c : Dev nD) (w : Fin cfg1.W) :
    W3 m dat0 dat1 c (Proc.devRef .tc (Pipeline.arrRef spec1 w)) = (dat1 (V2 m dat0) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m dat0 dat1 c (Proc.devRef .tc b) = W2 m dat0 c (Proc.devRef .tc b) := by
  unfold W3; exact Pipeline.withArrays_of_ne spec1 c _ _ b hb
abbrev V3 : Entry F := fun c b => W3 m dat0 dat1 c b
theorem hF1 (c : Dev nD) (w : Fin cfg1.W) : (dat1 (V2 m dat0) c).arrAt w cfg1.N = V3 m dat0 dat1 c (Pipeline.arrRef spec1 w) :=
  (W3_arr m dat0 dat1 c w).symm
theorem hrest1 (c : Dev nD) : ∀ b, b ∉ Finset.univ.image (Pipeline.arrRef spec1) → V3 m dat0 dat1 c b = V2 m dat0 c b :=
  fun b hb => W3_of_ne m dat0 dat1 c b fun w e => hb (Finset.mem_image.mpr ⟨w, Finset.mem_univ _, e⟩)
/-- After the last host operation. -/
abbrev W4 : Dev nD → Valuation τ sig (Elt F) := fun c => StableHlo.after hostOps2 (W3 m dat0 dat1 c)

/-! ### No item writes an argument -/

theorem W4_main_arg0 (c : Dev nD) : W4 m dat0 dat1 c (Proc.devRef .tc main_arg0) = m ((c : Thread nD τ).loc main_arg0) :=
  calc W4 m dat0 dat1 c (Proc.devRef .tc main_arg0)
    _ = W3 m dat0 dat1 c (Proc.devRef .tc main_arg0) := StableHlo.after_of_writes_sub hostOps2 _ hostOps2_writes (by decide)
    _ = W2 m dat0 c (Proc.devRef .tc main_arg0) := W3_of_ne m dat0 dat1 c main_arg0 (by decide)
    _ = W1 m c (Proc.devRef .tc main_arg0) := W2_of_ne m dat0 c main_arg0 (by decide)
    _ = W0 m c (Proc.devRef .tc main_arg0) := StableHlo.after_of_writes_sub hostOps0 _ hostOps0_writes (by decide)
    _ = m ((c : Thread nD τ).loc main_arg0) := rfl
theorem W4_main_arg1 (c : Dev nD) : W4 m dat0 dat1 c (Proc.devRef .tc main_arg1) = m ((c : Thread nD τ).loc main_arg1) :=
  calc W4 m dat0 dat1 c (Proc.devRef .tc main_arg1)
    _ = W3 m dat0 dat1 c (Proc.devRef .tc main_arg1) := StableHlo.after_of_writes_sub hostOps2 _ hostOps2_writes (by decide)
    _ = W2 m dat0 c (Proc.devRef .tc main_arg1) := W3_of_ne m dat0 dat1 c main_arg1 (by decide)
    _ = W1 m c (Proc.devRef .tc main_arg1) := W2_of_ne m dat0 c main_arg1 (by decide)
    _ = W0 m c (Proc.devRef .tc main_arg1) := StableHlo.after_of_writes_sub hostOps0 _ hostOps0_writes (by decide)
    _ = m ((c : Thread nD τ).loc main_arg1) := rfl
theorem W4_main_arg2 (c : Dev nD) : W4 m dat0 dat1 c (Proc.devRef .tc main_arg2) = m ((c : Thread nD τ).loc main_arg2) :=
  calc W4 m dat0 dat1 c (Proc.devRef .tc main_arg2)
    _ = W3 m dat0 dat1 c (Proc.devRef .tc main_arg2) := StableHlo.after_of_writes_sub hostOps2 _ hostOps2_writes (by decide)
    _ = W2 m dat0 c (Proc.devRef .tc main_arg2) := W3_of_ne m dat0 dat1 c main_arg2 (by decide)
    _ = W1 m c (Proc.devRef .tc main_arg2) := W2_of_ne m dat0 c main_arg2 (by decide)
    _ = W0 m c (Proc.devRef .tc main_arg2) := StableHlo.after_of_writes_sub hostOps0 _ hostOps0_writes (by decide)
    _ = m ((c : Thread nD τ).loc main_arg2) := rfl
theorem W4_main_arg3 (c : Dev nD) : W4 m dat0 dat1 c (Proc.devRef .tc main_arg3) = m ((c : Thread nD τ).loc main_arg3) :=
  calc W4 m dat0 dat1 c (Proc.devRef .tc main_arg3)
    _ = W3 m dat0 dat1 c (Proc.devRef .tc main_arg3) := StableHlo.after_of_writes_sub hostOps2 _ hostOps2_writes (by decide)
    _ = W2 m dat0 c (Proc.devRef .tc main_arg3) := W3_of_ne m dat0 dat1 c main_arg3 (by decide)
    _ = W1 m c (Proc.devRef .tc main_arg3) := W2_of_ne m dat0 c main_arg3 (by decide)
    _ = W0 m c (Proc.devRef .tc main_arg3) := StableHlo.after_of_writes_sub hostOps0 _ hostOps0_writes (by decide)
    _ = m ((c : Thread nD τ).loc main_arg3) := rfl
theorem W4_main_arg4 (c : Dev nD) : W4 m dat0 dat1 c (Proc.devRef .tc main_arg4) = m ((c : Thread nD τ).loc main_arg4) :=
  calc W4 m dat0 dat1 c (Proc.devRef .tc main_arg4)
    _ = W3 m dat0 dat1 c (Proc.devRef .tc main_arg4) := StableHlo.after_of_writes_sub hostOps2 _ hostOps2_writes (by decide)
    _ = W2 m dat0 c (Proc.devRef .tc main_arg4) := W3_of_ne m dat0 dat1 c main_arg4 (by decide)
    _ = W1 m c (Proc.devRef .tc main_arg4) := W2_of_ne m dat0 c main_arg4 (by decide)
    _ = W0 m c (Proc.devRef .tc main_arg4) := StableHlo.after_of_writes_sub hostOps0 _ hostOps0_writes (by decide)
    _ = m ((c : Thread nD τ).loc main_arg4) := rfl
theorem W4_main_arg5 (c : Dev nD) : W4 m dat0 dat1 c (Proc.devRef .tc main_arg5) = m ((c : Thread nD τ).loc main_arg5) :=
  calc W4 m dat0 dat1 c (Proc.devRef .tc main_arg5)
    _ = W3 m dat0 dat1 c (Proc.devRef .tc main_arg5) := StableHlo.after_of_writes_sub hostOps2 _ hostOps2_writes (by decide)
    _ = W2 m dat0 c (Proc.devRef .tc main_arg5) := W3_of_ne m dat0 dat1 c main_arg5 (by decide)
    _ = W1 m c (Proc.devRef .tc main_arg5) := W2_of_ne m dat0 c main_arg5 (by decide)
    _ = W0 m c (Proc.devRef .tc main_arg5) := StableHlo.after_of_writes_sub hostOps0 _ hostOps0_writes (by decide)
    _ = m ((c : Thread nD τ).loc main_arg5) := rfl
theorem W4_main_arg6 (c : Dev nD) : W4 m dat0 dat1 c (Proc.devRef .tc main_arg6) = m ((c : Thread nD τ).loc main_arg6) :=
  calc W4 m dat0 dat1 c (Proc.devRef .tc main_arg6)
    _ = W3 m dat0 dat1 c (Proc.devRef .tc main_arg6) := StableHlo.after_of_writes_sub hostOps2 _ hostOps2_writes (by decide)
    _ = W2 m dat0 c (Proc.devRef .tc main_arg6) := W3_of_ne m dat0 dat1 c main_arg6 (by decide)
    _ = W1 m c (Proc.devRef .tc main_arg6) := W2_of_ne m dat0 c main_arg6 (by decide)
    _ = W0 m c (Proc.devRef .tc main_arg6) := StableHlo.after_of_writes_sub hostOps0 _ hostOps0_writes (by decide)
    _ = m ((c : Thread nD τ).loc main_arg6) := rfl
theorem W4_main_arg7 (c : Dev nD) : W4 m dat0 dat1 c (Proc.devRef .tc main_arg7) = m ((c : Thread nD τ).loc main_arg7) :=
  calc W4 m dat0 dat1 c (Proc.devRef .tc main_arg7)
    _ = W3 m dat0 dat1 c (Proc.devRef .tc main_arg7) := StableHlo.after_of_writes_sub hostOps2 _ hostOps2_writes (by decide)
    _ = W2 m dat0 c (Proc.devRef .tc main_arg7) := W3_of_ne m dat0 dat1 c main_arg7 (by decide)
    _ = W1 m c (Proc.devRef .tc main_arg7) := W2_of_ne m dat0 c main_arg7 (by decide)
    _ = W0 m c (Proc.devRef .tc main_arg7) := StableHlo.after_of_writes_sub hostOps0 _ hostOps0_writes (by decide)
    _ = m ((c : Thread nD τ).loc main_arg7) := rfl
theorem W4_main_arg8 (c : Dev nD) : W4 m dat0 dat1 c (Proc.devRef .tc main_arg8) = m ((c : Thread nD τ).loc main_arg8) :=
  calc W4 m dat0 dat1 c (Proc.devRef .tc main_arg8)
    _ = W3 m dat0 dat1 c (Proc.devRef .tc main_arg8) := StableHlo.after_of_writes_sub hostOps2 _ hostOps2_writes (by decide)
    _ = W2 m dat0 c (Proc.devRef .tc main_arg8) := W3_of_ne m dat0 dat1 c main_arg8 (by decide)
    _ = W1 m c (Proc.devRef .tc main_arg8) := W2_of_ne m dat0 c main_arg8 (by decide)
    _ = W0 m c (Proc.devRef .tc main_arg8) := StableHlo.after_of_writes_sub hostOps0 _ hostOps0_writes (by decide)
    _ = m ((c : Thread nD τ).loc main_arg8) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m dat0) c
abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m dat0 dat1 c) ∗ ∃ r, prngReg c r)

-- what this module needs of the regions' halves
variable (hA0 : ∀ (V : Entry F) c w, (dat0 V c).A w = V c (Pipeline.arrRef spec0 w))
variable (hq0 : ∀ (V : Entry F) c w, (dat0 V c).q w = fullShare)
variable (howed0 : ∀ (V : Entry F) c t, (dat0 V c).owed t = 0)
variable (hrec0 : ∀ (V : Entry F) c t, (dat0 V c).recorded t = Set.univ)
variable (hbody0 : ∀ (V : Entry F) c, BodyObligation (dat0 V c) (defs₀ (F := F)) Variants.none () Set.univ)
variable (hin0 : ∀ (V : Entry F) (c : Dev nD), Pipeline.ΦA spec0 c ⊢ (dat0 V c).Φ 0)
variable (hout0 : ∀ (V : Entry F) (c : Dev nD), (dat0 V c).Φ (Fin.last cfg0.N) ⊢ Pipeline.ΦA spec0 c)
variable (hA1 : ∀ (V : Entry F) c w, (dat1 V c).A w = V c (Pipeline.arrRef spec1 w))
variable (hq1 : ∀ (V : Entry F) c w, (dat1 V c).q w = fullShare)
variable (howed1 : ∀ (V : Entry F) c t, (dat1 V c).owed t = 0)
variable (hrec1 : ∀ (V : Entry F) c t, (dat1 V c).recorded t = Set.univ)
variable (hbody1 : ∀ (V : Entry F) c, BodyObligation (dat1 V c) (defs₀ (F := F)) Variants.none () Set.univ)
variable (hin1 : ∀ (V : Entry F) (c : Dev nD), Pipeline.ΦA spec1 c ⊢ (dat1 V c).Φ 0)
variable (hout1 : ∀ (V : Entry F) (c : Dev nD), (dat1 V c).Φ (Fin.last cfg1.N) ⊢ Pipeline.ΦA spec1 c)

include hA0 hq0 howed0 hrec0 hbody0 hin0 hout0 in
set_option backward.isDefEq.respectTransparency.types false in
/-- Region 0 over the thread state: entered from every unscoped buffer at the contents before it, left at the contents
    after it. Its arrays are split out of the unscoped buffers and put back at what the write-backs leave; the scoped
    buffers no window stages and the generator register enter the region's invariant through the class's and come back
    through it; nothing is owed; the kernel has no semaphore of its own. -/
def reg0 : Pipeline.RegionSeg (pcfgs (F := F)) adm (pdats m dat0 dat1) () defs₀ 𝒱₀ L lv 0 where
  win := launch0.win.to₀
  block_pos := launch0.block_pos
  stage_whole := launch0.stage_whole
  K := PEmpty
  osem k := k.elim
  ho := Pipeline.OwnSemFacts.none _
  hbody c := (hbody0 (V1 m) c).loose
  hwaits := Pipeline.hwaits_of_owed_zero _ _ _ _ L lv 0 fun c t => howed0 (V1 m) c t
  pre c := iprop(StableHlo.held (c : Thread nD τ) (Pipeline.ucRefs τ sig) (W1 m c) ∗ R c)
  post c := iprop(StableHlo.held (c : Thread nD τ) (Pipeline.ucRefs τ sig) (W2 m dat0 c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m dat0 dat1) launch0.win launch0.arr_whole c
      ((pdats m dat0 dat1 0 c).share_full fun w => hq0 (V1 m) c w) (V1 m c) fun w => hA0 (V1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m dat0 dat1 0 c).owed 0 = 0 from howed0 (V1 m) c 0]
      icases HO with ⟨%W, HO⟩; iexists W; isplitr
      · ipureintro; exact fun _ _ => Or.inl (by rw [show (pdats m dat0 dat1 0 c).recorded 0 = Set.univ from hrec0 (V1 m) c 0]; trivial)
      iexact HO
    isplitl [Hp]; · iexact Hp
    iexact Hrest
  hin c := by
    rw [show (pdats m dat0 dat1 0 c).Φ 0 = (dat0 (V1 m) c).Φ 0 from rfl]
    have h := hin0 (V1 m) c
    unfold Pipeline.ΦA at h
    iintro ⟨Hp, -, Hr⟩
    iapply h
    isplitl [Hr]; · iexact Hr
    iexact Hp
  hout c := by
    rw [Pipeline.ownSems0_none, show (pdats m dat0 dat1 0 c).Φ (Fin.last _) = (dat0 (V1 m) c).Φ (Fin.last cfg0.N) from rfl]
    have h := hout0 (V1 m) c
    unfold Pipeline.ΦA at h
    have h2 : (iprop(Pipeline.scopedRest spec0 c ∗ ∃ r, prngReg c r) : sProp 𝕄) ⊢ iprop((∃ r, prngReg c r) ∗ emp ∗ Pipeline.scopedRest spec0 c) := by
      iintro ⟨Hr, Hp⟩
      isplitl [Hp]; · iexact Hp
      isplitr; · iempintro
      iexact Hr
    exact h.trans h2
  hexit c := by
    have hjoin := Pipeline.unscopedBufs_of_arrays (p := 0) (pcfgs (F := F)) adm (Ix := Unit) (Name := ℕ) (U := UR sig nD τ) (Lvl := ℕ)
      launch0.win launch0.arr_whole c (pdats m dat0 dat1) ((pdats m dat0 dat1 0 c).share_full fun w => hq0 (V1 m) c w)
      (V1 m c) (V2 m dat0 c) ((pdats m dat0 dat1 0 c).arrAt · cfg0.N) (hF0 m dat0 c) (hrest0 m dat0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m dat0 dat1 0 c).owed (Fin.last _) = 0 from howed0 (V1 m) c (Fin.last _)]
    icases HO with ⟨%W, -, HO⟩; iexists W; iexact HO

include hA1 hq1 howed1 hrec1 hbody1 hin1 hout1 in
set_option backward.isDefEq.respectTransparency.types false in
/-- Region 1 over the thread state: entered from every unscoped buffer at the contents before it, left at the contents
    after it. Its arrays are split out of the unscoped buffers and put back at what the write-backs leave; the scoped
    buffers no window stages and the generator register enter the region's invariant through the class's and come back
    through it; nothing is owed; the kernel has no semaphore of its own. -/
def reg1 : Pipeline.RegionSeg (pcfgs (F := F)) adm (pdats m dat0 dat1) () defs₀ 𝒱₀ L lv 1 where
  win := launch1.win.to₀
  block_pos := launch1.block_pos
  stage_whole := launch1.stage_whole
  K := PEmpty
  osem k := k.elim
  ho := Pipeline.OwnSemFacts.none _
  hbody c := (hbody1 (V2 m dat0) c).loose
  hwaits := Pipeline.hwaits_of_owed_zero _ _ _ _ L lv 1 fun c t => howed1 (V2 m dat0) c t
  pre c := iprop(StableHlo.held (c : Thread nD τ) (Pipeline.ucRefs τ sig) (W2 m dat0 c) ∗ R c)
  post c := iprop(StableHlo.held (c : Thread nD τ) (Pipeline.ucRefs τ sig) (W3 m dat0 dat1 c) ∗ R c)
  X c := iprop(∃ r, prngReg c r)
  Y c := iprop(∃ r, prngReg c r)
  Z c := Pipeline.unscopedRest (Ix := Unit) (Name := ℕ) (U := UR sig nD τ) (Lvl := ℕ) spec1 c (V2 m dat0 c)
  hentry c := by
    rw [Pipeline.ownSems0_none]
    have hsplit := Pipeline.arrays_of_unscopedBufs (p := 1) (pcfgs (F := F)) adm (pdats m dat0 dat1) launch1.win launch1.arr_whole c
      ((pdats m dat0 dat1 1 c).share_full fun w => hq1 (V2 m dat0) c w) (V2 m dat0 c) fun w => hA1 (V2 m dat0) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m dat0 dat1 1 c).owed 0 = 0 from howed1 (V2 m dat0) c 0]
      icases HO with ⟨%W, HO⟩; iexists W; isplitr
      · ipureintro; exact fun _ _ => Or.inl (by rw [show (pdats m dat0 dat1 1 c).recorded 0 = Set.univ from hrec1 (V2 m dat0) c 0]; trivial)
      iexact HO
    isplitl [Hp]; · iexact Hp
    iexact Hrest
  hin c := by
    rw [show (pdats m dat0 dat1 1 c).Φ 0 = (dat1 (V2 m dat0) c).Φ 0 from rfl]
    have h := hin1 (V2 m dat0) c
    unfold Pipeline.ΦA at h
    iintro ⟨Hp, -, Hr⟩
    iapply h
    isplitl [Hr]; · iexact Hr
    iexact Hp
  hout c := by
    rw [Pipeline.ownSems0_none, show (pdats m dat0 dat1 1 c).Φ (Fin.last _) = (dat1 (V2 m dat0) c).Φ (Fin.last cfg1.N) from rfl]
    have h := hout1 (V2 m dat0) c
    unfold Pipeline.ΦA at h
    have h2 : (iprop(Pipeline.scopedRest spec1 c ∗ ∃ r, prngReg c r) : sProp 𝕄) ⊢ iprop((∃ r, prngReg c r) ∗ emp ∗ Pipeline.scopedRest spec1 c) := by
      iintro ⟨Hr, Hp⟩
      isplitl [Hp]; · iexact Hp
      isplitr; · iempintro
      iexact Hr
    exact h.trans h2
  hexit c := by
    have hjoin := Pipeline.unscopedBufs_of_arrays (p := 1) (pcfgs (F := F)) adm (Ix := Unit) (Name := ℕ) (U := UR sig nD τ) (Lvl := ℕ)
      launch1.win launch1.arr_whole c (pdats m dat0 dat1) ((pdats m dat0 dat1 1 c).share_full fun w => hq1 (V2 m dat0) c w)
      (V2 m dat0 c) (V3 m dat0 dat1 c) ((pdats m dat0 dat1 1 c).arrAt · cfg1.N) (hF1 m dat0 dat1 c) (hrest1 m dat0 dat1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m dat0 dat1 1 c).owed (Fin.last _) = 0 from howed1 (V2 m dat0) c (Fin.last _)]
    icases HO with ⟨%W, -, HO⟩; iexists W; iexact HO

/-! ## @main as segments, and the run -/

/-- @main's four items in order. -/
abbrev segs : List (Pipeline.Seg (pcfgs (F := F)) adm (pdats m dat0 dat1) () defs₀ 𝒱₀ L lv) :=
  [ .host (hseg hostOps0 hostOps0_sub hostOps0_fresh (W0 m)),
    .region (reg0 m dat0 dat1 hA0 hq0 howed0 hrec0 hbody0 hin0 hout0),
    .region (reg1 m dat0 dat1 hA1 hq1 howed1 hrec1 hbody1 hin1 hout1),
    .host (hseg hostOps2 hostOps2_sub hostOps2_fresh (W3 m dat0 dat1)) ]

theorem main_run (c : Dev nD) : main (F := F) c = Pipeline.Seg.run (segs m dat0 dat1 hA0 hq0 howed0 hrec0 hbody0 hin0 hout0 hA1 hq1 howed1 hrec1 hbody1 hin1 hout1) :=
  (main_chain c).trans (by chain_rfl)

include hA0 hq0 howed0 hrec0 hbody0 hin0 hout0 hA1 hq1 howed1 hrec1 hbody1 hin1 hout1 in
set_option backward.isDefEq.respectTransparency.types false in
/-- THE RUN: from any memory with zero counters every weakly fair execution of @main terminates, nothing faulting, and
    every final state holds the result array at the last contents (`W4`) and each argument array as launched. -/
theorem run : θ_run defs (onTc (τ := τ) (main (F := F))) ⟨m, fun _ => 0, ρ⟩ (fun r => ∀ c : Dev nD,
      r.2.mem ((c.tc : Thread nD τ).loc main_v25) = W4 m dat0 dat1 c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m dat0 dat1) () cellOf_inj emb₁ defs₀ 𝒱₀ L lv m ρ main (segs m dat0 dat1 hA0 hq0 howed0 hrec0 hbody0 hin0 hout0 hA1 hq1 howed1 hrec1 hbody1 hin1 hout1)
    (fun c Q => by rw [main_run m dat0 dat1 hA0 hq0 howed0 hrec0 hbody0 hin0 hout0 hA1 hq1 howed1 hrec1 hbody1 hin1 hout1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m dat0 dat1)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m dat0 dat1 c b)
    (hfin := fun c s' => by
      iintro ⟨⟨Hh, -⟩, HSI⟩
      unfold StableHlo.held
      imodintro
      iapply (pointsTo_read_all (Pipeline.ucRefs τ sig) (fun b => (((c : Thread nD τ)).1, b)) (W4 m dat0 dat1 c) s')
      isplitl [Hh] <;> iassumption)
    (hQ := fun s h c =>
      ⟨h c _ (mem_uc main_v25 (by decide)),
       (h c _ (mem_uc main_arg0 (by decide))).trans (W4_main_arg0 m dat0 dat1 c),
       (h c _ (mem_uc main_arg1 (by decide))).trans (W4_main_arg1 m dat0 dat1 c),
       (h c _ (mem_uc main_arg2 (by decide))).trans (W4_main_arg2 m dat0 dat1 c),
       (h c _ (mem_uc main_arg3 (by decide))).trans (W4_main_arg3 m dat0 dat1 c),
       (h c _ (mem_uc main_arg4 (by decide))).trans (W4_main_arg4 m dat0 dat1 c),
       (h c _ (mem_uc main_arg5 (by decide))).trans (W4_main_arg5 m dat0 dat1 c),
       (h c _ (mem_uc main_arg6 (by decide))).trans (W4_main_arg6 m dat0 dat1 c),
       (h c _ (mem_uc main_arg7 (by decide))).trans (W4_main_arg7 m dat0 dat1 c),
       (h c _ (mem_uc main_arg8 (by decide))).trans (W4_main_arg8 m dat0 dat1 c)⟩)

end Cert.ReferenceIdeal.Hand

end
-- ==== Proof.RefL1Cases.lean ====
import proofs.«173193_g2000702591456375_pallasbulk_739_11_alg».proof.Proof.Gen.ReferenceIdeal.Launch
import proofs.«173193_g2000702591456375_pallasbulk_739_11_alg».proof.Proof.Gen.ReferenceIdeal.Skeleton
import proofs.«173193_g2000702591456375_pallasbulk_739_11_alg».proof.Proof.Gen.ReferenceIdeal.Points
import Idealize.ShloMosaic.Lib.Pipeline.FrameBody
import Idealize.ShloMosaic.Lib.Ring
import Idealize.ShloMosaic.Lib.Tactic

set_option maxRecDepth 16384

noncomputable section

namespace Cert.ReferenceIdeal.L1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

/-! # Layer 1 of the reference (grid 8 x 8, point t = 8 i + k): the body's control cases

The body zeroes the accumulator when k = 0, adds the k-th partial product of the row tile,
and when k = 7 normalises, projects and stores the two outputs. -/

/-! ## The two conditions, over the grid coordinates -/

/-- The first conditional's guard: k = 0, as the scalar chain computes it. -/
abbrev cond1 (i : grid0.Coords) : Prop :=
  (Scalar.cmpi .ne (Scalar.extui (Scalar.cmpi .eq (BitVec.ofNat 32 (i 1).val) 0#32)) 0#32) = 1#1

/-- The second conditional's guard: k = 7. -/
abbrev cond2 (i : grid0.Coords) : Prop := k0_cond2 i = 1#1

/-- The first guard holds exactly at the points with k = 0. -/
theorem hcond1 : ∀ t : Fin cfg0.N, cond1 (grid0.coords t) ↔ t.val % 8 = 0 :=
  (by decide +kernel : ∀ t : Fin grid0.N, cond1 (grid0.coords t) ↔ t.val % 8 = 0)

/-- The second guard holds exactly at the points with k = 7. -/
theorem hcond2 : ∀ t : Fin cfg0.N, k0_cond2 (grid0.coords t) = 1#1 ↔ t.val % 8 = 7 :=
  (by decide +kernel : ∀ t : Fin grid0.N, k0_cond2 (grid0.coords t) = 1#1 ↔ t.val % 8 = 7)

/-- No point takes both conditionals. -/
theorem not_both : ∀ t : Fin cfg0.N, ¬(cond1 (grid0.coords t) ∧ cond2 (grid0.coords t)) :=
  (by decide +kernel : ∀ t : Fin grid0.N, ¬(cond1 (grid0.coords t) ∧ cond2 (grid0.coords t)))

/-! ## Where the windows are live -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel
theorem live8 : ∀ t : Fin cfg0.N, cfg0.idle 8 (grid0.coords t) = false := by decide +kernel

/-- Away from k = 7 the first output's window is idle, -/
theorem idle9 : ∀ t : Fin cfg0.N, ¬cond2 (grid0.coords t) → cfg0.idle 9 (grid0.coords t) = true := by decide +kernel
/-- and its block is not written back; -/
theorem noFlush9 : ∀ t : Fin cfg0.N, ¬cond2 (grid0.coords t) → (cfg0.win 9).flush t = false := by decide +kernel
/-- at k = 7 it is live. -/
theorem live9 : ∀ t : Fin cfg0.N, cond2 (grid0.coords t) → cfg0.idle 9 (grid0.coords t) = false := by decide +kernel
/-- The same for the second output's window. -/
theorem idle10 : ∀ t : Fin cfg0.N, ¬cond2 (grid0.coords t) → cfg0.idle 10 (grid0.coords t) = true := by decide +kernel
theorem noFlush10 : ∀ t : Fin cfg0.N, ¬cond2 (grid0.coords t) → (cfg0.win 10).flush t = false := by decide +kernel
theorem live10 : ∀ t : Fin cfg0.N, cond2 (grid0.coords t) → cfg0.idle 10 (grid0.coords t) = false := by decide +kernel

/-! ## The memrefs the body is called with -/

abbrev ms0 (t : Fin cfg0.N) : Memref sig .tc .vmem S512x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S256x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S256x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x128 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S512x128 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S512x128 .f32 := win0_10.stage (cfg0.slots t 10)
abbrev hs10 (t : Fin cfg0.N) : (ms10 t).IsWhole := hstage0_10 ((cfg0.slots t 10).cast nbuf0_10)

/-- The accumulator: a whole scoped buffer of the kernel's own, carried from point to point. -/
abbrev scM : Memref sig .tc .vmem S512x128 .f32 := Memref.whole cc0_scratch0
/-- The view its contents are stated through. -/
abbrev VS : View sig .tc .vmem S512x128 .f32 := (scM).view
/-- One staging buffer of each output, through which that output's contents are stated. -/
abbrev VO9 : View sig .tc .vmem S512x128 .f32 := (Memref.whole cc0_stg9_0 : Memref sig .tc .vmem S512x128 .f32).view
abbrev VO10 : View sig .tc .vmem S512x128 .f32 := (Memref.whole cc0_stg10_0 : Memref sig .tc .vmem S512x128 .f32).view

/-! ## The class invariant, the accumulator first -/

/-- The core's scoped buffers other than this call's staging buffers and its accumulator, at any contents. -/
def Rest (c : Dev nD) : sProp 𝕄 :=
  Pipeline.scopedRestBut (Ix := Unit) (Name := ℕ) (U := UR sig nD τ) (Lvl := ℕ) (Val := Elt F) spec0 c [cc0_scratch0]

/-- The invariant opened: the accumulator at some contents, the other scoped buffers, the generator register. -/
theorem PhiA_eq (c : Dev nD) :
    (Pipeline.ΦA spec0 c : sProp 𝕄)
      = iprop(iprop((∃ d, owns (c : Thread nD τ) scM fullShare d) ∗ Rest (F := F) c) ∗ (∃ r, prngReg c r)) := by
  unfold Pipeline.ΦA Rest
  rw [Pipeline.scopedRest_split_of_list spec0 c [cc0_scratch0] (by decide) (by decide)]
  simp only [bigSepL_singleton, scM, owns_whole]
  rfl

end Cert.ReferenceIdeal.L1

end
-- ==== Proof.RefL1RunA.lean ====
import proofs.«173193_g2000702591456375_pallasbulk_739_11_alg».proof.Proof.RefL1Cases

set_option maxRecDepth 16384

noncomputable section

namespace Cert.ReferenceIdeal.L1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

set_option maxHeartbeats 1000000 in
/-- The body at a point with k = 0 (the accumulator zeroed, then the first partial product added): on whole
    memrefs, the adjacency tile's at `x0`, the feature array's at `x1`, the accumulator's at anything, it runs to the
    continuation holding the two inputs as they were and the accumulator with the found pieces written (last first).
    The other operands are not touched. -/
noncomputable def runA (c : Dev nD) (i : grid0.Coords) (arg2 : Memref sig .tc .vmem S512x512 .bf16) (harg2 : arg2.IsWhole) (arg3 : Memref sig .tc .vmem S4096x128 .f32) (harg3 : arg3.IsWhole) (arg4 : Memref sig .tc .vmem S512x1 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S1x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole)
    (hc1 : cond1 i) (hc2 : ¬cond2 i) (x0 : Vec F S512x512 .bf16) (x1 : Vec F S4096x128 .f32) :
    { LS : List (View.Piece (Elt F) S512x128 .f32) //
      ∀ (E : Set ℕ) (K : PUnit → sProp 𝕄),
        iprop(owns (c : Thread nD τ) arg2 fullShare x0 ∗ owns (c : Thread nD τ) arg3 fullShare x1 ∗ (∃ d, owns (c : Thread nD τ) arg13 fullShare d)
            ∗ (iprop(owns (c : Thread nD τ) arg2 fullShare x0 ∗ owns (c : Thread nD τ) arg3 fullShare x1 ∗ (∃ f, arg13.view.loc (c : Thread nD τ) ↦[arg13.view.set]{fullShare} arg13.view.writes (Elt F) f LS)) -∗ K ⟨⟩))
          ⊢ wp frame (wpE (defs₀ (F := F)) Variants.none c none) E (cc0__sage_layer1_kernel i arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0__sage_layer1_kernel_eq_skeleton]; unfold cc0__sage_layer1_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.ReferenceIdeal.L1

end
-- ==== Proof.RefL1RunB.lean ====
import proofs.«173193_g2000702591456375_pallasbulk_739_11_alg».proof.Proof.RefL1RunA

set_option maxRecDepth 16384

noncomputable section

namespace Cert.ReferenceIdeal.L1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

set_option maxHeartbeats 1000000 in
/-- The body at a point with 0 < k < 7 (one more partial product added): on whole memrefs, the adjacency tile's at
    `x0`, the feature array's at `x1`, the accumulator's at `xs` (what the point before left), it runs to the
    continuation holding the two inputs as they were and the accumulator with the found pieces written. -/
noncomputable def runB (c : Dev nD) (i : grid0.Coords) (arg2 : Memref sig .tc .vmem S512x512 .bf16) (harg2 : arg2.IsWhole) (arg3 : Memref sig .tc .vmem S4096x128 .f32) (harg3 : arg3.IsWhole) (arg4 : Memref sig .tc .vmem S512x1 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S1x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole)
    (hc1 : ¬cond1 i) (hc2 : ¬cond2 i) (x0 : Vec F S512x512 .bf16) (x1 : Vec F S4096x128 .f32) (xs : Vec F S512x128 .f32) :
    { LS : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg13 fullShare xs
            ∗ (iprop(owns (c : Thread nD τ) arg2 fullShare x0 ∗ owns (c : Thread nD τ) arg3 fullShare x1 ∗ (∃ f, arg13.view.loc (c : Thread nD τ) ↦[arg13.view.set]{fullShare} arg13.view.writes (Elt F) f LS)) -∗ K ⟨⟩))
          ⊢ wp frame (wpE (defs₀ (F := F)) Variants.none c none) E (cc0__sage_layer1_kernel i arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0__sage_layer1_kernel_eq_skeleton]; unfold cc0__sage_layer1_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg13.eq_unread hfs0
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.ReferenceIdeal.L1

end
-- ==== Proof.RefL1RunC.lean ====
import proofs.«173193_g2000702591456375_pallasbulk_739_11_alg».proof.Proof.RefL1RunB

set_option maxRecDepth 16384

noncomputable section

namespace Cert.ReferenceIdeal.L1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

set_option maxHeartbeats 4000000 in
/-- The body at a point with k = 7 (the last partial product added, then the epilogue: the accumulated tile scaled by
    the inverse degrees, the two projections, bias, row normalisation, rectification, and the two output products
    stored): on whole memrefs, the nine inputs' at `x0 … x8`, the two outputs' at anything, the accumulator's at
    `xs`, it runs to the continuation holding the inputs as they were and each output and the accumulator with the
    found pieces written. -/
noncomputable def runC (c : Dev nD) (i : grid0.Coords) (arg2 : Memref sig .tc .vmem S512x512 .bf16) (harg2 : arg2.IsWhole) (arg3 : Memref sig .tc .vmem S4096x128 .f32) (harg3 : arg3.IsWhole) (arg4 : Memref sig .tc .vmem S512x1 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S1x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole)
    (hc1 : ¬cond1 i) (hc2 : cond2 i) (x0 : Vec F S512x512 .bf16) (x1 : Vec F S4096x128 .f32) (x2 : Vec F S512x1 .f32) (x3 : Vec F S128x256 .f32) (x4 : Vec F S128x256 .f32) (x5 : Vec F S1x256 .f32) (x6 : Vec F S256x128 .f32) (x7 : Vec F S256x128 .f32) (x8 : Vec F S1x128 .f32) (xs : Vec F S512x128 .f32) :
    Σ' (L9 : List (View.Piece (Elt F) S512x128 .f32)) (L10 : List (View.Piece (Elt F) S512x128 .f32)), { LS : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ owns (c : Thread nD τ) arg13 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LS)) -∗ K ⟨⟩))
          ⊢ wp frame (wpE (defs₀ (F := F)) Variants.none c none) E (cc0__sage_layer1_kernel i arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0__sage_layer1_kernel_eq_skeleton]; unfold cc0__sage_layer1_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg13.eq_unread hfs0
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexists _; iexact H10
    iexists _; iexact HS0

end Cert.ReferenceIdeal.L1

end
-- ==== Proof.RefL1Frame.lean ====
import proofs.«173193_g2000702591456375_pallasbulk_739_11_alg».proof.Proof.RefL1RunC

set_option maxRecDepth 16384

noncomputable section

namespace Cert.ReferenceIdeal.L1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Layer 1 of the reference at the entry contents `V`: what each point leaves, and the body obligation -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## Each input's staging buffer holds its block at every point, fetched there or not -/

theorem before_of0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of2 {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_of3 {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_of4 {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_of5 {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_of6 {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_of7 {c : Dev nD} (dat : Dat τ (Elt F) Unit ℕ (UR sig nD τ) ℕ cfg0 c) (hA : dat.A 7 = V c (Pipeline.arrRef spec0 7))
    (hafter : ∀ t, dat.after 7 t = iblk V c 7 t) (t : Fin cfg0.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_of8 {c : Dev nD} (dat : Dat τ (Elt F) Unit ℕ (UR sig nD τ) ℕ cfg0 c) (hA : dat.A 8 = V c (Pipeline.arrRef spec0 8))
    (hafter : ∀ t, dat.after 8 t = iblk V c 8 t) (t : Fin cfg0.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## What each case leaves: covers and contents -/

/-- At k = 0 the accumulator's pieces cover it. -/
theorem scoverA (c : Dev nD) (i : grid0.Coords) (arg2 : Memref sig .tc .vmem S512x512 .bf16) (harg2 : arg2.IsWhole) (arg3 : Memref sig .tc .vmem S4096x128 .f32) (harg3 : arg3.IsWhole) (arg4 : Memref sig .tc .vmem S512x1 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S1x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (hc1 : cond1 i) (hc2 : ¬cond2 i) (x0 : Vec F S512x512 .bf16) (x1 : Vec F S4096x128 .f32) (y : S512x128.Idx) :
    ∃ pc ∈ (runA c i arg2 harg2 arg3 harg3 arg4 harg4 arg5 harg5 arg6 harg6 arg7 harg7 arg8 harg8 arg9 harg9 arg10 harg10 arg11 harg11 arg12 harg12 arg13 harg13 hc1 hc2 x0 x1).1, y ∈ pc.1.set :=
  View.cover_of_tiledL (runA c i arg2 harg2 arg3 harg3 arg4 harg4 arg5 harg5 arg6 harg6 arg7 harg7 arg8 harg8 arg9 harg9 arg10 harg10 arg11 harg11 arg12 harg12 arg13 harg13 hc1 hc2 x0 x1).1 S512x128.size (by sl_kernel_rfl) y

/-- What a point with k = 0 leaves in the accumulator. -/
def soutA (c : Dev nD) (i : grid0.Coords) (arg2 : Memref sig .tc .vmem S512x512 .bf16) (harg2 : arg2.IsWhole) (arg3 : Memref sig .tc .vmem S4096x128 .f32) (harg3 : arg3.IsWhole) (arg4 : Memref sig .tc .vmem S512x1 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S1x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (hc1 : cond1 i) (hc2 : ¬cond2 i) (x0 : Vec F S512x512 .bf16) (x1 : Vec F S4096x128 .f32) : Vec F S512x128 .f32 :=
  VS.read (Elt F) (VS.writes (Elt F) VS.junk (runA c i arg2 harg2 arg3 harg3 arg4 harg4 arg5 harg5 arg6 harg6 arg7 harg7 arg8 harg8 arg9 harg9 arg10 harg10 arg11 harg11 arg12 harg12 arg13 harg13 hc1 hc2 x0 x1).1)

/-- At 0 < k < 7 the accumulator's pieces cover it. -/
theorem scoverB (c : Dev nD) (i : grid0.Coords) (arg2 : Memref sig .tc .vmem S512x512 .bf16) (harg2 : arg2.IsWhole) (arg3 : Memref sig .tc .vmem S4096x128 .f32) (harg3 : arg3.IsWhole) (arg4 : Memref sig .tc .vmem S512x1 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S1x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (hc1 : ¬cond1 i) (hc2 : ¬cond2 i) (x0 : Vec F S512x512 .bf16) (x1 : Vec F S4096x128 .f32) (xs : Vec F S512x128 .f32) (y : S512x128.Idx) :
    ∃ pc ∈ (runB c i arg2 harg2 arg3 harg3 arg4 harg4 arg5 harg5 arg6 harg6 arg7 harg7 arg8 harg8 arg9 harg9 arg10 harg10 arg11 harg11 arg12 harg12 arg13 harg13 hc1 hc2 x0 x1 xs).1, y ∈ pc.1.set :=
  View.cover_of_tiledL (runB c i arg2 harg2 arg3 harg3 arg4 harg4 arg5 harg5 arg6 harg6 arg7 harg7 arg8 harg8 arg9 harg9 arg10 harg10 arg11 harg11 arg12 harg12 arg13 harg13 hc1 hc2 x0 x1 xs).1 S512x128.size (by sl_kernel_rfl) y

/-- What a point with 0 < k < 7 leaves in the accumulator, from what the point before left. -/
def soutB (c : Dev nD) (i : grid0.Coords) (arg2 : Memref sig .tc .vmem S512x512 .bf16) (harg2 : arg2.IsWhole) (arg3 : Memref sig .tc .vmem S4096x128 .f32) (harg3 : arg3.IsWhole) (arg4 : Memref sig .tc .vmem S512x1 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S1x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (hc1 : ¬cond1 i) (hc2 : ¬cond2 i) (x0 : Vec F S512x512 .bf16) (x1 : Vec F S4096x128 .f32) (xs : Vec F S512x128 .f32) : Vec F S512x128 .f32 :=
  VS.read (Elt F) (VS.writes (Elt F) VS.junk (runB c i arg2 harg2 arg3 harg3 arg4 harg4 arg5 harg5 arg6 harg6 arg7 harg7 arg8 harg8 arg9 harg9 arg10 harg10 arg11 harg11 arg12 harg12 arg13 harg13 hc1 hc2 x0 x1 xs).1)

/-- At k = 7 the first output's pieces cover its block, -/
theorem cover9C (c : Dev nD) (i : grid0.Coords) (arg2 : Memref sig .tc .vmem S512x512 .bf16) (harg2 : arg2.IsWhole) (arg3 : Memref sig .tc .vmem S4096x128 .f32) (harg3 : arg3.IsWhole) (arg4 : Memref sig .tc .vmem S512x1 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S1x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (hc1 : ¬cond1 i) (hc2 : cond2 i) (x0 : Vec F S512x512 .bf16) (x1 : Vec F S4096x128 .f32) (x2 : Vec F S512x1 .f32) (x3 : Vec F S128x256 .f32) (x4 : Vec F S128x256 .f32) (x5 : Vec F S1x256 .f32) (x6 : Vec F S256x128 .f32) (x7 : Vec F S256x128 .f32) (x8 : Vec F S1x128 .f32) (xs : Vec F S512x128 .f32) (y : S512x128.Idx) :
    ∃ pc ∈ (runC c i arg2 harg2 arg3 harg3 arg4 harg4 arg5 harg5 arg6 harg6 arg7 harg7 arg8 harg8 arg9 harg9 arg10 harg10 arg11 harg11 arg12 harg12 arg13 harg13 hc1 hc2 x0 x1 x2 x3 x4 x5 x6 x7 x8 xs).1, y ∈ pc.1.set :=
  View.cover_of_tiledL (runC c i arg2 harg2 arg3 harg3 arg4 harg4 arg5 harg5 arg6 harg6 arg7 harg7 arg8 harg8 arg9 harg9 arg10 harg10 arg11 harg11 arg12 harg12 arg13 harg13 hc1 hc2 x0 x1 x2 x3 x4 x5 x6 x7 x8 xs).1 S512x128.size (by sl_kernel_rfl) y

/-- the second output's pieces cover its block, -/
theorem cover10C (c : Dev nD) (i : grid0.Coords) (arg2 : Memref sig .tc .vmem S512x512 .bf16) (harg2 : arg2.IsWhole) (arg3 : Memref sig .tc .vmem S4096x128 .f32) (harg3 : arg3.IsWhole) (arg4 : Memref sig .tc .vmem S512x1 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S1x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (hc1 : ¬cond1 i) (hc2 : cond2 i) (x0 : Vec F S512x512 .bf16) (x1 : Vec F S4096x128 .f32) (x2 : Vec F S512x1 .f32) (x3 : Vec F S128x256 .f32) (x4 : Vec F S128x256 .f32) (x5 : Vec F S1x256 .f32) (x6 : Vec F S256x128 .f32) (x7 : Vec F S256x128 .f32) (x8 : Vec F S1x128 .f32) (xs : Vec F S512x128 .f32) (y : S512x128.Idx) :
    ∃ pc ∈ (runC c i arg2 harg2 arg3 harg3 arg4 harg4 arg5 harg5 arg6 harg6 arg7 harg7 arg8 harg8 arg9 harg9 arg10 harg10 arg11 harg11 arg12 harg12 arg13 harg13 hc1 hc2 x0 x1 x2 x3 x4 x5 x6 x7 x8 xs).2.1, y ∈ pc.1.set :=
  View.cover_of_tiledL (runC c i arg2 harg2 arg3 harg3 arg4 harg4 arg5 harg5 arg6 harg6 arg7 harg7 arg8 harg8 arg9 harg9 arg10 harg10 arg11 harg11 arg12 harg12 arg13 harg13 hc1 hc2 x0 x1 x2 x3 x4 x5 x6 x7 x8 xs).2.1 S512x128.size (by sl_kernel_rfl) y

/-- and the accumulator's pieces cover it. -/
theorem scoverC (c : Dev nD) (i : grid0.Coords) (arg2 : Memref sig .tc .vmem S512x512 .bf16) (harg2 : arg2.IsWhole) (arg3 : Memref sig .tc .vmem S4096x128 .f32) (harg3 : arg3.IsWhole) (arg4 : Memref sig .tc .vmem S512x1 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S1x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (hc1 : ¬cond1 i) (hc2 : cond2 i) (x0 : Vec F S512x512 .bf16) (x1 : Vec F S4096x128 .f32) (x2 : Vec F S512x1 .f32) (x3 : Vec F S128x256 .f32) (x4 : Vec F S128x256 .f32) (x5 : Vec F S1x256 .f32) (x6 : Vec F S256x128 .f32) (x7 : Vec F S256x128 .f32) (x8 : Vec F S1x128 .f32) (xs : Vec F S512x128 .f32) (y : S512x128.Idx) :
    ∃ pc ∈ (runC c i arg2 harg2 arg3 harg3 arg4 harg4 arg5 harg5 arg6 harg6 arg7 harg7 arg8 harg8 arg9 harg9 arg10 harg10 arg11 harg11 arg12 harg12 arg13 harg13 hc1 hc2 x0 x1 x2 x3 x4 x5 x6 x7 x8 xs).2.2.1, y ∈ pc.1.set :=
  View.cover_of_tiledL (runC c i arg2 harg2 arg3 harg3 arg4 harg4 arg5 harg5 arg6 harg6 arg7 harg7 arg8 harg8 arg9 harg9 arg10 harg10 arg11 harg11 arg12 harg12 arg13 harg13 hc1 hc2 x0 x1 x2 x3 x4 x5 x6 x7 x8 xs).2.2.1 S512x128.size (by sl_kernel_rfl) y

/-- What a point with k = 7 leaves in the first output's staging buffer, -/
def out9C (c : Dev nD) (i : grid0.Coords) (arg2 : Memref sig .tc .vmem S512x512 .bf16) (harg2 : arg2.IsWhole) (arg3 : Memref sig .tc .vmem S4096x128 .f32) (harg3 : arg3.IsWhole) (arg4 : Memref sig .tc .vmem S512x1 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S1x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (hc1 : ¬cond1 i) (hc2 : cond2 i) (x0 : Vec F S512x512 .bf16) (x1 : Vec F S4096x128 .f32) (x2 : Vec F S512x1 .f32) (x3 : Vec F S128x256 .f32) (x4 : Vec F S128x256 .f32) (x5 : Vec F S1x256 .f32) (x6 : Vec F S256x128 .f32) (x7 : Vec F S256x128 .f32) (x8 : Vec F S1x128 .f32) (xs : Vec F S512x128 .f32) : Vec F S512x128 .f32 :=
  VO9.read (Elt F) (VO9.writes (Elt F) VO9.junk (runC c i arg2 harg2 arg3 harg3 arg4 harg4 arg5 harg5 arg6 harg6 arg7 harg7 arg8 harg8 arg9 harg9 arg10 harg10 arg11 harg11 arg12 harg12 arg13 harg13 hc1 hc2 x0 x1 x2 x3 x4 x5 x6 x7 x8 xs).1)

/-- in the second output's, -/
def out10C (c : Dev nD) (i : grid0.Coords) (arg2 : Memref sig .tc .vmem S512x512 .bf16) (harg2 : arg2.IsWhole) (arg3 : Memref sig .tc .vmem S4096x128 .f32) (harg3 : arg3.IsWhole) (arg4 : Memref sig .tc .vmem S512x1 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S1x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (hc1 : ¬cond1 i) (hc2 : cond2 i) (x0 : Vec F S512x512 .bf16) (x1 : Vec F S4096x128 .f32) (x2 : Vec F S512x1 .f32) (x3 : Vec F S128x256 .f32) (x4 : Vec F S128x256 .f32) (x5 : Vec F S1x256 .f32) (x6 : Vec F S256x128 .f32) (x7 : Vec F S256x128 .f32) (x8 : Vec F S1x128 .f32) (xs : Vec F S512x128 .f32) : Vec F S512x128 .f32 :=
  VO10.read (Elt F) (VO10.writes (Elt F) VO10.junk (runC c i arg2 harg2 arg3 harg3 arg4 harg4 arg5 harg5 arg6 harg6 arg7 harg7 arg8 harg8 arg9 harg9 arg10 harg10 arg11 harg11 arg12 harg12 arg13 harg13 hc1 hc2 x0 x1 x2 x3 x4 x5 x6 x7 x8 xs).2.1)

/-- and in the accumulator. -/
def soutC (c : Dev nD) (i : grid0.Coords) (arg2 : Memref sig .tc .vmem S512x512 .bf16) (harg2 : arg2.IsWhole) (arg3 : Memref sig .tc .vmem S4096x128 .f32) (harg3 : arg3.IsWhole) (arg4 : Memref sig .tc .vmem S512x1 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S1x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (hc1 : ¬cond1 i) (hc2 : cond2 i) (x0 : Vec F S512x512 .bf16) (x1 : Vec F S4096x128 .f32) (x2 : Vec F S512x1 .f32) (x3 : Vec F S128x256 .f32) (x4 : Vec F S128x256 .f32) (x5 : Vec F S1x256 .f32) (x6 : Vec F S256x128 .f32) (x7 : Vec F S256x128 .f32) (x8 : Vec F S1x128 .f32) (xs : Vec F S512x128 .f32) : Vec F S512x128 .f32 :=
  VS.read (Elt F) (VS.writes (Elt F) VS.junk (runC c i arg2 harg2 arg3 harg3 arg4 harg4 arg5 harg5 arg6 harg6 arg7 harg7 arg8 harg8 arg9 harg9 arg10 harg10 arg11 harg11 arg12 harg12 arg13 harg13 hc1 hc2 x0 x1 x2 x3 x4 x5 x6 x7 x8 xs).2.2.1)

/-! ## The accumulator after each point -/

/-- What the accumulator holds after the body at position `n`: the case k = n mod 8 selects, run at the point's
    memrefs and blocks, over what position `n - 1` left when k > 0. -/
def accAt (c : Dev nD) : (n : ℕ) → n < cfg0.N → Vec F S512x128 .f32
  | 0, hn => soutA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) (ms9 ⟨0, hn⟩) (hs9 ⟨0, hn⟩) (ms10 ⟨0, hn⟩) (hs10 ⟨0, hn⟩) scM (Memref.isWhole_whole _) ((hcond1 ⟨0, hn⟩).mpr (Nat.zero_mod _)) (fun h => (fun h' => by (try dsimp only at h'); omega) ((hcond2 ⟨0, hn⟩).mp h)) (iblk V c 0 ⟨0, hn⟩) (iblk V c 1 ⟨0, hn⟩)
  | n + 1, hn =>
    if h0 : (n + 1) % 8 = 0 then
      soutA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (ms10 ⟨n + 1, hn⟩) (hs10 ⟨n + 1, hn⟩) scM (Memref.isWhole_whole _) ((hcond1 ⟨n + 1, hn⟩).mpr h0) (fun h => (fun h' => by (try dsimp only at h'); omega) ((hcond2 ⟨n + 1, hn⟩).mp h)) (iblk V c 0 ⟨n + 1, hn⟩) (iblk V c 1 ⟨n + 1, hn⟩)
    else if h7 : (n + 1) % 8 = 7 then
      soutC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (ms10 ⟨n + 1, hn⟩) (hs10 ⟨n + 1, hn⟩) scM (Memref.isWhole_whole _) (fun h => h0 ((hcond1 ⟨n + 1, hn⟩).mp h)) ((hcond2 ⟨n + 1, hn⟩).mpr h7) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (accAt c n (Nat.lt_of_succ_lt hn))
    else
      soutB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (ms10 ⟨n + 1, hn⟩) (hs10 ⟨n + 1, hn⟩) scM (Memref.isWhole_whole _) (fun h => h0 ((hcond1 ⟨n + 1, hn⟩).mp h)) (fun h => h7 ((hcond2 ⟨n + 1, hn⟩).mp h)) (iblk V c 0 ⟨n + 1, hn⟩) (iblk V c 1 ⟨n + 1, hn⟩) (accAt c n (Nat.lt_of_succ_lt hn))

/-- `accAt` at a point with k = 0. -/
theorem accAt_A (c : Dev nD) (t : Fin cfg0.N) (h0 : t.val % 8 = 0) (h7 : ¬t.val % 8 = 7) :
    accAt V c t.val t.isLt = soutA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scM (Memref.isWhole_whole _) ((hcond1 t).mpr h0) (fun h => h7 ((hcond2 t).mp h)) (iblk V c 0 t) (iblk V c 1 t) := by
  obtain ⟨n, hn⟩ := t
  cases n with
  | zero => rfl
  | succ n => exact (dif_pos h0).trans rfl

/-- `accAt` at a point with 0 < k < 7, over what the point before left. -/
theorem accAt_B (c : Dev nD) (t : Fin cfg0.N) (h0 : ¬t.val % 8 = 0) (h7 : ¬t.val % 8 = 7) :
    accAt V c t.val t.isLt = soutB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scM (Memref.isWhole_whole _) (fun h => h0 ((hcond1 t).mp h)) (fun h => h7 ((hcond2 t).mp h)) (iblk V c 0 t) (iblk V c 1 t) (accAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h7).trans rfl)

/-- `accAt` at a point with k = 7, over what the point before left. -/
theorem accAt_C (c : Dev nD) (t : Fin cfg0.N) (h0 : ¬t.val % 8 = 0) (h7 : t.val % 8 = 7) :
    accAt V c t.val t.isLt = soutC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scM (Memref.isWhole_whole _) (fun h => h0 ((hcond1 t).mp h)) ((hcond2 t).mpr h7) (iblk V c 0 t) (iblk V c 1 t) (iblk V c 2 t) (iblk V c 3 t) (iblk V c 4 t) (iblk V c 5 t) (iblk V c 6 t) (iblk V c 7 t) (iblk V c 8 t) (accAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h7).trans rfl)

/-! ## The outputs after each point -/

/-- The first output's staging buffer after the body at `t`: at k = 7 what the epilogue stores; elsewhere the window is
    idle and these contents are not consulted. -/
def out9At (c : Dev nD) (t : Fin cfg0.N) : Vec F S512x128 .f32 :=
  if h7 : t.val % 8 = 7 then
    out9C c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scM (Memref.isWhole_whole _) (fun h => (fun h' => by omega) ((hcond1 t).mp h)) ((hcond2 t).mpr h7) (iblk V c 0 t) (iblk V c 1 t) (iblk V c 2 t) (iblk V c 3 t) (iblk V c 4 t) (iblk V c 5 t) (iblk V c 6 t) (iblk V c 7 t) (iblk V c 8 t) (accAt V c (t.val - 1) (Nat.lt_of_le_of_lt (Nat.sub_le _ _) t.isLt))
  else VO9.read (Elt F) VO9.junk

/-- The same for the second output. -/
def out10At (c : Dev nD) (t : Fin cfg0.N) : Vec F S512x128 .f32 :=
  if h7 : t.val % 8 = 7 then
    out10C c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scM (Memref.isWhole_whole _) (fun h => (fun h' => by omega) ((hcond1 t).mp h)) ((hcond2 t).mpr h7) (iblk V c 0 t) (iblk V c 1 t) (iblk V c 2 t) (iblk V c 3 t) (iblk V c 4 t) (iblk V c 5 t) (iblk V c 6 t) (iblk V c 7 t) (iblk V c 8 t) (accAt V c (t.val - 1) (Nat.lt_of_le_of_lt (Nat.sub_le _ _) t.isLt))
  else VO10.read (Elt F) VO10.junk

theorem out9At_C (c : Dev nD) (t : Fin cfg0.N) (h0 : ¬t.val % 8 = 0) (h7 : t.val % 8 = 7) :
    out9At V c t = out9C c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scM (Memref.isWhole_whole _) (fun h => h0 ((hcond1 t).mp h)) ((hcond2 t).mpr h7) (iblk V c 0 t) (iblk V c 1 t) (iblk V c 2 t) (iblk V c 3 t) (iblk V c 4 t) (iblk V c 5 t) (iblk V c 6 t) (iblk V c 7 t) (iblk V c 8 t) (accAt V c (t.val - 1) (Nat.lt_of_le_of_lt (Nat.sub_le _ _) t.isLt)) := by
  unfold out9At; exact dif_pos h7

theorem out10At_C (c : Dev nD) (t : Fin cfg0.N) (h0 : ¬t.val % 8 = 0) (h7 : t.val % 8 = 7) :
    out10At V c t = out10C c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scM (Memref.isWhole_whole _) (fun h => h0 ((hcond1 t).mp h)) ((hcond2 t).mpr h7) (iblk V c 0 t) (iblk V c 1 t) (iblk V c 2 t) (iblk V c 3 t) (iblk V c 4 t) (iblk V c 5 t) (iblk V c 6 t) (iblk V c 7 t) (iblk V c 8 t) (accAt V c (t.val - 1) (Nat.lt_of_le_of_lt (Nat.sub_le _ _) t.isLt)) := by
  unfold out10At; exact dif_pos h7

/-! ## The invariant -/

/-- Before position `n`: at the region's entry the class invariant; afterwards the accumulator at what position
    `n - 1` left, the other scoped buffers at anything, the generator register at some state. -/
def PhiS (c : Dev nD) : (n : ℕ) → n ≤ cfg0.N → sProp 𝕄
  | 0, _ => Pipeline.ΦA spec0 c
  | n + 1, hn => iprop(iprop(owns (c : Thread nD τ) scM fullShare (accAt V c n hn) ∗ Rest (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM fullShare (accAt V c n hn) ∗ Rest (F := F) c) ∗ (∃ r, prngReg c r)) := rfl

theorem PhiS_pos (c : Dev nD) (n : ℕ) (h : n ≤ cfg0.N) (hz : n ≠ 0) :
    PhiS V c n h = iprop(iprop(owns (c : Thread nD τ) scM fullShare (accAt V c (n - 1) (by omega)) ∗ Rest (F := F) c) ∗ (∃ r, prngReg c r)) := by
  cases n with
  | zero => exact absurd rfl hz
  | succ n => rfl

/-! ## The pipeline's proof data -/

/-- The proof data on core `c`: the arrays as the region finds them; after the body each input's buffer at its block,
    each output's at `out9At` / `out10At`; the invariant `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => out9At V c t
    | ⟨10, _⟩ => out10At V c t
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem q_eq (c : Dev nD) (w : Fin cfg0.W) : (dat V c).q w = fullShare := rfl

theorem owed_eq (c : Dev nD) (t : Fin (cfg0.N + 1)) : (dat V c).owed t = 0 := rfl

theorem PhiS_castSucc (c : Dev nD) (t : Fin cfg0.N) :
    (dat V c).Φ t.castSucc = PhiS V c t.val (Nat.le_of_lt t.isLt) := by
  dsimp only [dat]; simp only [Fin.coe_castSucc]

theorem after_in0 (c : Dev nD) (t : Fin cfg0.N) : (dat V c).after 0 t = iblk V c 0 t := by dsimp only [dat]
theorem after_in1 (c : Dev nD) (t : Fin cfg0.N) : (dat V c).after 1 t = iblk V c 1 t := by dsimp only [dat]
theorem after_in2 (c : Dev nD) (t : Fin cfg0.N) : (dat V c).after 2 t = iblk V c 2 t := by dsimp only [dat]
theorem after_in3 (c : Dev nD) (t : Fin cfg0.N) : (dat V c).after 3 t = iblk V c 3 t := by dsimp only [dat]
theorem after_in4 (c : Dev nD) (t : Fin cfg0.N) : (dat V c).after 4 t = iblk V c 4 t := by dsimp only [dat]
theorem after_in5 (c : Dev nD) (t : Fin cfg0.N) : (dat V c).after 5 t = iblk V c 5 t := by dsimp only [dat]
theorem after_in6 (c : Dev nD) (t : Fin cfg0.N) : (dat V c).after 6 t = iblk V c 6 t := by dsimp only [dat]
theorem after_in7 (c : Dev nD) (t : Fin cfg0.N) : (dat V c).after 7 t = iblk V c 7 t := by dsimp only [dat]
theorem after_in8 (c : Dev nD) (t : Fin cfg0.N) : (dat V c).after 8 t = iblk V c 8 t := by dsimp only [dat]
theorem after9 (c : Dev nD) (t : Fin cfg0.N) : (dat V c).after 9 t = out9At V c t := by dsimp only [dat]
theorem after10 (c : Dev nD) (t : Fin cfg0.N) : (dat V c).after 10 t = out10At V c t := by dsimp only [dat]

theorem before_in0 (c : Dev nD) (t : Fin cfg0.N) (d) : (dat V c).before 0 t d = iblk V c 0 t :=
  before_of0 V (dat V c) (A_eq V c 0) (after_in0 V c) t d
theorem before_in1 (c : Dev nD) (t : Fin cfg0.N) (d) : (dat V c).before 1 t d = iblk V c 1 t :=
  before_of1 V (dat V c) (A_eq V c 1) (after_in1 V c) t d
theorem before_in2 (c : Dev nD) (t : Fin cfg0.N) (d) : (dat V c).before 2 t d = iblk V c 2 t :=
  before_of2 V (dat V c) (A_eq V c 2) (after_in2 V c) t d
theorem before_in3 (c : Dev nD) (t : Fin cfg0.N) (d) : (dat V c).before 3 t d = iblk V c 3 t :=
  before_of3 V (dat V c) (A_eq V c 3) (after_in3 V c) t d
theorem before_in4 (c : Dev nD) (t : Fin cfg0.N) (d) : (dat V c).before 4 t d = iblk V c 4 t :=
  before_of4 V (dat V c) (A_eq V c 4) (after_in4 V c) t d
theorem before_in5 (c : Dev nD) (t : Fin cfg0.N) (d) : (dat V c).before 5 t d = iblk V c 5 t :=
  before_of5 V (dat V c) (A_eq V c 5) (after_in5 V c) t d
theorem before_in6 (c : Dev nD) (t : Fin cfg0.N) (d) : (dat V c).before 6 t d = iblk V c 6 t :=
  before_of6 V (dat V c) (A_eq V c 6) (after_in6 V c) t d
theorem before_in7 (c : Dev nD) (t : Fin cfg0.N) (d) : (dat V c).before 7 t d = iblk V c 7 t :=
  before_of7 V (dat V c) (A_eq V c 7) (after_in7 V c) t d
theorem before_in8 (c : Dev nD) (t : Fin cfg0.N) (d) : (dat V c).before 8 t d = iblk V c 8 t :=
  before_of8 V (dat V c) (A_eq V c 8) (after_in8 V c) t d

/-! ## The body obligation, at a generic point -/

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d))
    ∗ (∃ d, owns (c : Thread nD τ) (ms8 t) fullShare ((dat V c).before 8 t d))
    ∗ (∃ d, owns (c : Thread nD τ) (ms9 t) fullShare ((dat V c).before 9 t d))
    ∗ (∃ d, owns (c : Thread nD τ) (ms10 t) fullShare ((dat V c).before 10 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t)

theorem leaves_in0 (c : Dev nD) (t : Fin cfg0.N) : (dat V c).leavesExact 0 t = owns (c : Thread nD τ) (ms0 t) fullShare (iblk V c 0 t) := by
  unfold Dat.leavesExact; rw [live0 t, after_in0]
theorem leaves_in1 (c : Dev nD) (t : Fin cfg0.N) : (dat V c).leavesExact 1 t = owns (c : Thread nD τ) (ms1 t) fullShare (iblk V c 1 t) := by
  unfold Dat.leavesExact; rw [live1 t, after_in1]
theorem leaves_in2 (c : Dev nD) (t : Fin cfg0.N) : (dat V c).leavesExact 2 t = owns (c : Thread nD τ) (ms2 t) fullShare (iblk V c 2 t) := by
  unfold Dat.leavesExact; rw [live2 t, after_in2]
theorem leaves_in3 (c : Dev nD) (t : Fin cfg0.N) : (dat V c).leavesExact 3 t = owns (c : Thread nD τ) (ms3 t) fullShare (iblk V c 3 t) := by
  unfold Dat.leavesExact; rw [live3 t, after_in3]
theorem leaves_in4 (c : Dev nD) (t : Fin cfg0.N) : (dat V c).leavesExact 4 t = owns (c : Thread nD τ) (ms4 t) fullShare (iblk V c 4 t) := by
  unfold Dat.leavesExact; rw [live4 t, after_in4]
theorem leaves_in5 (c : Dev nD) (t : Fin cfg0.N) : (dat V c).leavesExact 5 t = owns (c : Thread nD τ) (ms5 t) fullShare (iblk V c 5 t) := by
  unfold Dat.leavesExact; rw [live5 t, after_in5]
theorem leaves_in6 (c : Dev nD) (t : Fin cfg0.N) : (dat V c).leavesExact 6 t = owns (c : Thread nD τ) (ms6 t) fullShare (iblk V c 6 t) := by
  unfold Dat.leavesExact; rw [live6 t, after_in6]
theorem leaves_in7 (c : Dev nD) (t : Fin cfg0.N) : (dat V c).leavesExact 7 t = owns (c : Thread nD τ) (ms7 t) fullShare (iblk V c 7 t) := by
  unfold Dat.leavesExact; rw [live7 t, after_in7]
theorem leaves_in8 (c : Dev nD) (t : Fin cfg0.N) : (dat V c).leavesExact 8 t = owns (c : Thread nD τ) (ms8 t) fullShare (iblk V c 8 t) := by
  unfold Dat.leavesExact; rw [live8 t, after_in8]

set_option maxHeartbeats 4800000 in
/-- The body at any point. The inputs' memrefs hold their blocks; k = t mod 8 says which case the point is in; the
    invariant hands the body the accumulator at what the point before left (at anything when k = 0) and takes it back
    at this point's contents; away from k = 7 the outputs' buffers pass through untouched; the core owes nothing. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_in0, before_in1, before_in2, before_in3, before_in4, before_in5, before_in6, before_in7, before_in8]
  rw [show (dat V c).owesAt () t.succ = (dat V c).owesAt () t.castSucc from rfl]
  rw [show (dat V c).Φ t.succ = PhiS V c (t.val + 1) t.isLt from rfl, PhiS_succ]
  rw [leaves_in0, leaves_in1, leaves_in2, leaves_in3, leaves_in4, leaves_in5, leaves_in6, leaves_in7, leaves_in8]
  have hN : t.val < 64 := lt_of_lt_of_eq t.isLt (show cfg0.N = 64 from N_0)
  by_cases h0 : t.val % 8 = 0
  · have h7 : ¬t.val % 8 = 7 := by omega
    rw [Dat.leavesExact_idle (dat V c) 9 t (idle9 t (fun h => h7 ((hcond2 t).mp h))) (noFlush9 t (fun h => h7 ((hcond2 t).mp h))),
      Dat.leavesExact_idle (dat V c) 10 t (idle10 t (fun h => h7 ((hcond2 t).mp h))) (noFlush10 t (fun h => h7 ((hcond2 t).mp h)))]
    rw [accAt_A V c t h0 h7]
    unfold soutA; (try dsimp only)
    by_cases hz : t.val = 0
    · rw [PhiS_castSucc V c t, PhiS_zero V c _ _ hz, PhiA_eq]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10⟩
      iapply ((runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scM (Memref.isWhole_whole _) ((hcond1 t).mpr h0) (fun h => h7 ((hcond2 t).mp h)) (iblk V c 0 t) (iblk V c 1 t)).2 Set.univ _)
      isplitl [H0]; · iexact H0
      isplitl [H1]; · iexact H1
      isplitl [HS]; · iexact HS
      iintro ⟨H0, H1, ⟨%es, HS⟩⟩
      isplitl [HS HR Hg]
      · isplitl [HS HR]
        · isplitl [HS]
          · unfold owns; iexists _; isplitr
            swap; · iexact HS
            ipureintro; exact View.read_writes_of_cover _ _ _ _ _ (scoverA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scM (Memref.isWhole_whole _) ((hcond1 t).mpr h0) (fun h => h7 ((hcond2 t).mp h)) (iblk V c 0 t) (iblk V c 1 t))
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10⟩
      iapply ((runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scM (Memref.isWhole_whole _) ((hcond1 t).mpr h0) (fun h => h7 ((hcond2 t).mp h)) (iblk V c 0 t) (iblk V c 1 t)).2 Set.univ _)
      isplitl [H0]; · iexact H0
      isplitl [H1]; · iexact H1
      isplitl [HS]; · iexists _; iexact HS
      iintro ⟨H0, H1, ⟨%es, HS⟩⟩
      isplitl [HS HR Hg]
      · isplitl [HS HR]
        · isplitl [HS]
          · unfold owns; iexists _; isplitr
            swap; · iexact HS
            ipureintro; exact View.read_writes_of_cover _ _ _ _ _ (scoverA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scM (Memref.isWhole_whole _) ((hcond1 t).mpr h0) (fun h => h7 ((hcond2 t).mp h)) (iblk V c 0 t) (iblk V c 1 t))
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
  · have hz : t.val ≠ 0 := fun e => h0 (by rw [e])
    by_cases h7 : t.val % 8 = 7
    · rw [show (dat V c).leavesExact 9 t = owns (c : Thread nD τ) (ms9 t) fullShare ((dat V c).after 9 t) from by
          unfold Dat.leavesExact; rw [live9 t ((hcond2 t).mpr h7)], after9,
        show (dat V c).leavesExact 10 t = owns (c : Thread nD τ) (ms10 t) fullShare ((dat V c).after 10 t) from by
          unfold Dat.leavesExact; rw [live10 t ((hcond2 t).mpr h7)], after10]
      rw [out9At_C V c t h0 h7, out10At_C V c t h0 h7, accAt_C V c t h0 h7]
      unfold out9C out10C soutC; (try dsimp only)
      rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scM (Memref.isWhole_whole _) (fun h => h0 ((hcond1 t).mp h)) ((hcond2 t).mpr h7) (iblk V c 0 t) (iblk V c 1 t) (iblk V c 2 t) (iblk V c 3 t) (iblk V c 4 t) (iblk V c 5 t) (iblk V c 6 t) (iblk V c 7 t) (iblk V c 8 t) (accAt V c (t.val - 1) (Nat.lt_of_le_of_lt (Nat.sub_le _ _) t.isLt))).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [HS]; · iexact HS
      iintro ⟨H0, H1, H2, H3, H4, H5, H6, H7, H8, ⟨%e9, H9⟩, ⟨%e10, H10⟩, ⟨%es, HS⟩⟩
      isplitl [HS HR Hg]
      · isplitl [HS HR]
        · isplitl [HS]
          · unfold owns; iexists _; isplitr
            swap; · iexact HS
            ipureintro; exact View.read_writes_of_cover _ _ _ _ _ (scoverC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scM (Memref.isWhole_whole _) (fun h => h0 ((hcond1 t).mp h)) ((hcond2 t).mpr h7) (iblk V c 0 t) (iblk V c 1 t) (iblk V c 2 t) (iblk V c 3 t) (iblk V c 4 t) (iblk V c 5 t) (iblk V c 6 t) (iblk V c 7 t) (iblk V c 8 t) (accAt V c (t.val - 1) (Nat.lt_of_le_of_lt (Nat.sub_le _ _) t.isLt)))
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover9C c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scM (Memref.isWhole_whole _) (fun h => h0 ((hcond1 t).mp h)) ((hcond2 t).mpr h7) (iblk V c 0 t) (iblk V c 1 t) (iblk V c 2 t) (iblk V c 3 t) (iblk V c 4 t) (iblk V c 5 t) (iblk V c 6 t) (iblk V c 7 t) (iblk V c 8 t) (accAt V c (t.val - 1) (Nat.lt_of_le_of_lt (Nat.sub_le _ _) t.isLt)))
      unfold owns; iexists _; isplitr
      swap; · iexact H10
      ipureintro; exact View.read_writes_of_cover _ _ _ _ _ (cover10C c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scM (Memref.isWhole_whole _) (fun h => h0 ((hcond1 t).mp h)) ((hcond2 t).mpr h7) (iblk V c 0 t) (iblk V c 1 t) (iblk V c 2 t) (iblk V c 3 t) (iblk V c 4 t) (iblk V c 5 t) (iblk V c 6 t) (iblk V c 7 t) (iblk V c 8 t) (accAt V c (t.val - 1) (Nat.lt_of_le_of_lt (Nat.sub_le _ _) t.isLt)))
    · rw [Dat.leavesExact_idle (dat V c) 9 t (idle9 t (fun h => h7 ((hcond2 t).mp h))) (noFlush9 t (fun h => h7 ((hcond2 t).mp h))),
        Dat.leavesExact_idle (dat V c) 10 t (idle10 t (fun h => h7 ((hcond2 t).mp h))) (noFlush10 t (fun h => h7 ((hcond2 t).mp h)))]
      rw [accAt_B V c t h0 h7]
      unfold soutB; (try dsimp only)
      rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10⟩
      iapply ((runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scM (Memref.isWhole_whole _) (fun h => h0 ((hcond1 t).mp h)) (fun h => h7 ((hcond2 t).mp h)) (iblk V c 0 t) (iblk V c 1 t) (accAt V c (t.val - 1) (Nat.lt_of_le_of_lt (Nat.sub_le _ _) t.isLt))).2 Set.univ _)
      isplitl [H0]; · iexact H0
      isplitl [H1]; · iexact H1
      isplitl [HS]; · iexact HS
      iintro ⟨H0, H1, ⟨%es, HS⟩⟩
      isplitl [HS HR Hg]
      · isplitl [HS HR]
        · isplitl [HS]
          · unfold owns; iexists _; isplitr
            swap; · iexact HS
            ipureintro; exact View.read_writes_of_cover _ _ _ _ _ (scoverB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scM (Memref.isWhole_whole _) (fun h => h0 ((hcond1 t).mp h)) (fun h => h7 ((hcond2 t).mp h)) (iblk V c 0 t) (iblk V c 1 t) (accAt V c (t.val - 1) (Nat.lt_of_le_of_lt (Nat.sub_le _ _) t.isLt)))
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives the class's back: the accumulator's contents are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨⟨HS, HR⟩, Hg⟩
  isplitl [HS HR]
  · isplitl [HS]
    · iexists _; iexact HS
    iexact HR
  iexact Hg

/-- The same after the last point. -/
theorem hout (c : Dev nD) : (dat V c).Φ (Fin.last cfg0.N) ⊢ Pipeline.ΦA spec0 c :=
  Phi_out V c _ (by rw [Fin.val_last]; have : cfg0.N = 64 := N_0; omega)

end Cert.ReferenceIdeal.L1

end
-- ==== Proof.RefL1Read.lean ====
import proofs.«173193_g2000702591456375_pallasbulk_739_11_alg».proof.Proof.RefL1Frame
import Idealize.ShloMosaic.Lib.Pipeline.Value

set_option maxRecDepth 16384

noncomputable section

namespace Cert.ReferenceIdeal.L1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

/-! # Layer 1 of the reference: what was found, read back as the payload terms -/

theorem hz2 : (![0, 0] : Fin 2 → Nat) = fun _ => 0 := funext fun a => by fin_cases a <;> rfl

/-- The rows 512 k … 512 k + 511 of the feature array: the rectangle of the body's dynamic load. -/
abbrev rk (i : grid0.Coords) : Rect S4096x128 := Rect.unit (s := S4096x128) (k0_off1 i) S512x128.size (k0_off1_inb i)
/-- The point's own rows 512 i … 512 i + 511: the rectangle of the epilogue's dynamic load. -/
abbrev ri (i : grid0.Coords) (h : k0_cond2 i = 1#1) : Rect S4096x128 := Rect.unit (s := S4096x128) (k0_off2 i) S512x128.size (k0_off2_inb i h)

/-! ## Per case, on any memrefs -/

/-- At k = 0 the accumulator ends at the first partial product added onto zeros. -/
theorem soutA_eq (c : Dev nD) (i : grid0.Coords) (arg2 : Memref sig .tc .vmem S512x512 .bf16) (harg2 : arg2.IsWhole) (arg3 : Memref sig .tc .vmem S4096x128 .f32) (harg3 : arg3.IsWhole) (arg4 : Memref sig .tc .vmem S512x1 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S1x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (hc1 : cond1 i) (hc2 : ¬cond2 i) (x0 : Vec F S512x512 .bf16) (x1 : Vec F S4096x128 .f32) :
    soutA c i arg2 harg2 arg3 harg3 arg4 harg4 arg5 harg5 arg6 harg6 arg7 harg7 arg8 harg8 arg9 harg9 arg10 harg10 arg11 harg11 arg12 harg12 arg13 harg13 hc1 hc2 x0 x1 = k0_pay2 (View.ld x1 (rk i)) k0_pay1 x0 := by
  unfold soutA
  rw [View.read_writes_eq_canon _ _ _ (scoverA c i arg2 harg2 arg3 harg3 arg4 harg4 arg5 harg5 arg6 harg6 arg7 harg7 arg8 harg8 arg9 harg9 arg10 harg10 arg11 harg11 arg12 harg12 arg13 harg13 hc1 hc2 x0 x1)]
  unfold runA
  dsimp only
  sl_unfold_run_names
  rw [View.canon_cons_unit_zero hz2, View.readCov_unit_zero _ hz2]
  simp only [View.readAt_eq_ld, harg2.read_unread, harg3.read_unread, View.ld_unit_zero (S := S512x512) hz2]

/-- At 0 < k < 7 it ends at the k-th partial product added onto what it held. -/
theorem soutB_eq (c : Dev nD) (i : grid0.Coords) (arg2 : Memref sig .tc .vmem S512x512 .bf16) (harg2 : arg2.IsWhole) (arg3 : Memref sig .tc .vmem S4096x128 .f32) (harg3 : arg3.IsWhole) (arg4 : Memref sig .tc .vmem S512x1 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S1x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (hc1 : ¬cond1 i) (hc2 : ¬cond2 i) (x0 : Vec F S512x512 .bf16) (x1 : Vec F S4096x128 .f32) (xs : Vec F S512x128 .f32) :
    soutB c i arg2 harg2 arg3 harg3 arg4 harg4 arg5 harg5 arg6 harg6 arg7 harg7 arg8 harg8 arg9 harg9 arg10 harg10 arg11 harg11 arg12 harg12 arg13 harg13 hc1 hc2 x0 x1 xs = k0_pay2 (View.ld x1 (rk i)) xs x0 := by
  unfold soutB
  rw [View.read_writes_eq_canon _ _ _ (scoverB c i arg2 harg2 arg3 harg3 arg4 harg4 arg5 harg5 arg6 harg6 arg7 harg7 arg8 harg8 arg9 harg9 arg10 harg10 arg11 harg11 arg12 harg12 arg13 harg13 hc1 hc2 x0 x1 xs)]
  unfold runB
  dsimp only
  try sl_unfold_run_names
  rw [View.canon_unit_zero hz2]
  simp only [View.readAt_eq_ld, harg2.read_unread, harg3.read_unread, harg13.read_unread, View.ld_unit_zero (S := S512x512) hz2, View.ld_unit_zero (S := S512x128) hz2]

/-- At k = 7 likewise. -/
theorem soutC_eq (c : Dev nD) (i : grid0.Coords) (arg2 : Memref sig .tc .vmem S512x512 .bf16) (harg2 : arg2.IsWhole) (arg3 : Memref sig .tc .vmem S4096x128 .f32) (harg3 : arg3.IsWhole) (arg4 : Memref sig .tc .vmem S512x1 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S1x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (hc1 : ¬cond1 i) (hc2 : cond2 i) (x0 : Vec F S512x512 .bf16) (x1 : Vec F S4096x128 .f32) (x2 : Vec F S512x1 .f32) (x3 : Vec F S128x256 .f32) (x4 : Vec F S128x256 .f32) (x5 : Vec F S1x256 .f32) (x6 : Vec F S256x128 .f32) (x7 : Vec F S256x128 .f32) (x8 : Vec F S1x128 .f32) (xs : Vec F S512x128 .f32) :
    soutC c i arg2 harg2 arg3 harg3 arg4 harg4 arg5 harg5 arg6 harg6 arg7 harg7 arg8 harg8 arg9 harg9 arg10 harg10 arg11 harg11 arg12 harg12 arg13 harg13 hc1 hc2 x0 x1 x2 x3 x4 x5 x6 x7 x8 xs = k0_pay2 (View.ld x1 (rk i)) xs x0 := by
  unfold soutC
  rw [View.read_writes_eq_canon _ _ _ (scoverC c i arg2 harg2 arg3 harg3 arg4 harg4 arg5 harg5 arg6 harg6 arg7 harg7 arg8 harg8 arg9 harg9 arg10 harg10 arg11 harg11 arg12 harg12 arg13 harg13 hc1 hc2 x0 x1 x2 x3 x4 x5 x6 x7 x8 xs)]
  unfold runC
  dsimp only
  try sl_unfold_run_names
  rw [View.canon_unit_zero hz2]
  simp only [View.readAt_eq_ld, harg2.read_unread, harg3.read_unread, harg13.read_unread, View.ld_unit_zero (S := S512x512) hz2, View.ld_unit_zero (S := S512x128) hz2]

/-- At k = 7 the first output's buffer ends at the second layer's left product of the normalised hidden tile. -/
theorem out9C_eq (c : Dev nD) (i : grid0.Coords) (arg2 : Memref sig .tc .vmem S512x512 .bf16) (harg2 : arg2.IsWhole) (arg3 : Memref sig .tc .vmem S4096x128 .f32) (harg3 : arg3.IsWhole) (arg4 : Memref sig .tc .vmem S512x1 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S1x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (hc1 : ¬cond1 i) (hc2 : cond2 i) (x0 : Vec F S512x512 .bf16) (x1 : Vec F S4096x128 .f32) (x2 : Vec F S512x1 .f32) (x3 : Vec F S128x256 .f32) (x4 : Vec F S128x256 .f32) (x5 : Vec F S1x256 .f32) (x6 : Vec F S256x128 .f32) (x7 : Vec F S256x128 .f32) (x8 : Vec F S1x128 .f32) (xs : Vec F S512x128 .f32) :
    out9C c i arg2 harg2 arg3 harg3 arg4 harg4 arg5 harg5 arg6 harg6 arg7 harg7 arg8 harg8 arg9 harg9 arg10 harg10 arg11 harg11 arg12 harg12 arg13 harg13 hc1 hc2 x0 x1 x2 x3 x4 x5 x6 x7 x8 xs = k0_pay5 (k0_pay2 (View.ld x1 (rk i)) xs x0) x2 (View.ld x1 (ri i hc2)) x3 x4 x5 x6 := by
  unfold out9C
  rw [View.read_writes_eq_canon _ _ _ (cover9C c i arg2 harg2 arg3 harg3 arg4 harg4 arg5 harg5 arg6 harg6 arg7 harg7 arg8 harg8 arg9 harg9 arg10 harg10 arg11 harg11 arg12 harg12 arg13 harg13 hc1 hc2 x0 x1 x2 x3 x4 x5 x6 x7 x8 xs)]
  unfold runC
  dsimp only
  try sl_unfold_run_names
  rw [View.canon_unit_zero hz2, View.readCov_unit_zero _ hz2]
  simp only [View.readAt_eq_ld, harg2.read_unread, harg3.read_unread, harg4.read_unread, harg5.read_unread, harg6.read_unread, harg7.read_unread, harg8.read_unread, harg13.read_unread, View.ld_unit_zero (S := S512x512) hz2, View.ld_unit_zero (S := S512x128) hz2, View.ld_unit_zero (S := S512x1) hz2, View.ld_unit_zero (S := S128x256) hz2, View.ld_unit_zero (S := S1x256) hz2, View.ld_unit_zero (S := S256x128) hz2]

/-- and the second output's at the right product plus bias. -/
theorem out10C_eq (c : Dev nD) (i : grid0.Coords) (arg2 : Memref sig .tc .vmem S512x512 .bf16) (harg2 : arg2.IsWhole) (arg3 : Memref sig .tc .vmem S4096x128 .f32) (harg3 : arg3.IsWhole) (arg4 : Memref sig .tc .vmem S512x1 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S1x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (hc1 : ¬cond1 i) (hc2 : cond2 i) (x0 : Vec F S512x512 .bf16) (x1 : Vec F S4096x128 .f32) (x2 : Vec F S512x1 .f32) (x3 : Vec F S128x256 .f32) (x4 : Vec F S128x256 .f32) (x5 : Vec F S1x256 .f32) (x6 : Vec F S256x128 .f32) (x7 : Vec F S256x128 .f32) (x8 : Vec F S1x128 .f32) (xs : Vec F S512x128 .f32) :
    out10C c i arg2 harg2 arg3 harg3 arg4 harg4 arg5 harg5 arg6 harg6 arg7 harg7 arg8 harg8 arg9 harg9 arg10 harg10 arg11 harg11 arg12 harg12 arg13 harg13 hc1 hc2 x0 x1 x2 x3 x4 x5 x6 x7 x8 xs = k0_pay3 (k0_pay4 (k0_pay2 (View.ld x1 (rk i)) xs x0) x2 (View.ld x1 (ri i hc2)) x3 x4 x5) x7 x8 := by
  unfold out10C
  rw [View.read_writes_eq_canon _ _ _ (cover10C c i arg2 harg2 arg3 harg3 arg4 harg4 arg5 harg5 arg6 harg6 arg7 harg7 arg8 harg8 arg9 harg9 arg10 harg10 arg11 harg11 arg12 harg12 arg13 harg13 hc1 hc2 x0 x1 x2 x3 x4 x5 x6 x7 x8 xs)]
  unfold runC
  dsimp only
  try sl_unfold_run_names
  rw [View.canon_unit_zero hz2, View.readCov_unit_zero _ hz2]
  simp only [View.readAt_eq_ld, harg2.read_unread, harg3.read_unread, harg4.read_unread, harg5.read_unread, harg6.read_unread, harg7.read_unread, harg9.read_unread, harg10.read_unread, harg13.read_unread, View.ld_unit_zero (S := S512x512) hz2, View.ld_unit_zero (S := S512x128) hz2, View.ld_unit_zero (S := S512x1) hz2, View.ld_unit_zero (S := S128x256) hz2, View.ld_unit_zero (S := S1x256) hz2, View.ld_unit_zero (S := S256x128) hz2, View.ld_unit_zero (S := S1x128) hz2]

/-! ## At the points of the grid, over the entry contents `V` -/

variable (V : (c : Dev nD) → (b : Ref sig .tc) → Buf (Elt F) ((c : Thread nD τ).loc b))

/-- The 512-row tile of the feature array the body loads at point `t`: rows 512 k … 512 k + 511. -/
def xk (c : Dev nD) (t : Fin cfg0.N) : Vec F S512x128 .f32 :=
  View.ld (iblk V c 1 t : Vec F S4096x128 .f32) (rk (grid0.coords t))

/-- The row tile of the feature array the epilogue loads at a point with k = 7: the point's own rows. -/
def xi (c : Dev nD) (t : Fin cfg0.N) (h : k0_cond2 (grid0.coords t) = 1#1) : Vec F S512x128 .f32 :=
  View.ld (iblk V c 1 t : Vec F S4096x128 .f32) (ri (grid0.coords t) h)

/-- At k = 0 the accumulator restarts: the first partial product onto zeros. -/
theorem accAt_first (c : Dev nD) (t : Fin cfg0.N) (h : t.val % 8 = 0) :
    accAt V c t.val t.isLt = k0_pay2 (xk V c t) k0_pay1 (iblk V c 0 t) := by
  rw [accAt_A V c t h (by omega), soutA_eq]; rfl

/-- At k > 0 one more partial product onto what the point before left. -/
theorem accAt_next (c : Dev nD) (t : Fin cfg0.N) (h : t.val % 8 ≠ 0) :
    accAt V c t.val t.isLt = k0_pay2 (xk V c t) (accAt V c (t.val - 1) (by omega)) (iblk V c 0 t) := by
  by_cases h7 : t.val % 8 = 7
  · rw [accAt_C V c t h h7, soutC_eq]; rfl
  · rw [accAt_B V c t h h7, soutB_eq]; rfl

/-- After a point with k = 7 the first output's buffer holds the left output product of the tile's hidden layer. -/
theorem after9_last (c : Dev nD) (t : Fin cfg0.N) (h7 : t.val % 8 = 7) (h : k0_cond2 (grid0.coords t) = 1#1) :
    (dat V c).after 9 t = k0_pay5 (accAt V c t.val t.isLt) (iblk V c 2 t) (xi V c t h) (iblk V c 3 t) (iblk V c 4 t) (iblk V c 5 t) (iblk V c 6 t) := by
  rw [after9, out9At_C V c t (by omega) h7, out9C_eq, accAt_next V c t (by omega)]; rfl

/-- After a point with k = 7 the second output's buffer holds the right output product plus bias. -/
theorem after10_last (c : Dev nD) (t : Fin cfg0.N) (h7 : t.val % 8 = 7) (h : k0_cond2 (grid0.coords t) = 1#1) :
    (dat V c).after 10 t = k0_pay3 (k0_pay4 (accAt V c t.val t.isLt) (iblk V c 2 t) (xi V c t h) (iblk V c 3 t) (iblk V c 4 t) (iblk V c 5 t)) (iblk V c 7 t) (iblk V c 8 t) := by
  rw [after10, out10At_C V c t (by omega) h7, out10C_eq, accAt_next V c t (by omega)]; rfl

end Cert.ReferenceIdeal.L1

end
-- ==== Proof.LibPlainMatmul.lean ====
/-
  A plain matrix product read at an entry. For an M×K left operand and a K×N right operand contracted over the one
  shared axis (left axis 1 against right axis 0, no batch axis), the exact product into a zero accumulator has, at row r
  and column c, the value  Σ_k lhs(r, k) · rhs(k, c): the operand indices at output index (r, c) and contraction position
  k are (r, k) and (k, c).
-/
import Idealize.ShloMosaic.PureOps.Ideal.Laws
import Idealize.ShloMosaic.Lib.ValueIdx

noncomputable section

namespace PlainMatmul

open Idealize.ShloMosaic Idealize.ShloMosaic.ValueIdx

variable {M K N : ℕ}

/-- The left operand's row is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The product into the zero accumulator, at (r, c), is Σ_k lhs(r, k) · rhs(k, c). -/
theorem apply_zero {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end PlainMatmul

end
-- ==== Proof.LibBlockSums.lean ====
/-
  Finite sums regrouped into blocks. A sum over the m·n indices 0, …, m·n − 1 is the sum over the m blocks of n
  consecutive indices of the sums inside each block: index i·n + j is entry j of block i. Nothing is asked of the
  summands beyond commutative addition, so the regrouping holds on the extended reals without any finiteness.
-/
import Mathlib.Algebra.BigOperators.Fin
import Mathlib.Logic.Equiv.Fin.Basic

noncomputable section

namespace BlockSums

open Finset

/-- A sum over Fin N, N = m·n, regrouped into m blocks of n: g i j is any naming of index i·n + j. -/
theorem sum_blocks {M : Type*} [AddCommMonoid M] {m n N : ℕ} (hN : N = m * n) (g : Fin m → Fin n → Fin N)
    (hg : ∀ i j, (g i j).val = i.val * n + j.val) (f : Fin N → M) :
    ∑ r, f r = ∑ i : Fin m, ∑ j : Fin n, f (g i j) := by
  subst hN
  have hp : ∀ p : Fin m × Fin n, g p.1 p.2 = finProdFinEquiv p := fun p =>
    Fin.ext (by rw [hg, finProdFinEquiv_apply_val, Nat.mul_comm, Nat.add_comm])
  calc ∑ r, f r = ∑ p : Fin m × Fin n, f (finProdFinEquiv p) := (Equiv.sum_comp finProdFinEquiv f).symm
    _ = ∑ p : Fin m × Fin n, f (g p.1 p.2) := by simp only [hp]
    _ = ∑ i : Fin m, ∑ j : Fin n, f (g i j) := Fintype.sum_prod_type _

end BlockSums

end
-- ==== Proof.FoldMatmul.lean ====
/-
  A matrix product accumulated block by block along the contracted axis is the whole product.

  For a 512×4096 left operand B and a 4096×128 right operand Z, cut the contracted axis into eight blocks of 512:
  B_k holds columns 512k … 512k+511 of B and Z_k rows 512k … 512k+511 of Z. Starting from zero and adding the
  products B_k · Z_k one after the other gives, entry by entry, Σ_k Σ_j B(r, 512k+j) · Z(512k+j, c), which is the sum
  over all 4096 positions regrouped into blocks: the whole product B · Z. On the extended reals addition is
  commutative and associative (with 0 neutral), which is all the regrouping uses: no finiteness is needed.
-/
import proofs.«173193_g2000702591456375_pallasbulk_739_11_alg».proof.Proof.LibPlainMatmul
import proofs.«173193_g2000702591456375_pallasbulk_739_11_alg».proof.Proof.LibBlockSums

noncomputable section

namespace Cert.Sage.Fold

open Idealize.ShloMosaic Idealize.ShloMosaic.ValueIdx

/-- A running total that starts at `0 + S 0` and adds `S (k+1)` at step `k+1` is, after eight steps, the sum of the eight terms. -/
theorem running_total (a S : ℕ → EReal) (h0 : a 0 = 0 + S 0) (hs : ∀ k, k + 1 < 8 → a (k + 1) = a k + S (k + 1)) :
    a 7 = ∑ k : Fin 8, S k.val := by
  rw [hs 6 (by decide), hs 5 (by decide), hs 4 (by decide), hs 3 (by decide), hs 2 (by decide), hs 1 (by decide), hs 0 (by decide), h0,
    Fin.sum_univ_eight, zero_add]
  rfl

theorem blk_lt (k : Fin 8) (j : Fin 512) : 512 * k.val + j.val < 4096 := by have := k.isLt; have := j.isLt; omega

/-- Position `j` of block `k` among the 4096 contracted positions. -/
abbrev pos (k : Fin 8) (j : Fin 512) : Fin 4096 := ⟨512 * k.val + j.val, blk_lt k j⟩

/-- One accumulation step: the accumulator plus the product of one block pair, into a zero accumulator. -/
def step (x : FVec Ideal ⟨2, ![512, 128]⟩ .f32) (acc : FVec Ideal ⟨2, ![512, 128]⟩ .f32) (b : FVec Ideal ⟨2, ![512, 512]⟩ .bf16) :
    FVec Ideal ⟨2, ![512, 128]⟩ .f32 :=
  addf acc (FloatOps.matmul (DotDims.plain 512 512 128) none b x (constant (F := Ideal) ⟨2, ![512, 128]⟩ .f32 0x00000000#32))

theorem step_apply (x acc : FVec Ideal ⟨2, ![512, 128]⟩ .f32) (b : FVec Ideal ⟨2, ![512, 512]⟩ .bf16) (r : Fin 512) (c : Fin 128) :
    step x acc b (ix2 r c) = acc (ix2 r c) + ∑ j : Fin 512, b (ix2 r j) * x (ix2 j c) := by
  unfold step
  rw [addf_apply, PlainMatmul.apply_zero]

/-- The accumulation over the eight blocks is the whole product. -/
theorem acc_eq_product (B : FVec Ideal ⟨2, ![512, 4096]⟩ .bf16) (Z : FVec Ideal ⟨2, ![4096, 128]⟩ .f32)
    (Bk : Fin 8 → FVec Ideal ⟨2, ![512, 512]⟩ .bf16) (Zk : Fin 8 → FVec Ideal ⟨2, ![512, 128]⟩ .f32)
    (hB : ∀ k r j, Bk k (ix2 r j) = B (ix2 r (pos k j))) (hZ : ∀ k j c, Zk k (ix2 j c) = Z (ix2 (pos k j) c))
    (zero : FVec Ideal ⟨2, ![512, 128]⟩ .f32) (hzero : ∀ i, zero i = 0)
    (acc : ℕ → FVec Ideal ⟨2, ![512, 128]⟩ .f32)
    (h0 : acc 0 = step (Zk 0) zero (Bk 0))
    (hs : ∀ k (h : k + 1 < 8), acc (k + 1) = step (Zk ⟨k + 1, h⟩) (acc k) (Bk ⟨k + 1, h⟩)) :
    acc 7 = FloatOps.matmul (DotDims.plain 512 4096 128) none B Z (constant (F := Ideal) ⟨2, ![512, 128]⟩ .f32 0x00000000#32) := by
  funext i
  obtain ⟨r, c, rfl⟩ : ∃ (r : Fin 512) (c : Fin 128), i = ix2 r c := ⟨i 0, i 1, eq_ix2 i⟩
  rw [PlainMatmul.apply_zero]
  let S : ℕ → EReal := fun k => if h : k < 8 then ∑ j : Fin 512, B (ix2 r (pos ⟨k, h⟩ j)) * Z (ix2 (pos ⟨k, h⟩ j) c) else 0
  have hS : ∀ (k : Fin 8), (∑ j : Fin 512, Bk k (ix2 r j) * Zk k (ix2 j c)) = S k.val := fun k => by
    simp only [S, dif_pos k.isLt, hB, hZ]
  have key := running_total (fun k => acc k (ix2 r c)) S
    (by show acc 0 (ix2 r c) = 0 + S 0
        rw [h0, step_apply, hzero, hS 0]; rfl)
    (fun k h => by
      show acc (k + 1) (ix2 r c) = acc k (ix2 r c) + S (k + 1)
      rw [hs k h, step_apply, hS ⟨k + 1, h⟩])
  rw [show acc 7 (ix2 r c) = ∑ k : Fin 8, S k.val from key]
  rw [BlockSums.sum_blocks (m := 8) (n := 512) (N := 4096) rfl pos (fun k j => by show 512 * k.val + j.val = k.val * 512 + j.val; omega)
    (fun n => B (ix2 r n) * Z (ix2 n c))]
  exact Finset.sum_congr rfl fun k _ => by simp only [S, dif_pos k.isLt]

end Cert.Sage.Fold

end
-- ==== Proof.BridgeTiles.lean ====
/-
  The two programs' row-tile terms are one function. The second program's epilogue takes the accumulated product
  B_i · X as a value; the first program computes it in place as one product. Once the accumulated value is that product,
  the remaining operations are the same sequence on both sides — a change of float format and a cast of a shape to
  itself are the identity at the exact values — so the tile terms are equal as functions.
-/
import proofs.«173193_g2000702591456375_pallasbulk_739_11_alg».proof.Proof.Gen.KernelIdeal.Skeleton
import proofs.«173193_g2000702591456375_pallasbulk_739_11_alg».proof.Proof.Gen.ReferenceIdeal.Skeleton
import proofs.«173193_g2000702591456375_pallasbulk_739_11_alg».proof.Proof.FoldMatmul
import Idealize.ShloMosaic.Lib.Pipeline.Value

noncomputable section

namespace Cert.Sage.Bridge

open Idealize.ShloMosaic Idealize.ShloMosaic.ValueIdx

variable [Cert.KernelIdeal.Facts] [Cert.ReferenceIdeal.Facts]

abbrev T512x4096 := (⟨2, ![512, 4096]⟩ : Shape).Idx → EReal
abbrev T4096x128 := (⟨2, ![4096, 128]⟩ : Shape).Idx → EReal
abbrev T512x512 := (⟨2, ![512, 512]⟩ : Shape).Idx → EReal
abbrev T512x128 := (⟨2, ![512, 128]⟩ : Shape).Idx → EReal
abbrev T512x1 := (⟨2, ![512, 1]⟩ : Shape).Idx → EReal
abbrev T128x256 := (⟨2, ![128, 256]⟩ : Shape).Idx → EReal
abbrev T1x256 := (⟨2, ![1, 256]⟩ : Shape).Idx → EReal
abbrev T256x128 := (⟨2, ![256, 128]⟩ : Shape).Idx → EReal
abbrev T1x128 := (⟨2, ![1, 128]⟩ : Shape).Idx → EReal

/-- The whole product `B_i · X` into a zero accumulator. -/
abbrev product (B : T512x4096) (X : T4096x128) : T512x128 :=
  FloatOps.matmul (F := Ideal) (φ₁ := .bf16) (φ₂ := .f32) (DotDims.plain 512 4096 128) none B X (constant (F := Ideal) ⟨2, ![512, 128]⟩ .f32 0x00000000#32)

/-- Both programs' accumulation steps (layer 1 and layer 2 of the second program) are the plain step. -/
theorem step_l1 (x acc : T512x128) (b : T512x512) : Cert.ReferenceIdeal.Gen.k0_pay2 (F := Ideal) x acc b = Fold.step x acc b := by
  unfold Cert.ReferenceIdeal.Gen.k0_pay2 Fold.step
  simp only [shapeCast_self]
  rfl
theorem step_l2 (x acc : T512x128) (b : T512x512) : Cert.ReferenceIdeal.Gen.k1_pay2 (F := Ideal) x acc b = Fold.step x acc b := by
  unfold Cert.ReferenceIdeal.Gen.k1_pay2 Fold.step
  simp only [shapeCast_self]
  rfl
/-- The value the scratch is cleared to is zero at every entry. -/
theorem zero_l1 (i : (⟨2, ![512, 128]⟩ : Shape).Idx) : (Cert.ReferenceIdeal.Gen.k0_pay1 (F := Ideal) : T512x128) i = 0 := by
  unfold Cert.ReferenceIdeal.Gen.k0_pay1
  simp only [shapeCast_self]
  exact Ideal.ofBits_zero_f32
theorem zero_l2 (i : (⟨2, ![512, 128]⟩ : Shape).Idx) : (Cert.ReferenceIdeal.Gen.k1_pay1 (F := Ideal) : T512x128) i = 0 := by
  unfold Cert.ReferenceIdeal.Gen.k1_pay1
  simp only [shapeCast_self]
  exact Ideal.ofBits_zero_f32

/-- Layer 1's hidden tile `relu(normalize(…))`: the second program's term at the whole product is the first program's. -/
theorem hidden_tile (B : T512x4096) (X : T4096x128) (d : T512x1) (w1l : T128x256) (xt : T512x128) (w1r : T128x256) (b1 : T1x256) :
    Cert.ReferenceIdeal.Gen.k0_pay4 (F := Ideal) (product B X) d xt w1l w1r b1 = Cert.KernelIdeal.Gen.k0_pay3 (F := Ideal) B X d w1l xt w1r b1 := by
  unfold Cert.ReferenceIdeal.Gen.k0_pay4 Cert.KernelIdeal.Gen.k0_pay3 Cert.KernelIdeal.Gen.k0_pay2
  simp only [shapeCast_self]
  rfl

theorem z2_tile (B : T512x4096) (X : T4096x128) (d : T512x1) (w1l : T128x256) (xt : T512x128) (w1r : T128x256) (b1 : T1x256) (w2l : T256x128) :
    Cert.ReferenceIdeal.Gen.k0_pay5 (F := Ideal) (product B X) d xt w1l w1r b1 w2l = Cert.KernelIdeal.Gen.k0_pay4 (F := Ideal) B X d w1l xt w1r b1 w2l := by
  unfold Cert.ReferenceIdeal.Gen.k0_pay5 Cert.KernelIdeal.Gen.k0_pay4
  rw [hidden_tile]
  simp only [shapeCast_self]
  rfl

theorem s2_tile (B : T512x4096) (X : T4096x128) (d : T512x1) (w1l : T128x256) (xt : T512x128) (w1r : T128x256) (b1 : T1x256) (w2r : T256x128) (b2 : T1x128) :
    Cert.ReferenceIdeal.Gen.k0_pay3 (F := Ideal) (Cert.ReferenceIdeal.Gen.k0_pay4 (F := Ideal) (product B X) d xt w1l w1r b1) w2r b2
      = Cert.KernelIdeal.Gen.k0_pay1 (F := Ideal) (Cert.KernelIdeal.Gen.k0_pay3 (F := Ideal) B X d w1l xt w1r b1) w2r b2 := by
  rw [hidden_tile]
  unfold Cert.ReferenceIdeal.Gen.k0_pay3 Cert.KernelIdeal.Gen.k0_pay1
  simp only [shapeCast_self]
  rfl

/-- Layer 2's output tile: the second program's term at the whole product `B_i · z2` is the first program's. -/
theorem out_tile (B : T512x4096) (Z : T4096x128) (d : T512x1) (s : T512x128) :
    Cert.ReferenceIdeal.Gen.k1_pay3 (F := Ideal) (product B Z) d s = Cert.KernelIdeal.Gen.k1_pay1 (F := Ideal) B Z d s := by
  unfold Cert.ReferenceIdeal.Gen.k1_pay3 Cert.KernelIdeal.Gen.k1_pay1
  simp only [shapeCast_self]
  rfl

end Cert.Sage.Bridge

end
-- ==== Proof.RefL1Value.lean ====
/-
  The second program's layer 1 (its first region), at any entry contents: what its two result arrays hold when the
  region is left. A grid point is a pair (row tile i, block k). The scratch accumulates, over the eight blocks of a row
  tile, the products of B's 512×512 blocks with the matching 512-row tiles of X: after the last block it holds the whole
  product B_i · X. The epilogue's two stores at the last block are then the specification's tiles of z2 and s2, the
  write-backs tile the arrays, and the arrays end at the specification's functions.
-/
import proofs.«173193_g2000702591456375_pallasbulk_739_11_alg».proof.Proof.RefL1Read
import proofs.«173193_g2000702591456375_pallasbulk_739_11_alg».proof.Proof.Spec
import proofs.«173193_g2000702591456375_pallasbulk_739_11_alg».proof.Proof.KerTiles
import proofs.«173193_g2000702591456375_pallasbulk_739_11_alg».proof.Proof.BridgeTiles
import Idealize.ShloMosaic.Lib.Pipeline.Value
import Idealize.ShloMosaic.Lib.Tactic

set_option maxRecDepth 16384

noncomputable section

namespace Cert.ReferenceIdeal.L1

open Idealize.ShloMosaic Idealize.ShloMosaic.TcCoe Idealize.SL.Sem Idealize.ShloMosaic.ValueIdx
open Idealize.ShloMosaic.Pipeline (Dat)
open Cert.ReferenceIdeal Cert.ReferenceIdeal.Gen Cert.Sage
open Cert.KernelIdeal.Hand (apply_congr2 tile128_apply tile4096_apply tile1_apply stack128_apply)

variable (V : (c : Dev nD) → (b : Ref sig .tc) → Buf (Elt Ideal) ((c : Thread nD τ).loc b))

/-- A grid point's row tile and its block along the contracted axis. -/
def rowOf (t : Fin cfg0.N) : Fin 8 := ⟨t.val / 8, by have := t.isLt; have h : cfg0.N = 64 := N_0; omega⟩
/-- The point of row tile `i` and block `k`. -/
def ptOf (i : Fin 8) (k : Fin 8) : Fin cfg0.N := ⟨8 * i.val + k.val, by have := i.isLt; have := k.isLt; have h : cfg0.N = 64 := N_0; omega⟩

/-- The printed index maps and the two loads' row offsets over the grid. -/
theorem idx0 : ∀ t : Fin cfg0.N,
    (win0_0.index t (0 : Fin 2) = t.val / 8 ∧ win0_0.index t (1 : Fin 2) = t.val % 8)
    ∧ (win0_1.index t (0 : Fin 2) = 0 ∧ win0_1.index t (1 : Fin 2) = 0)
    ∧ (win0_2.index t (0 : Fin 2) = t.val / 8 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val / 8 ∧ win0_9.index t (1 : Fin 2) = 0)
    ∧ (win0_10.index t (0 : Fin 2) = t.val / 8 ∧ win0_10.index t (1 : Fin 2) = 0)
    ∧ (k0_off1 (grid0.coords t) (0 : Fin 2) = 512 * (t.val % 8) ∧ k0_off1 (grid0.coords t) (1 : Fin 2) = 0)
    ∧ (k0_off2 (grid0.coords t) (0 : Fin 2) = 512 * (t.val / 8) ∧ k0_off2 (grid0.coords t) (1 : Fin 2) = 0) :=
  (by decide +kernel : ∀ t : Fin grid0.N, _)

/-! ## The input windows' blocks -/

/-- Window 0's block at (i, k): rows 512 i …, columns 512 k … of B. -/
theorem blkB_apply (c : Dev nD) (t : Fin cfg0.N) (y : S512x512.Idx) (k : S4096x4096.Idx)
    (h0 : (k 0).val = 512 * (t.val / 8) + (y 0).val) (h1 : (k 1).val = 512 * (t.val % 8) + (y 1).val) :
    (iblk V c 0 t : Vec Ideal S512x512 .bf16) y = (V c main_v2 : S4096x4096.Idx → EReal) k := by
  obtain ⟨e0, e1⟩ := (idx0 t).1
  unfold iblk
  rw [View.read_apply]
  refine apply_congr2 (V c main_v2) _ k ?_ ?_
  · show win0_0.index t (0 : Fin 2) * 512 + 1 * (y 0).val = (k 0).val; rw [e0, h0]; omega
  · show win0_0.index t (1 : Fin 2) * 512 + 1 * (y 1).val = (k 1).val; rw [e1, h1]; omega

theorem blkX (c : Dev nD) (t : Fin cfg0.N) : (iblk V c 1 t : Vec Ideal S4096x128 .f32) = V c main_v7 := by
  obtain ⟨e0, e1⟩ := (idx0 t).2.1
  funext y
  unfold iblk
  rw [View.read_apply]
  refine apply_congr2 (V c main_v7) _ y ?_ ?_
  · show win0_1.index t (0 : Fin 2) * 4096 + 1 * (y 0).val = (y 0).val; rw [e0]; omega
  · show win0_1.index t (1 : Fin 2) * 128 + 1 * (y 1).val = (y 1).val; rw [e1]; omega

theorem blkD (c : Dev nD) (t : Fin cfg0.N) : (iblk V c 2 t : Vec Ideal S512x1 .f32) = tile1 (V c main_v5) (rowOf t) := by
  obtain ⟨e0, e1⟩ := (idx0 t).2.2.1
  funext y
  unfold iblk
  rw [View.read_apply]
  refine (tile1_apply (V c main_v5) (rowOf t) y _ ?_ ?_).symm
  · show win0_2.index t (0 : Fin 2) * 512 + 1 * (y 0).val = 512 * (t.val / 8) + (y 0).val; rw [e0]; omega
  · show win0_2.index t (1 : Fin 2) * 1 + 1 * (y 1).val = (y 1).val; rw [e1]; omega

theorem blkW1l (c : Dev nD) (t : Fin cfg0.N) : (iblk V c 3 t : Vec Ideal S128x256 .f32) = V c main_v9 := by
  obtain ⟨e0, e1⟩ := (idx0 t).2.2.2.1
  funext y
  unfold iblk
  rw [View.read_apply]
  refine apply_congr2 (V c main_v9) _ y ?_ ?_
  · show win0_3.index t (0 : Fin 2) * 128 + 1 * (y 0).val = (y 0).val; rw [e0]; omega
  · show win0_3.index t (1 : Fin 2) * 256 + 1 * (y 1).val = (y 1).val; rw [e1]; omega

theorem blkW1r (c : Dev nD) (t : Fin cfg0.N) : (iblk V c 4 t : Vec Ideal S128x256 .f32) = V c main_v11 := by
  obtain ⟨e0, e1⟩ := (idx0 t).2.2.2.2.1
  funext y
  unfold iblk
  rw [View.read_apply]
  refine apply_congr2 (V c main_v11) _ y ?_ ?_
  · show win0_4.index t (0 : Fin 2) * 128 + 1 * (y 0).val = (y 0).val; rw [e0]; omega
  · show win0_4.index t (1 : Fin 2) * 256 + 1 * (y 1).val = (y 1).val; rw [e1]; omega

theorem blkB1 (c : Dev nD) (t : Fin cfg0.N) : (iblk V c 5 t : Vec Ideal S1x256 .f32) = V c main_v13 := by
  obtain ⟨e0, e1⟩ := (idx0 t).2.2.2.2.2.1
  funext y
  unfold iblk
  rw [View.read_apply]
  refine apply_congr2 (V c main_v13) _ y ?_ ?_
  · show win0_5.index t (0 : Fin 2) * 1 + 1 * (y 0).val = (y 0).val; rw [e0]; omega
  · show win0_5.index t (1 : Fin 2) * 256 + 1 * (y 1).val = (y 1).val; rw [e1]; omega

theorem blkW2l (c : Dev nD) (t : Fin cfg0.N) : (iblk V c 6 t : Vec Ideal S256x128 .f32) = V c main_v16 := by
  obtain ⟨e0, e1⟩ := (idx0 t).2.2.2.2.2.2.1
  funext y
  unfold iblk
  rw [View.read_apply]
  refine apply_congr2 (V c main_v16) _ y ?_ ?_
  · show win0_6.index t (0 : Fin 2) * 256 + 1 * (y 0).val = (y 0).val; rw [e0]; omega
  · show win0_6.index t (1 : Fin 2) * 128 + 1 * (y 1).val = (y 1).val; rw [e1]; omega

theorem blkW2r (c : Dev nD) (t : Fin cfg0.N) : (iblk V c 7 t : Vec Ideal S256x128 .f32) = V c main_v19 := by
  obtain ⟨e0, e1⟩ := (idx0 t).2.2.2.2.2.2.2.1
  funext y
  unfold iblk
  rw [View.read_apply]
  refine apply_congr2 (V c main_v19) _ y ?_ ?_
  · show win0_7.index t (0 : Fin 2) * 256 + 1 * (y 0).val = (y 0).val; rw [e0]; omega
  · show win0_7.index t (1 : Fin 2) * 128 + 1 * (y 1).val = (y 1).val; rw [e1]; omega

theorem blkB2 (c : Dev nD) (t : Fin cfg0.N) : (iblk V c 8 t : Vec Ideal S1x128 .f32) = V c main_v22 := by
  obtain ⟨e0, e1⟩ := (idx0 t).2.2.2.2.2.2.2.2.1
  funext y
  unfold iblk
  rw [View.read_apply]
  refine apply_congr2 (V c main_v22) _ y ?_ ?_
  · show win0_8.index t (0 : Fin 2) * 1 + 1 * (y 0).val = (y 0).val; rw [e0]; omega
  · show win0_8.index t (1 : Fin 2) * 128 + 1 * (y 1).val = (y 1).val; rw [e1]; omega

/-- The rows of X the body loads at block k: rows 512 k …. -/
theorem xk_apply (c : Dev nD) (t : Fin cfg0.N) (y : S512x128.Idx) (k : S4096x128.Idx)
    (h0 : (k 0).val = 512 * (t.val % 8) + (y 0).val) (h1 : (k 1).val = (y 1).val) :
    (xk V c t : Vec Ideal S512x128 .f32) y = (V c main_v7 : S4096x128.Idx → EReal) k := by
  obtain ⟨e0, e1⟩ := (idx0 t).2.2.2.2.2.2.2.2.2.2.2.1
  unfold xk
  rw [blkX V c t]
  show (V c main_v7 : S4096x128.Idx → EReal) ((rk (grid0.coords t)).idx y) = _
  refine apply_congr2 (V c main_v7) _ k ?_ ?_
  · simp only [rk, LoadRect.idx_apply, Rect.emb_apply, Rect.off_unit, Rect.stride_unit, Nat.one_mul]; rw [e0, h0]
  · simp only [rk, LoadRect.idx_apply, Rect.emb_apply, Rect.off_unit, Rect.stride_unit, Nat.one_mul]; rw [e1, h1]; omega

/-- The rows of X the epilogue loads at a last point: the row tile's own rows. -/
theorem xi_eq (c : Dev nD) (t : Fin cfg0.N) (h : k0_cond2 (grid0.coords t) = 1#1) :
    (xi V c t h : Vec Ideal S512x128 .f32) = tile128 (V c main_v7) (rowOf t) := by
  obtain ⟨e0, e1⟩ := (idx0 t).2.2.2.2.2.2.2.2.2.2.2.2
  funext y
  unfold xi
  rw [blkX V c t]
  show (V c main_v7 : S4096x128.Idx → EReal) ((ri (grid0.coords t) h).idx y) = _
  refine (tile128_apply (V c main_v7) (rowOf t) y _ ?_ ?_).symm
  · simp only [ri, LoadRect.idx_apply, Rect.emb_apply, Rect.off_unit, Rect.stride_unit, Nat.one_mul]; rw [e0]; rfl
  · simp only [ri, LoadRect.idx_apply, Rect.emb_apply, Rect.off_unit, Rect.stride_unit, Nat.one_mul]; rw [e1]; omega

/-! ## The accumulation over a row tile's eight blocks is the whole product -/

theorem accAt_congr (c : Dev nD) {n n' : ℕ} (e : n = n') (h : n < cfg0.N) (h' : n' < cfg0.N) : accAt V c n h = accAt V c n' h' := by
  subst e; rfl

theorem ptOf_val (i k : Fin 8) : (ptOf i k).val = 8 * i.val + k.val := rfl
theorem ptOf_div (i k : Fin 8) : (ptOf i k).val / 8 = i.val := by rw [ptOf_val]; have := k.isLt; omega
theorem ptOf_mod (i k : Fin 8) : (ptOf i k).val % 8 = k.val := by rw [ptOf_val]; have := k.isLt; omega

/-- The scratch along row tile `i`: after block `n`. -/
def accRow (c : Dev nD) (i : Fin 8) (n : ℕ) : Vec Ideal S512x128 .f32 :=
  if h : 8 * i.val + n < cfg0.N then accAt V c (8 * i.val + n) h else k0_pay1 (F := Ideal)

theorem accRow_eq (c : Dev nD) (i k : Fin 8) : accRow V c i k.val = accAt V c (ptOf i k).val (ptOf i k).isLt := by
  unfold accRow; exact dif_pos (ptOf i k).isLt

theorem acc_last (c : Dev nD) (i : Fin 8) :
    (accAt V c (ptOf i 7).val (ptOf i 7).isLt : Vec Ideal S512x128 .f32)
      = Bridge.product (tile4096 (V c main_v2) i) (V c main_v7) := by
  rw [← accRow_eq V c i 7]
  refine Fold.acc_eq_product (tile4096 (V c main_v2) i) (V c main_v7)
    (fun k => iblk V c 0 (ptOf i k)) (fun k => xk V c (ptOf i k)) ?_ ?_ (k0_pay1 (F := Ideal)) Bridge.zero_l1
    (accRow V c i) ?_ ?_
  · intro k r j
    have hr := r.isLt; have hj := j.isLt; have hi := i.isLt; have hk := k.isLt
    let K : S4096x4096.Idx := ix2 ⟨512 * i.val + r.val, by omega⟩ (Fold.pos k j)
    refine (blkB_apply V c (ptOf i k) (ix2 r j) K ?_ ?_).trans (tile4096_apply (V c main_v2) i (ix2 r (Fold.pos k j)) K rfl rfl).symm
    · show 512 * i.val + r.val = 512 * ((ptOf i k).val / 8) + r.val; rw [ptOf_div]
    · show 512 * k.val + j.val = 512 * ((ptOf i k).val % 8) + j.val; rw [ptOf_mod]
  · intro k j cc
    refine xk_apply V c (ptOf i k) (ix2 j cc) (ix2 (Fold.pos k j) cc) ?_ rfl
    show 512 * k.val + j.val = 512 * ((ptOf i k).val % 8) + j.val; rw [ptOf_mod]
  · show accRow V c i (0 : Fin 8).val = _
    rw [accRow_eq V c i 0, accAt_first V c (ptOf i 0) (ptOf_mod i 0), Bridge.step_l1]
  · intro k h
    show accRow V c i (⟨k + 1, h⟩ : Fin 8).val = _
    rw [accRow_eq V c i ⟨k + 1, h⟩, accAt_next V c (ptOf i ⟨k + 1, h⟩) (by rw [ptOf_mod]; exact Nat.succ_ne_zero k), Bridge.step_l1]
    congr 1
    have hk : k < 8 := by omega
    rw [show accRow V c i k = accRow V c i (⟨k, hk⟩ : Fin 8).val from rfl, accRow_eq V c i ⟨k, hk⟩]
    exact accAt_congr V c (by rw [ptOf_val, ptOf_val]; show 8 * i.val + (k + 1) - 1 = 8 * i.val + k; omega) _ _

/-! ## What the last block of a row tile writes back, and the whole arrays -/

theorem cond_last (i : Fin 8) : k0_cond2 (grid0.coords (ptOf i 7)) = 1#1 := (hcond2 (ptOf i 7)).mpr (ptOf_mod i 7)

theorem z2_last (c : Dev nD) (i : Fin 8) :
    ((dat V c).after 9 (ptOf i 7) : Vec Ideal S512x128 .f32)
      = Cert.KernelIdeal.Gen.k0_pay4 (F := Ideal) (tile4096 (V c main_v2) i) (V c main_v7) (tile1 (V c main_v5) i) (V c main_v9) (tile128 (V c main_v7) i) (V c main_v11) (V c main_v13) (V c main_v16) := by
  have hr : rowOf (ptOf i 7) = i := Fin.ext (ptOf_div i 7)
  rw [after9_last V c (ptOf i 7) (ptOf_mod i 7) (cond_last i), acc_last V c i, blkD V c (ptOf i 7), xi_eq V c (ptOf i 7), blkW1l V c (ptOf i 7),
    blkW1r V c (ptOf i 7), blkB1 V c (ptOf i 7), blkW2l V c (ptOf i 7), hr]
  exact Bridge.z2_tile _ _ _ _ _ _ _ _

theorem s2_last (c : Dev nD) (i : Fin 8) :
    ((dat V c).after 10 (ptOf i 7) : Vec Ideal S512x128 .f32)
      = Cert.KernelIdeal.Gen.k0_pay1 (F := Ideal) (Cert.KernelIdeal.Gen.k0_pay3 (F := Ideal) (tile4096 (V c main_v2) i) (V c main_v7) (tile1 (V c main_v5) i) (V c main_v9) (tile128 (V c main_v7) i) (V c main_v11) (V c main_v13)) (V c main_v19) (V c main_v22) := by
  have hr : rowOf (ptOf i 7) = i := Fin.ext (ptOf_div i 7)
  rw [after10_last V c (ptOf i 7) (ptOf_mod i 7) (cond_last i), acc_last V c i, blkD V c (ptOf i 7), xi_eq V c (ptOf i 7), blkW1l V c (ptOf i 7),
    blkW1r V c (ptOf i 7), blkB1 V c (ptOf i 7), blkW2r V c (ptOf i 7), blkB2 V c (ptOf i 7), hr]
  exact Bridge.s2_tile _ _ _ _ _ _ _ _ _

theorem read_stack9 (T : Fin 8 → S512x128.Idx → EReal) (t : Fin cfg0.N) :
    ((cfg0.win 9).blk t).view.read (Elt Ideal) (stack128 T) = T (rowOf t) := by
  obtain ⟨e0, e1⟩ := (idx0 t).2.2.2.2.2.2.2.2.2.1
  funext y
  rw [View.read_apply]
  refine stack128_apply T (rowOf t) y _ ?_ ?_
  · show win0_9.index t (0 : Fin 2) * 512 + 1 * (y 0).val = 512 * (t.val / 8) + (y 0).val; rw [e0]; omega
  · show win0_9.index t (1 : Fin 2) * 128 + 1 * (y 1).val = (y 1).val; rw [e1]; omega

theorem read_stack10 (T : Fin 8 → S512x128.Idx → EReal) (t : Fin cfg0.N) :
    ((cfg0.win 10).blk t).view.read (Elt Ideal) (stack128 T) = T (rowOf t) := by
  obtain ⟨e0, e1⟩ := (idx0 t).2.2.2.2.2.2.2.2.2.2.1
  funext y
  rw [View.read_apply]
  refine stack128_apply T (rowOf t) y _ ?_ ?_
  · show win0_10.index t (0 : Fin 2) * 512 + 1 * (y 0).val = 512 * (t.val / 8) + (y 0).val; rw [e0]; omega
  · show win0_10.index t (1 : Fin 2) * 128 + 1 * (y 1).val = (y 1).val; rw [e1]; omega

theorem flushed9 (c : Dev nD) (t : Fin cfg0.N) (hf : (cfg0.win 9).flush t = true) :
    (dat V c).flushed 9 t = ((cfg0.win 9).blk t).view.read (Elt Ideal)
      (z2 (V c main_v2) (V c main_v7) (V c main_v7) (V c main_v5) (V c main_v9) (V c main_v11) (V c main_v13) (V c main_v16)) := by
  have h7 : t.val % 8 = 7 := (flush0_9 t).mp hf
  have ht : t = ptOf (rowOf t) 7 := Fin.ext (by rw [ptOf_val]; show t.val = 8 * (t.val / 8) + 7; omega)
  show (cfg0.win 9).cut (grid0.coords t) ((dat V c).after 9 t) = _
  unfold z2
  rw [read_stack9]
  rw [ht, z2_last V c (rowOf t)]
  have hr : rowOf (ptOf (rowOf t) 7) = rowOf t := Fin.ext (ptOf_div (rowOf t) 7)
  rw [hr]
  rfl

theorem flushed10 (c : Dev nD) (t : Fin cfg0.N) (hf : (cfg0.win 10).flush t = true) :
    (dat V c).flushed 10 t = ((cfg0.win 10).blk t).view.read (Elt Ideal)
      (s2 (V c main_v2) (V c main_v7) (V c main_v7) (V c main_v5) (V c main_v9) (V c main_v11) (V c main_v13) (V c main_v19) (V c main_v22)) := by
  have h7 : t.val % 8 = 7 := (flush0_10 t).mp hf
  have ht : t = ptOf (rowOf t) 7 := Fin.ext (by rw [ptOf_val]; show t.val = 8 * (t.val / 8) + 7; omega)
  show (cfg0.win 10).cut (grid0.coords t) ((dat V c).after 10 t) = _
  unfold s2
  rw [read_stack10]
  rw [ht, s2_last V c (rowOf t)]
  have hr : rowOf (ptOf (rowOf t) 7) = rowOf t := Fin.ext (ptOf_div (rowOf t) 7)
  rw [hr]
  rfl

theorem cover9 (i : S4096x128.Idx) : ∃ t : Fin cfg0.N, (cfg0.win 9).flush t = true ∧ i ∈ ((cfg0.win 9).blk t).view.set := by
  have h0 : (i 0).val < 4096 := idx2_lt0 i
  have h1 : (i 1).val < 128 := idx2_lt1 i
  let ii : Fin 8 := ⟨(i 0).val / 512, by omega⟩
  refine ⟨ptOf ii 7, (flush0_9 _).mpr (ptOf_mod ii 7), ?_⟩
  obtain ⟨e0, e1⟩ := (idx0 (ptOf ii 7)).2.2.2.2.2.2.2.2.2.1
  have ev : (ptOf ii 7).val / 8 = (i 0).val / 512 := ptOf_div ii 7
  show i ∈ ((View.whole main_v23_0).slice (win0_9.rect (ptOf ii 7))).set
  rw [View.set_slice_whole, Rect.mem_set_unit]
  intro a
  match a with
  | ⟨0, _⟩ => show win0_9.index (ptOf ii 7) (0 : Fin 2) * 512 ≤ (i 0).val ∧ (i 0).val < win0_9.index (ptOf ii 7) (0 : Fin 2) * 512 + 512; rw [e0, ev]; omega
  | ⟨1, _⟩ => show win0_9.index (ptOf ii 7) (1 : Fin 2) * 128 ≤ (i 1).val ∧ (i 1).val < win0_9.index (ptOf ii 7) (1 : Fin 2) * 128 + 128; rw [e1]; omega

theorem cover10 (i : S4096x128.Idx) : ∃ t : Fin cfg0.N, (cfg0.win 10).flush t = true ∧ i ∈ ((cfg0.win 10).blk t).view.set := by
  have h0 : (i 0).val < 4096 := idx2_lt0 i
  have h1 : (i 1).val < 128 := idx2_lt1 i
  let ii : Fin 8 := ⟨(i 0).val / 512, by omega⟩
  refine ⟨ptOf ii 7, (flush0_10 _).mpr (ptOf_mod ii 7), ?_⟩
  obtain ⟨e0, e1⟩ := (idx0 (ptOf ii 7)).2.2.2.2.2.2.2.2.2.2.1
  have ev : (ptOf ii 7).val / 8 = (i 0).val / 512 := ptOf_div ii 7
  show i ∈ ((View.whole main_v23_1).slice (win0_10.rect (ptOf ii 7))).set
  rw [View.set_slice_whole, Rect.mem_set_unit]
  intro a
  match a with
  | ⟨0, _⟩ => show win0_10.index (ptOf ii 7) (0 : Fin 2) * 512 ≤ (i 0).val ∧ (i 0).val < win0_10.index (ptOf ii 7) (0 : Fin 2) * 512 + 512; rw [e0, ev]; omega
  | ⟨1, _⟩ => show win0_10.index (ptOf ii 7) (1 : Fin 2) * 128 ≤ (i 1).val ∧ (i 1).val < win0_10.index (ptOf ii 7) (1 : Fin 2) * 128 + 128; rw [e1]; omega

/-- Layer 1's two result arrays, whole. -/
theorem final9 (c : Dev nD) : (dat V c).arrAt 9 cfg0.N
    = z2 (V c main_v2) (V c main_v7) (V c main_v7) (V c main_v5) (V c main_v9) (V c main_v11) (V c main_v13) (V c main_v16) :=
  (dat V c).arrAt_eq_of_cover 9 _ (fun t hf => flushed9 V c t hf) cover9

theorem final10 (c : Dev nD) : (dat V c).arrAt 10 cfg0.N
    = s2 (V c main_v2) (V c main_v7) (V c main_v7) (V c main_v5) (V c main_v9) (V c main_v11) (V c main_v13) (V c main_v19) (V c main_v22) :=
  (dat V c).arrAt_eq_of_cover 10 _ (fun t hf => flushed10 V c t hf) cover10

end Cert.ReferenceIdeal.L1

end
-- ==== Proof.RefL2Cases.lean ====
/- Region 1 of the reference (layer 2, the K-blocked accumulation over an 8 x 8 grid): the body's two branch
   conditions decided over the grid, where the output window is idle and not written back, the staging memrefs
   of a point, each input window's block, and the region invariant opened with the accumulator first. -/
import proofs.«173193_g2000702591456375_pallasbulk_739_11_alg».proof.Proof.Gen.ReferenceIdeal.Launch
import proofs.«173193_g2000702591456375_pallasbulk_739_11_alg».proof.Proof.Gen.ReferenceIdeal.Skeleton
import proofs.«173193_g2000702591456375_pallasbulk_739_11_alg».proof.Proof.Gen.ReferenceIdeal.Points
import Idealize.ShloMosaic.Lib.Pipeline.FrameBody
import Idealize.ShloMosaic.Lib.Ring
import Idealize.ShloMosaic.Lib.Tactic

set_option maxRecDepth 16384

noncomputable section

namespace Cert.ReferenceIdeal.L2

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The first conditional's condition, from the grid coordinates: the column coordinate `k` is 0. -/
abbrev cond1 (i : grid1.Coords) : Prop :=
  (Scalar.cmpi .ne (Scalar.extui (Scalar.cmpi .eq (BitVec.ofNat 32 (i 1).val) 0#32)) 0#32) = 1#1
/-- It holds exactly at the points `t = 8 i + 0`. -/
theorem hcond1 : ∀ t : Fin cfg1.N, cond1 (grid1.coords t) ↔ t.val % 8 = 0 :=
  (by decide +kernel : ∀ t : Fin grid1.N, cond1 (grid1.coords t) ↔ t.val % 8 = 0)

/-- The second conditional's condition: the column coordinate `k` is 7. -/
abbrev cond2 (i : grid1.Coords) : Prop := k1_cond2 i = 1#1
/-- It holds exactly at the points `t = 8 i + 7`. -/
theorem hcond2 : ∀ t : Fin cfg1.N, k1_cond2 (grid1.coords t) = 1#1 ↔ t.val % 8 = 7 :=
  (by decide +kernel : ∀ t : Fin grid1.N, k1_cond2 (grid1.coords t) = 1#1 ↔ t.val % 8 = 7)

/-- No point takes both conditionals. -/
theorem not_both : ∀ t : Fin cfg1.N, ¬(cond1 (grid1.coords t) ∧ cond2 (grid1.coords t)) :=
  (by decide +kernel : ∀ t : Fin grid1.N, ¬(cond1 (grid1.coords t) ∧ cond2 (grid1.coords t)))

/-! ## Where the windows are idle -/

/-- The four input windows are never idle. -/
theorem liveAt0 : ∀ t : Fin cfg1.N, cfg1.idle 0 (grid1.coords t) = false := fun _ => rfl
theorem liveAt1 : ∀ t : Fin cfg1.N, cfg1.idle 1 (grid1.coords t) = false := fun _ => rfl
theorem liveAt2 : ∀ t : Fin cfg1.N, cfg1.idle 2 (grid1.coords t) = false := fun _ => rfl
theorem liveAt3 : ∀ t : Fin cfg1.N, cfg1.idle 3 (grid1.coords t) = false := fun _ => rfl
/-- Where `k ≠ 7` the output window is idle: the body stores nothing into it, -/
theorem idleAt4 : ∀ t : Fin cfg1.N, ¬cond2 (grid1.coords t) → cfg1.idle 4 (grid1.coords t) = true :=
  (by decide +kernel : ∀ t : Fin grid1.N, ¬cond2 (grid1.coords t) → cfg1.idle 4 (grid1.coords t) = true)
/-- and the pipeline does not write its block back. -/
theorem noFlush4 : ∀ t : Fin cfg1.N, ¬cond2 (grid1.coords t) → (cfg1.win 4).flush t = false :=
  (by decide +kernel : ∀ t : Fin grid1.N, ¬cond2 (grid1.coords t) → (cfg1.win 4).flush t = false)
/-- Where `k = 7` the output window is live. -/
theorem liveAt4 : ∀ t : Fin cfg1.N, cond2 (grid1.coords t) → cfg1.idle 4 (grid1.coords t) = false :=
  (by decide +kernel : ∀ t : Fin grid1.N, cond2 (grid1.coords t) → cfg1.idle 4 (grid1.coords t) = false)

/-! ## The memrefs the body is called with -/

/-- One staging buffer of the output window, through which its contents are stated. -/
abbrev VO4 : View sig .tc .vmem S512x128 .f32 := (Memref.whole cc1_stg4_0 : Memref sig .tc .vmem S512x128 .f32).view
/-- Each window's current staging memref at point `t`, and its wholeness. -/
abbrev ms0 (t : Fin cfg1.N) : Memref sig .tc .vmem S512x512 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S4096x128 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S512x1 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S512x128 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S512x128 .f32 := win1_4.stage (cfg1.slots t 4)
abbrev hs4 (t : Fin cfg1.N) : (ms4 t).IsWhole := hstage1_4 ((cfg1.slots t 4).cast nbuf1_4)
/-- The accumulator: a whole scoped buffer of the kernel's own, passed beside the windows and carried from point to point. -/
abbrev scM : Memref sig .tc .vmem S512x128 .f32 := Memref.whole cc1_scratch0
/-- The accumulator as a view: what it holds is stated through it. -/
abbrev VS : View sig .tc .vmem S512x128 .f32 := scM.view

/-! ## The region invariant, opened -/

/-- Every scoped buffer of the core that is neither a staging buffer of this call nor the accumulator, at some contents
    each: carried through the region unopened. -/
def restS (c : Dev nD) : sProp 𝕄 :=
  Pipeline.scopedRestBut (Ix := Unit) (Name := ℕ) (U := UR sig nD τ) (Lvl := ℕ) (Val := Elt F) spec1 c [cc1_scratch0]

/-- The class's invariant with the accumulator first, owned as a memref at some contents, then the other scoped buffers,
    then the generator register. -/
theorem PhiA_eq (c : Dev nD) :
    (Pipeline.ΦA spec1 c : sProp 𝕄)
      = iprop(iprop(iprop(∃ d, owns (c : Thread nD τ) scM fullShare d) ∗ restS (F := F) c) ∗ (∃ r, prngReg c r)) := by
  unfold Pipeline.ΦA restS
  rw [Pipeline.scopedRest_split_of_list spec1 c [cc1_scratch0] (by decide) (by decide)]
  simp only [scM, owns_whole]; try rfl

/-! ## The windows' blocks at the region's entry contents -/

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof data
    whose array is the entry contents and whose body leaves the block in place. -/
theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

end Cert.ReferenceIdeal.L2

end
-- ==== Proof.RefL2RunA.lean ====
/- The body of the layer-2 kernel at a point with `k = 0` (first conditional taken, second not): the accumulator
   is zeroed and the first partial product added; the output window is left as found. -/
import proofs.«173193_g2000702591456375_pallasbulk_739_11_alg».proof.Proof.RefL2Cases

set_option maxRecDepth 16384

noncomputable section

namespace Cert.ReferenceIdeal.L2

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the accumulator, as pieces (last first), where `k = 0`, with the proof that on whole
    memrefs — the inputs at their contents, the output at contents handed back untouched, the accumulator at anything —
    the body runs to the continuation holding the inputs and the output as they were and the accumulator with the
    pieces written. -/
noncomputable def kernelRunA (c : Dev nD) (i : grid1.Coords)
    (arg2 : Memref sig .tc .vmem S512x512 .bf16) (harg2 : arg2.IsWhole) (arg3 : Memref sig .tc .vmem S4096x128 .f32) (harg3 : arg3.IsWhole)
    (arg4 : Memref sig .tc .vmem S512x1 .f32) (harg4 : arg4.IsWhole) (arg5 : Memref sig .tc .vmem S512x128 .f32) (harg5 : arg5.IsWhole)
    (arg6 : Memref sig .tc .vmem S512x128 .f32) (harg6 : arg6.IsWhole) (arg7 : Memref sig .tc .vmem S512x128 .f32) (harg7 : arg7.IsWhole)
    (hc1 : cond1 i) (hc2 : ¬cond2 i) (x0 : Vec F S512x512 .bf16) (x1 : Vec F S4096x128 .f32) (x2 : Vec F S512x1 .f32) (x3 : Vec F S512x128 .f32) :
    Σ' (L4 : List (View.Piece (Elt F) S512x128 .f32)), { LS : List (View.Piece (Elt F) S512x128 .f32) //
      ∀ (xi4 : Vec F S512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc1__sage_layer2_kernel i arg2 harg2 arg3 harg3 arg4 harg4 arg5 harg5 arg6 harg6 arg7 harg7) K } := by
  refine ⟨[], ?_, fun xi4 E K => ?run⟩
  case run =>
    simp only [cc1__sage_layer2_kernel_eq_skeleton]; unfold cc1__sage_layer2_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.ReferenceIdeal.L2

end
-- ==== Proof.RefL2RunB.lean ====
/- The body of the layer-2 kernel at a point with `0 < k < 7` (neither conditional taken): one more partial product is
   added onto the accumulator; the output window is left as found. -/
import proofs.«173193_g2000702591456375_pallasbulk_739_11_alg».proof.Proof.RefL2RunA

set_option maxRecDepth 16384

noncomputable section

namespace Cert.ReferenceIdeal.L2

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the accumulator, as pieces (last first), where `0 < k < 7`, with the proof that on
    whole memrefs — the inputs at their contents, the output at contents handed back untouched, the accumulator at what
    the point before left — the body runs to the continuation holding the inputs and the output as they were and the
    accumulator with the pieces written. -/
noncomputable def kernelRunB (c : Dev nD) (i : grid1.Coords)
    (arg2 : Memref sig .tc .vmem S512x512 .bf16) (harg2 : arg2.IsWhole) (arg3 : Memref sig .tc .vmem S4096x128 .f32) (harg3 : arg3.IsWhole)
    (arg4 : Memref sig .tc .vmem S512x1 .f32) (harg4 : arg4.IsWhole) (arg5 : Memref sig .tc .vmem S512x128 .f32) (harg5 : arg5.IsWhole)
    (arg6 : Memref sig .tc .vmem S512x128 .f32) (harg6 : arg6.IsWhole) (arg7 : Memref sig .tc .vmem S512x128 .f32) (harg7 : arg7.IsWhole)
    (hc1 : ¬cond1 i) (hc2 : ¬cond2 i) (x0 : Vec F S512x512 .bf16) (x1 : Vec F S4096x128 .f32) (x2 : Vec F S512x1 .f32) (x3 : Vec F S512x128 .f32) (xs : Vec F S512x128 .f32) :
    Σ' (L4 : List (View.Piece (Elt F) S512x128 .f32)), { LS : List (View.Piece (Elt F) S512x128 .f32) //
      ∀ (xi4 : Vec F S512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc1__sage_layer2_kernel i arg2 harg2 arg3 harg3 arg4 harg4 arg5 harg5 arg6 harg6 arg7 harg7) K } := by
  refine ⟨[], ?_, fun xi4 E K => ?run⟩
  case run =>
    simp only [cc1__sage_layer2_kernel_eq_skeleton]; unfold cc1__sage_layer2_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.ReferenceIdeal.L2

end
-- ==== Proof.RefL2RunC.lean ====
/- The body of the layer-2 kernel at a point with `k = 7` (second conditional taken, first not): the last partial
   product is added onto the accumulator and the epilogue stores the output block. -/
import proofs.«173193_g2000702591456375_pallasbulk_739_11_alg».proof.Proof.RefL2RunB

set_option maxRecDepth 16384

noncomputable section

namespace Cert.ReferenceIdeal.L2

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the accumulator, as pieces (last first), where
    `k = 7`, with the proof that on whole memrefs — the inputs at their contents, the output at anything, the accumulator
    at what the point before left — the body runs to the continuation holding the inputs as they were and the output and
    the accumulator with their pieces written. -/
noncomputable def kernelRunC (c : Dev nD) (i : grid1.Coords)
    (arg2 : Memref sig .tc .vmem S512x512 .bf16) (harg2 : arg2.IsWhole) (arg3 : Memref sig .tc .vmem S4096x128 .f32) (harg3 : arg3.IsWhole)
    (arg4 : Memref sig .tc .vmem S512x1 .f32) (harg4 : arg4.IsWhole) (arg5 : Memref sig .tc .vmem S512x128 .f32) (harg5 : arg5.IsWhole)
    (arg6 : Memref sig .tc .vmem S512x128 .f32) (harg6 : arg6.IsWhole) (arg7 : Memref sig .tc .vmem S512x128 .f32) (harg7 : arg7.IsWhole)
    (hc1 : ¬cond1 i) (hc2 : cond2 i) (x0 : Vec F S512x512 .bf16) (x1 : Vec F S4096x128 .f32) (x2 : Vec F S512x1 .f32) (x3 : Vec F S512x128 .f32) (xs : Vec F S512x128 .f32) :
    Σ' (L4 : List (View.Piece (Elt F) S512x128 .f32)), { LS : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS)) -∗ K ⟨⟩))
          ⊢ wp frame (wpE (defs₀ (F := F)) Variants.none c none) E (cc1__sage_layer2_kernel i arg2 harg2 arg3 harg3 arg4 harg4 arg5 harg5 arg6 harg6 arg7 harg7) K } := by
  refine ⟨?_, ?_, fun E K => ?run⟩
  case run =>
    simp only [cc1__sage_layer2_kernel_eq_skeleton]; unfold cc1__sage_layer2_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2
    obtain rfl := harg5.eq_unread hf3; obtain rfl := harg7.eq_unread hfs
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.ReferenceIdeal.L2

end
-- ==== Proof.RefL2Frame.lean ====
/- Region 1 of the reference (layer 2) at the entry contents `V`: what each control case leaves in the accumulator
   and in the output block, the accumulation over the grid's points, the region invariant carrying the accumulator,
   the pipeline's proof data and the body obligation. -/
import proofs.«173193_g2000702591456375_pallasbulk_739_11_alg».proof.Proof.RefL2RunC

set_option maxRecDepth 16384

noncomputable section

namespace Cert.ReferenceIdeal.L2

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- Where `k = 0` the accumulator's pieces cover it: one store of the whole tile. -/
theorem scoverA (c : Dev nD) (i : grid1.Coords)
    (arg2 : Memref sig .tc .vmem S512x512 .bf16) (harg2 : arg2.IsWhole) (arg3 : Memref sig .tc .vmem S4096x128 .f32) (harg3 : arg3.IsWhole)
    (arg4 : Memref sig .tc .vmem S512x1 .f32) (harg4 : arg4.IsWhole) (arg5 : Memref sig .tc .vmem S512x128 .f32) (harg5 : arg5.IsWhole)
    (arg6 : Memref sig .tc .vmem S512x128 .f32) (harg6 : arg6.IsWhole) (arg7 : Memref sig .tc .vmem S512x128 .f32) (harg7 : arg7.IsWhole)
    (hc1 : cond1 i) (hc2 : ¬cond2 i) (x0 : Vec F S512x512 .bf16) (x1 : Vec F S4096x128 .f32) (x2 : Vec F S512x1 .f32) (x3 : Vec F S512x128 .f32) (y : S512x128.Idx) :
    ∃ pc ∈ (kernelRunA c i arg2 harg2 arg3 harg3 arg4 harg4 arg5 harg5 arg6 harg6 arg7 harg7 hc1 hc2 x0 x1 x2 x3).2.1, y ∈ pc.1.set :=
  View.cover_of_tiledL (kernelRunA c i arg2 harg2 arg3 harg3 arg4 harg4 arg5 harg5 arg6 harg6 arg7 harg7 hc1 hc2 x0 x1 x2 x3).2.1 S512x128.size (by sl_kernel_rfl) y

/-- What a point with `k = 0` leaves in the accumulator: its pieces read back. -/
def soutA (c : Dev nD) (i : grid1.Coords)
    (arg2 : Memref sig .tc .vmem S512x512 .bf16) (harg2 : arg2.IsWhole) (arg3 : Memref sig .tc .vmem S4096x128 .f32) (harg3 : arg3.IsWhole)
    (arg4 : Memref sig .tc .vmem S512x1 .f32) (harg4 : arg4.IsWhole) (arg5 : Memref sig .tc .vmem S512x128 .f32) (harg5 : arg5.IsWhole)
    (arg6 : Memref sig .tc .vmem S512x128 .f32) (harg6 : arg6.IsWhole) (arg7 : Memref sig .tc .vmem S512x128 .f32) (harg7 : arg7.IsWhole)
    (hc1 : cond1 i) (hc2 : ¬cond2 i) (x0 : Vec F S512x512 .bf16) (x1 : Vec F S4096x128 .f32) (x2 : Vec F S512x1 .f32) (x3 : Vec F S512x128 .f32) : Vec F S512x128 .f32 :=
  VS.read (Elt F) (VS.writes (Elt F) VS.junk (kernelRunA c i arg2 harg2 arg3 harg3 arg4 harg4 arg5 harg5 arg6 harg6 arg7 harg7 hc1 hc2 x0 x1 x2 x3).2.1)

/-- Where `0 < k < 7` the accumulator's pieces cover it. -/
theorem scoverB (c : Dev nD) (i : grid1.Coords)
    (arg2 : Memref sig .tc .vmem S512x512 .bf16) (harg2 : arg2.IsWhole) (arg3 : Memref sig .tc .vmem S4096x128 .f32) (harg3 : arg3.IsWhole)
    (arg4 : Memref sig .tc .vmem S512x1 .f32) (harg4 : arg4.IsWhole) (arg5 : Memref sig .tc .vmem S512x128 .f32) (harg5 : arg5.IsWhole)
    (arg6 : Memref sig .tc .vmem S512x128 .f32) (harg6 : arg6.IsWhole) (arg7 : Memref sig .tc .vmem S512x128 .f32) (harg7 : arg7.IsWhole)
    (hc1 : ¬cond1 i) (hc2 : ¬cond2 i) (x0 : Vec F S512x512 .bf16) (x1 : Vec F S4096x128 .f32) (x2 : Vec F S512x1 .f32) (x3 : Vec F S512x128 .f32) (xs : Vec F S512x128 .f32) (y : S512x128.Idx) :
    ∃ pc ∈ (kernelRunB c i arg2 harg2 arg3 harg3 arg4 harg4 arg5 harg5 arg6 harg6 arg7 harg7 hc1 hc2 x0 x1 x2 x3 xs).2.1, y ∈ pc.1.set :=
  View.cover_of_tiledL (kernelRunB c i arg2 harg2 arg3 harg3 arg4 harg4 arg5 harg5 arg6 harg6 arg7 harg7 hc1 hc2 x0 x1 x2 x3 xs).2.1 S512x128.size (by sl_kernel_rfl) y

/-- What a point with `0 < k < 7` leaves in the accumulator, over what the point before left. -/
def soutB (c : Dev nD) (i : grid1.Coords)
    (arg2 : Memref sig .tc .vmem S512x512 .bf16) (harg2 : arg2.IsWhole) (arg3 : Memref sig .tc .vmem S4096x128 .f32) (harg3 : arg3.IsWhole)
    (arg4 : Memref sig .tc .vmem S512x1 .f32) (harg4 : arg4.IsWhole) (arg5 : Memref sig .tc .vmem S512x128 .f32) (harg5 : arg5.IsWhole)
    (arg6 : Memref sig .tc .vmem S512x128 .f32) (harg6 : arg6.IsWhole) (arg7 : Memref sig .tc .vmem S512x128 .f32) (harg7 : arg7.IsWhole)
    (hc1 : ¬cond1 i) (hc2 : ¬cond2 i) (x0 : Vec F S512x512 .bf16) (x1 : Vec F S4096x128 .f32) (x2 : Vec F S512x1 .f32) (x3 : Vec F S512x128 .f32) (xs : Vec F S512x128 .f32) : Vec F S512x128 .f32 :=
  VS.read (Elt F) (VS.writes (Elt F) VS.junk (kernelRunB c i arg2 harg2 arg3 harg3 arg4 harg4 arg5 harg5 arg6 harg6 arg7 harg7 hc1 hc2 x0 x1 x2 x3 xs).2.1)

/-- Where `k = 7` the accumulator's pieces cover it, -/
theorem scoverC (c : Dev nD) (i : grid1.Coords)
    (arg2 : Memref sig .tc .vmem S512x512 .bf16) (harg2 : arg2.IsWhole) (arg3 : Memref sig .tc .vmem S4096x128 .f32) (harg3 : arg3.IsWhole)
    (arg4 : Memref sig .tc .vmem S512x1 .f32) (harg4 : arg4.IsWhole) (arg5 : Memref sig .tc .vmem S512x128 .f32) (harg5 : arg5.IsWhole)
    (arg6 : Memref sig .tc .vmem S512x128 .f32) (harg6 : arg6.IsWhole) (arg7 : Memref sig .tc .vmem S512x128 .f32) (harg7 : arg7.IsWhole)
    (hc1 : ¬cond1 i) (hc2 : cond2 i) (x0 : Vec F S512x512 .bf16) (x1 : Vec F S4096x128 .f32) (x2 : Vec F S512x1 .f32) (x3 : Vec F S512x128 .f32) (xs : Vec F S512x128 .f32) (y : S512x128.Idx) :
    ∃ pc ∈ (kernelRunC c i arg2 harg2 arg3 harg3 arg4 harg4 arg5 harg5 arg6 harg6 arg7 harg7 hc1 hc2 x0 x1 x2 x3 xs).2.1, y ∈ pc.1.set :=
  View.cover_of_tiledL (kernelRunC c i arg2 harg2 arg3 harg3 arg4 harg4 arg5 harg5 arg6 harg6 arg7 harg7 hc1 hc2 x0 x1 x2 x3 xs).2.1 S512x128.size (by sl_kernel_rfl) y

/-- and the output's pieces cover its block: one store of the whole tile. -/
theorem coverC (c : Dev nD) (i : grid1.Coords)
    (arg2 : Memref sig .tc .vmem S512x512 .bf16) (harg2 : arg2.IsWhole) (arg3 : Memref sig .tc .vmem S4096x128 .f32) (harg3 : arg3.IsWhole)
    (arg4 : Memref sig .tc .vmem S512x1 .f32) (harg4 : arg4.IsWhole) (arg5 : Memref sig .tc .vmem S512x128 .f32) (harg5 : arg5.IsWhole)
    (arg6 : Memref sig .tc .vmem S512x128 .f32) (harg6 : arg6.IsWhole) (arg7 : Memref sig .tc .vmem S512x128 .f32) (harg7 : arg7.IsWhole)
    (hc1 : ¬cond1 i) (hc2 : cond2 i) (x0 : Vec F S512x512 .bf16) (x1 : Vec F S4096x128 .f32) (x2 : Vec F S512x1 .f32) (x3 : Vec F S512x128 .f32) (xs : Vec F S512x128 .f32) (y : S512x128.Idx) :
    ∃ pc ∈ (kernelRunC c i arg2 harg2 arg3 harg3 arg4 harg4 arg5 harg5 arg6 harg6 arg7 harg7 hc1 hc2 x0 x1 x2 x3 xs).1, y ∈ pc.1.set :=
  View.cover_of_tiledL (kernelRunC c i arg2 harg2 arg3 harg3 arg4 harg4 arg5 harg5 arg6 harg6 arg7 harg7 hc1 hc2 x0 x1 x2 x3 xs).1 S512x128.size (by sl_kernel_rfl) y

/-- What a point with `k = 7` leaves in the accumulator, over what the point before left, -/
def soutC (c : Dev nD) (i : grid1.Coords)
    (arg2 : Memref sig .tc .vmem S512x512 .bf16) (harg2 : arg2.IsWhole) (arg3 : Memref sig .tc .vmem S4096x128 .f32) (harg3 : arg3.IsWhole)
    (arg4 : Memref sig .tc .vmem S512x1 .f32) (harg4 : arg4.IsWhole) (arg5 : Memref sig .tc .vmem S512x128 .f32) (harg5 : arg5.IsWhole)
    (arg6 : Memref sig .tc .vmem S512x128 .f32) (harg6 : arg6.IsWhole) (arg7 : Memref sig .tc .vmem S512x128 .f32) (harg7 : arg7.IsWhole)
    (hc1 : ¬cond1 i) (hc2 : cond2 i) (x0 : Vec F S512x512 .bf16) (x1 : Vec F S4096x128 .f32) (x2 : Vec F S512x1 .f32) (x3 : Vec F S512x128 .f32) (xs : Vec F S512x128 .f32) : Vec F S512x128 .f32 :=
  VS.read (Elt F) (VS.writes (Elt F) VS.junk (kernelRunC c i arg2 harg2 arg3 harg3 arg4 harg4 arg5 harg5 arg6 harg6 arg7 harg7 hc1 hc2 x0 x1 x2 x3 xs).2.1)

/-- and in the output's staging buffer. -/
def outC (c : Dev nD) (i : grid1.Coords)
    (arg2 : Memref sig .tc .vmem S512x512 .bf16) (harg2 : arg2.IsWhole) (arg3 : Memref sig .tc .vmem S4096x128 .f32) (harg3 : arg3.IsWhole)
    (arg4 : Memref sig .tc .vmem S512x1 .f32) (harg4 : arg4.IsWhole) (arg5 : Memref sig .tc .vmem S512x128 .f32) (harg5 : arg5.IsWhole)
    (arg6 : Memref sig .tc .vmem S512x128 .f32) (harg6 : arg6.IsWhole) (arg7 : Memref sig .tc .vmem S512x128 .f32) (harg7 : arg7.IsWhole)
    (hc1 : ¬cond1 i) (hc2 : cond2 i) (x0 : Vec F S512x512 .bf16) (x1 : Vec F S4096x128 .f32) (x2 : Vec F S512x1 .f32) (x3 : Vec F S512x128 .f32) (xs : Vec F S512x128 .f32) : Vec F S512x128 .f32 :=
  VO4.read (Elt F) (VO4.writes (Elt F) VO4.junk (kernelRunC c i arg2 harg2 arg3 harg3 arg4 harg4 arg5 harg5 arg6 harg6 arg7 harg7 hc1 hc2 x0 x1 x2 x3 xs).1)

/-! ## The accumulation over the grid's points -/

variable (V : (c : Dev nD) → (b : Ref sig .tc) → Buf (Elt F) ((c : Thread nD τ).loc b))

/-- One point of the accumulation: what the body at point `t` leaves in the accumulator when it found `prev` there — the
    case is read off `k = t mod 8`; where `k = 0` what it found is overwritten. -/
def stepAt (c : Dev nD) (t : Fin cfg1.N) (prev : Vec F S512x128 .f32) : Vec F S512x128 .f32 :=
  if h0 : t.val % 8 = 0 then
    soutA c (grid1.coords t) (ms0 t) (hs0 t) (ms1 t) (hs1 t) (ms2 t) (hs2 t) (ms3 t) (hs3 t) (ms4 t) (hs4 t) scM (Memref.isWhole_whole _) ((hcond1 t).mpr h0) (fun h => by have := (hcond2 t).mp h; omega) (iblk V c 0 t) (iblk V c 1 t) (iblk V c 2 t) (iblk V c 3 t)
  else if h7 : t.val % 8 = 7 then
    soutC c (grid1.coords t) (ms0 t) (hs0 t) (ms1 t) (hs1 t) (ms2 t) (hs2 t) (ms3 t) (hs3 t) (ms4 t) (hs4 t) scM (Memref.isWhole_whole _) (fun h => h0 ((hcond1 t).mp h)) ((hcond2 t).mpr h7) (iblk V c 0 t) (iblk V c 1 t) (iblk V c 2 t) (iblk V c 3 t) prev
  else
    soutB c (grid1.coords t) (ms0 t) (hs0 t) (ms1 t) (hs1 t) (ms2 t) (hs2 t) (ms3 t) (hs3 t) (ms4 t) (hs4 t) scM (Memref.isWhole_whole _) (fun h => h0 ((hcond1 t).mp h)) (fun h => h7 ((hcond2 t).mp h)) (iblk V c 0 t) (iblk V c 1 t) (iblk V c 2 t) (iblk V c 3 t) prev

/-- What the accumulator holds after the body at position `n`. -/
def accAt (c : Dev nD) : (n : ℕ) → n < cfg1.N → Vec F S512x128 .f32
  | 0, hn => stepAt V c ⟨0, hn⟩ (VS.read (Elt F) VS.junk)
  | n + 1, hn => stepAt V c ⟨n + 1, hn⟩ (accAt c n (Nat.lt_of_succ_lt hn))

/-- The accumulator after a point with `k = 0`. -/
theorem accAt_A (c : Dev nD) (t : Fin cfg1.N) (h0 : t.val % 8 = 0) :
    accAt V c t.val t.isLt = soutA c (grid1.coords t) (ms0 t) (hs0 t) (ms1 t) (hs1 t) (ms2 t) (hs2 t) (ms3 t) (hs3 t) (ms4 t) (hs4 t) scM (Memref.isWhole_whole _) ((hcond1 t).mpr h0) (fun h => by have := (hcond2 t).mp h; omega) (iblk V c 0 t) (iblk V c 1 t) (iblk V c 2 t) (iblk V c 3 t) := by
  obtain ⟨n, hn⟩ := t
  cases n with
  | zero => show stepAt V c ⟨0, hn⟩ _ = _; unfold stepAt; rw [dif_pos h0]
  | succ n => show stepAt V c ⟨n + 1, hn⟩ _ = _; unfold stepAt; rw [dif_pos h0]

/-- The accumulator after a point with `0 < k < 7`, over what the point before left. -/
theorem accAt_B (c : Dev nD) (t : Fin cfg1.N) (h0 : ¬t.val % 8 = 0) (h7 : ¬t.val % 8 = 7) :
    accAt V c t.val t.isLt = soutB c (grid1.coords t) (ms0 t) (hs0 t) (ms1 t) (hs1 t) (ms2 t) (hs2 t) (ms3 t) (hs3 t) (ms4 t) (hs4 t) scM (Memref.isWhole_whole _) (fun h => h0 ((hcond1 t).mp h)) (fun h => h7 ((hcond2 t).mp h)) (iblk V c 0 t) (iblk V c 1 t) (iblk V c 2 t) (iblk V c 3 t) (accAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h7).trans rfl)

/-- The accumulator after a point with `k = 7`, over what the point before left. -/
theorem accAt_C (c : Dev nD) (t : Fin cfg1.N) (h0 : ¬t.val % 8 = 0) (h7 : t.val % 8 = 7) :
    accAt V c t.val t.isLt = soutC c (grid1.coords t) (ms0 t) (hs0 t) (ms1 t) (hs1 t) (ms2 t) (hs2 t) (ms3 t) (hs3 t) (ms4 t) (hs4 t) scM (Memref.isWhole_whole _) (fun h => h0 ((hcond1 t).mp h)) ((hcond2 t).mpr h7) (iblk V c 0 t) (iblk V c 1 t) (iblk V c 2 t) (iblk V c 3 t) (accAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h7).trans rfl)

/-- What the output's staging buffer holds after the body at point `t`: where `k = 7` the block the epilogue stores;
    elsewhere the window is idle and nothing consults this. -/
def outAt (c : Dev nD) (t : Fin cfg1.N) : Vec F S512x128 .f32 :=
  if h7 : t.val % 8 = 7 then
    outC c (grid1.coords t) (ms0 t) (hs0 t) (ms1 t) (hs1 t) (ms2 t) (hs2 t) (ms3 t) (hs3 t) (ms4 t) (hs4 t) scM (Memref.isWhole_whole _) (fun h => by have := (hcond1 t).mp h; omega) ((hcond2 t).mpr h7) (iblk V c 0 t) (iblk V c 1 t) (iblk V c 2 t) (iblk V c 3 t) (accAt V c (t.val - 1) (Nat.lt_of_le_of_lt (Nat.sub_le _ _) t.isLt))
  else VO4.read (Elt F) VO4.junk

theorem outAt_C (c : Dev nD) (t : Fin cfg1.N) (h0 : ¬t.val % 8 = 0) (h7 : t.val % 8 = 7) :
    outAt V c t = outC c (grid1.coords t) (ms0 t) (hs0 t) (ms1 t) (hs1 t) (ms2 t) (hs2 t) (ms3 t) (hs3 t) (ms4 t) (hs4 t) scM (Memref.isWhole_whole _) (fun h => h0 ((hcond1 t).mp h)) ((hcond2 t).mpr h7) (iblk V c 0 t) (iblk V c 1 t) (iblk V c 2 t) (iblk V c 3 t) (accAt V c (t.val - 1) (Nat.lt_of_le_of_lt (Nat.sub_le _ _) t.isLt)) :=
  dif_pos h7

/-! ## The region invariant -/

/-- Before position `n`: before the first point the class's invariant (every scoped buffer at anything); afterwards the
    accumulator at what the point before left, the other scoped buffers at anything, the generator register at some state. -/
def PhiS (c : Dev nD) : (n : ℕ) → n ≤ cfg1.N → sProp 𝕄
  | 0, _ => Pipeline.ΦA spec1 c
  | n + 1, hn => iprop(iprop(owns (c : Thread nD τ) scM fullShare (accAt V c n hn) ∗ restS (F := F) c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM fullShare (accAt V c n hn) ∗ restS (F := F) c) ∗ (∃ r, prngReg c r)) := rfl

theorem PhiS_pos (c : Dev nD) (n : ℕ) (h : n ≤ cfg1.N) (hz : n ≠ 0) :
    PhiS V c n h = iprop(iprop(owns (c : Thread nD τ) scM fullShare (accAt V c (n - 1) (by omega)) ∗ restS (F := F) c) ∗ (∃ r, prngReg c r)) := by
  cases n with
  | zero => exact absurd rfl hz
  | succ n => rfl

/-! ## The pipeline's proof data -/

/-- The proof data of the layer-2 pipeline on core `c`: the arrays as the region finds them; after the body at point `t`
    each input's buffer at its block and the output's at `outAt`; the invariant carrying the accumulator; nothing owed;
    full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => outAt V c t
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem q_eq (c : Dev nD) (w : Fin cfg1.W) : (dat V c).q w = fullShare := rfl
theorem owed_eq (c : Dev nD) (t : Fin (cfg1.N + 1)) : (dat V c).owed t = 0 := rfl

theorem Phi_castSucc (c : Dev nD) (t : Fin cfg1.N) :
    (dat V c).Φ t.castSucc = PhiS V c t.val (Nat.le_of_lt t.isLt) := by
  dsimp only [dat]; simp only [Fin.coe_castSucc]

theorem after_in0 (c : Dev nD) (t : Fin cfg1.N) : (dat V c).after 0 t = iblk V c 0 t := by dsimp only [dat]
theorem after_in1 (c : Dev nD) (t : Fin cfg1.N) : (dat V c).after 1 t = iblk V c 1 t := by dsimp only [dat]
theorem after_in2 (c : Dev nD) (t : Fin cfg1.N) : (dat V c).after 2 t = iblk V c 2 t := by dsimp only [dat]
theorem after_in3 (c : Dev nD) (t : Fin cfg1.N) : (dat V c).after 3 t = iblk V c 3 t := by dsimp only [dat]
theorem after_out (c : Dev nD) (t : Fin cfg1.N) : (dat V c).after 4 t = outAt V c t := by dsimp only [dat]

theorem before0 (c : Dev nD) (t : Fin cfg1.N) (d) : (dat V c).before 0 t d = iblk V c 0 t :=
  before0_of V (dat V c) (A_eq V c 0) (after_in0 V c) t d
theorem before1 (c : Dev nD) (t : Fin cfg1.N) (d) : (dat V c).before 1 t d = iblk V c 1 t :=
  before1_of V (dat V c) (A_eq V c 1) (after_in1 V c) t d
theorem before2 (c : Dev nD) (t : Fin cfg1.N) (d) : (dat V c).before 2 t d = iblk V c 2 t :=
  before2_of V (dat V c) (A_eq V c 2) (after_in2 V c) t d
theorem before3 (c : Dev nD) (t : Fin cfg1.N) (d) : (dat V c).before 3 t d = iblk V c 3 t :=
  before3_of V (dat V c) (A_eq V c 3) (after_in3 V c) t d

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

theorem leaves0 (c : Dev nD) (t : Fin cfg1.N) :
    (dat V c).leavesExact 0 t = owns (c : Thread nD τ) (ms0 t) fullShare (iblk V c 0 t) := by
  unfold Dat.leavesExact; rw [liveAt0 t, after_in0]
theorem leaves1 (c : Dev nD) (t : Fin cfg1.N) :
    (dat V c).leavesExact 1 t = owns (c : Thread nD τ) (ms1 t) fullShare (iblk V c 1 t) := by
  unfold Dat.leavesExact; rw [liveAt1 t, after_in1]
theorem leaves2 (c : Dev nD) (t : Fin cfg1.N) :
    (dat V c).leavesExact 2 t = owns (c : Thread nD τ) (ms2 t) fullShare (iblk V c 2 t) := by
  unfold Dat.leavesExact; rw [liveAt2 t, after_in2]
theorem leaves3 (c : Dev nD) (t : Fin cfg1.N) :
    (dat V c).leavesExact 3 t = owns (c : Thread nD τ) (ms3 t) fullShare (iblk V c 3 t) := by
  unfold Dat.leavesExact; rw [liveAt3 t, after_in3]

set_option maxHeartbeats 4800000 in
/-- The body at any point: the inputs' memrefs hold their blocks; `k = t mod 8` says which case the point is in, so that
    case's run applies; the invariant hands the body the accumulator at what the point before left (at anything at the
    first point) and takes it back at this point's contents; where `k ≠ 7` the output's buffer passes through untouched;
    the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3]
  rw [show (dat V c).owesAt () t.succ = (dat V c).owesAt () t.castSucc from rfl]
  rw [show (dat V c).Φ t.succ = PhiS V c (t.val + 1) t.isLt from rfl, PhiS_succ]
  rw [leaves0, leaves1, leaves2, leaves3]
  have hN : t.val < 64 := lt_of_lt_of_eq t.isLt (show cfg1.N = 64 from N_1)
  by_cases h0 : t.val % 8 = 0
  · have h7 : ¬t.val % 8 = 7 := by omega
    have hc2 : ¬cond2 (grid1.coords t) := fun h => h7 ((hcond2 t).mp h)
    rw [Dat.leavesExact_idle (dat V c) 4 t (idleAt4 t hc2) (noFlush4 t hc2)]
    rw [accAt_A V c t h0]
    unfold soutA; (try dsimp only)
    by_cases hz : t.val = 0
    · rw [Phi_castSucc V c t, PhiS_zero V c _ _ hz, PhiA_eq]
      iintro ⟨⟨⟨HS, HR⟩, Hg⟩, Ho, ⟨%d0, H0⟩, ⟨%d1, H1⟩, ⟨%d2, H2⟩, ⟨%d3, H3⟩, ⟨%d4, H4⟩⟩
      iapply ((kernelRunA c (grid1.coords t) _ _ _ _ _ _ _ _ _ _ _ _ ((hcond1 t).mpr h0) hc2 (iblk V c 0 t) (iblk V c 1 t) (iblk V c 2 t) (iblk V c 3 t)).2.2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (scoverA c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4
    · rw [Phi_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩⟩
      iapply ((kernelRunA c (grid1.coords t) _ _ _ _ _ _ _ _ _ _ _ _ ((hcond1 t).mpr h0) hc2 (iblk V c 0 t) (iblk V c 1 t) (iblk V c 2 t) (iblk V c 3 t)).2.2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (scoverA c _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    have hc1 : ¬cond1 (grid1.coords t) := fun h => h0 ((hcond1 t).mp h)
    by_cases h7 : t.val % 8 = 7
    · rw [show (dat V c).leavesExact 4 t = owns (c : Thread nD τ) (ms4 t) fullShare ((dat V c).after 4 t) from by
        unfold Dat.leavesExact; rw [liveAt4 t ((hcond2 t).mpr h7)], after_out, outAt_C V c t h0 h7]
      rw [accAt_C V c t h0 h7]
      unfold soutC outC; (try dsimp only)
      rw [Phi_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩⟩
      iapply ((kernelRunC c (grid1.coords t) _ _ _ _ _ _ _ _ _ _ _ _ hc1 ((hcond2 t).mpr h7) (iblk V c 0 t) (iblk V c 1 t) (iblk V c 2 t) (iblk V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS HR Hg]
      · isplitl [HS HR]
        · isplitl [HS]
          · unfold owns; iexists _; isplitr
            swap; · iexact HS
            ipureintro; exact View.read_writes_of_cover _ _ _ _ _ (scoverC c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC c _ _ _ _ _ _ _ _ _ _ _ _ _ _ _ _ _ _ _ _)
    · have hc2 : ¬cond2 (grid1.coords t) := fun h => h7 ((hcond2 t).mp h)
      rw [Dat.leavesExact_idle (dat V c) 4 t (idleAt4 t hc2) (noFlush4 t hc2)]
      rw [accAt_B V c t h0 h7]
      unfold soutB; (try dsimp only)
      rw [Phi_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩⟩
      iapply ((kernelRunB c (grid1.coords t) _ _ _ _ _ _ _ _ _ _ _ _ hc1 hc2 (iblk V c 0 t) (iblk V c 1 t) (iblk V c 2 t) (iblk V c 3 t) _).2.2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS HR Hg]
      · isplitl [HS HR]
        · isplitl [HS]
          · unfold owns; iexists _; isplitr
            swap; · iexact HS
            ipureintro; exact View.read_writes_of_cover _ _ _ _ _ (scoverB c _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives the class's back: the accumulator's contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨⟨HS, HR⟩, Hg⟩
  isplitl [HS HR]
  · isplitl [HS]
    · iexists _; iexact HS
    iexact HR
  iexact Hg

/-- The same after the last point. -/
theorem hout (c : Dev nD) : (dat V c).Φ (Fin.last cfg1.N) ⊢ Pipeline.ΦA spec1 c :=
  Phi_out V c _ (by rw [Fin.val_last]; have : cfg1.N = 64 := N_1; omega)

end Cert.ReferenceIdeal.L2

end
-- ==== Proof.RefL2Read.lean ====
/- Region 1 of the reference (layer 2): what the runs found, read back as terms of the printed payloads — the
   accumulator after each point as the partial product of the point's blocks added onto what the point before left
   (zero at `k = 0`), and the output block the epilogue stores at `k = 7`. -/
import proofs.«173193_g2000702591456375_pallasbulk_739_11_alg».proof.Proof.RefL2Frame
import Idealize.ShloMosaic.Lib.Pipeline.Value

set_option maxRecDepth 16384

noncomputable section

namespace Cert.ReferenceIdeal.L2

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets, however spelt. -/
theorem hz : (![0, 0] : Fin 2 → Nat) = fun _ => 0 := funext fun a => by fin_cases a <;> rfl

/-- The 512 rows of the `[4096,128]` block `x1` the body loads where the column coordinate is `k`: rows `512 k …`. -/
def xkOf (i : grid1.Coords) (x1 : Vec F S4096x128 .f32) : Vec F S512x128 .f32 :=
  View.ld x1 (Rect.unit (s := S4096x128) (k1_off1 i) S512x128.size (k1_off1_inb i))

theorem soutA_eq (c : Dev nD) (i : grid1.Coords)
    (arg2 : Memref sig .tc .vmem S512x512 .bf16) (harg2 : arg2.IsWhole) (arg3 : Memref sig .tc .vmem S4096x128 .f32) (harg3 : arg3.IsWhole)
    (arg4 : Memref sig .tc .vmem S512x1 .f32) (harg4 : arg4.IsWhole) (arg5 : Memref sig .tc .vmem S512x128 .f32) (harg5 : arg5.IsWhole)
    (arg6 : Memref sig .tc .vmem S512x128 .f32) (harg6 : arg6.IsWhole) (arg7 : Memref sig .tc .vmem S512x128 .f32) (harg7 : arg7.IsWhole)
    (hc1 : cond1 i) (hc2 : ¬cond2 i) (x0 : Vec F S512x512 .bf16) (x1 : Vec F S4096x128 .f32) (x2 : Vec F S512x1 .f32) (x3 : Vec F S512x128 .f32) :
    soutA c i arg2 harg2 arg3 harg3 arg4 harg4 arg5 harg5 arg6 harg6 arg7 harg7 hc1 hc2 x0 x1 x2 x3 = k1_pay2 (xkOf i x1) k1_pay1 x0 := by
  unfold soutA
  rw [View.read_writes_eq_canon _ _ _ (scoverA c i arg2 harg2 arg3 harg3 arg4 harg4 arg5 harg5 arg6 harg6 arg7 harg7 hc1 hc2 x0 x1 x2 x3)]
  unfold kernelRunA
  dsimp only
  try sl_unfold_words
  rw [View.canon_cons_unit_zero hz, View.readCov_unit_zero (S := S512x128) _ hz]
  simp only [View.readAt_eq_ld, harg2.read_unread, harg3.read_unread, View.ld_unit_zero (S := S512x512) hz]
  rfl

theorem soutB_eq (c : Dev nD) (i : grid1.Coords)
    (arg2 : Memref sig .tc .vmem S512x512 .bf16) (harg2 : arg2.IsWhole) (arg3 : Memref sig .tc .vmem S4096x128 .f32) (harg3 : arg3.IsWhole)
    (arg4 : Memref sig .tc .vmem S512x1 .f32) (harg4 : arg4.IsWhole) (arg5 : Memref sig .tc .vmem S512x128 .f32) (harg5 : arg5.IsWhole)
    (arg6 : Memref sig .tc .vmem S512x128 .f32) (harg6 : arg6.IsWhole) (arg7 : Memref sig .tc .vmem S512x128 .f32) (harg7 : arg7.IsWhole)
    (hc1 : ¬cond1 i) (hc2 : ¬cond2 i) (x0 : Vec F S512x512 .bf16) (x1 : Vec F S4096x128 .f32) (x2 : Vec F S512x1 .f32) (x3 : Vec F S512x128 .f32) (xs : Vec F S512x128 .f32) :
    soutB c i arg2 harg2 arg3 harg3 arg4 harg4 arg5 harg5 arg6 harg6 arg7 harg7 hc1 hc2 x0 x1 x2 x3 xs = k1_pay2 (xkOf i x1) xs x0 := by
  unfold soutB
  rw [View.read_writes_eq_canon _ _ _ (scoverB c i arg2 harg2 arg3 harg3 arg4 harg4 arg5 harg5 arg6 harg6 arg7 harg7 hc1 hc2 x0 x1 x2 x3 xs)]
  unfold kernelRunB
  dsimp only
  try sl_unfold_words
  rw [View.canon_unit_zero hz]
  simp only [View.readAt_eq_ld, harg2.read_unread, harg3.read_unread, harg7.read_unread, View.ld_unit_zero (S := S512x512) hz, View.ld_unit_zero (S := S512x128) hz]
  rfl

theorem soutC_eq (c : Dev nD) (i : grid1.Coords)
    (arg2 : Memref sig .tc .vmem S512x512 .bf16) (harg2 : arg2.IsWhole) (arg3 : Memref sig .tc .vmem S4096x128 .f32) (harg3 : arg3.IsWhole)
    (arg4 : Memref sig .tc .vmem S512x1 .f32) (harg4 : arg4.IsWhole) (arg5 : Memref sig .tc .vmem S512x128 .f32) (harg5 : arg5.IsWhole)
    (arg6 : Memref sig .tc .vmem S512x128 .f32) (harg6 : arg6.IsWhole) (arg7 : Memref sig .tc .vmem S512x128 .f32) (harg7 : arg7.IsWhole)
    (hc1 : ¬cond1 i) (hc2 : cond2 i) (x0 : Vec F S512x512 .bf16) (x1 : Vec F S4096x128 .f32) (x2 : Vec F S512x1 .f32) (x3 : Vec F S512x128 .f32) (xs : Vec F S512x128 .f32) :
    soutC c i arg2 harg2 arg3 harg3 arg4 harg4 arg5 harg5 arg6 harg6 arg7 harg7 hc1 hc2 x0 x1 x2 x3 xs = k1_pay2 (xkOf i x1) xs x0 := by
  unfold soutC
  rw [View.read_writes_eq_canon _ _ _ (scoverC c i arg2 harg2 arg3 harg3 arg4 harg4 arg5 harg5 arg6 harg6 arg7 harg7 hc1 hc2 x0 x1 x2 x3 xs)]
  unfold kernelRunC
  dsimp only
  try sl_unfold_words
  rw [View.canon_unit_zero hz]
  simp only [View.readAt_eq_ld, harg2.read_unread, harg3.read_unread, harg7.read_unread, View.ld_unit_zero (S := S512x512) hz, View.ld_unit_zero (S := S512x128) hz]
  rfl

theorem outC_eq (c : Dev nD) (i : grid1.Coords)
    (arg2 : Memref sig .tc .vmem S512x512 .bf16) (harg2 : arg2.IsWhole) (arg3 : Memref sig .tc .vmem S4096x128 .f32) (harg3 : arg3.IsWhole)
    (arg4 : Memref sig .tc .vmem S512x1 .f32) (harg4 : arg4.IsWhole) (arg5 : Memref sig .tc .vmem S512x128 .f32) (harg5 : arg5.IsWhole)
    (arg6 : Memref sig .tc .vmem S512x128 .f32) (harg6 : arg6.IsWhole) (arg7 : Memref sig .tc .vmem S512x128 .f32) (harg7 : arg7.IsWhole)
    (hc1 : ¬cond1 i) (hc2 : cond2 i) (x0 : Vec F S512x512 .bf16) (x1 : Vec F S4096x128 .f32) (x2 : Vec F S512x1 .f32) (x3 : Vec F S512x128 .f32) (xs : Vec F S512x128 .f32) :
    outC c i arg2 harg2 arg3 harg3 arg4 harg4 arg5 harg5 arg6 harg6 arg7 harg7 hc1 hc2 x0 x1 x2 x3 xs = k1_pay3 (k1_pay2 (xkOf i x1) xs x0) x2 x3 := by
  unfold outC
  rw [View.read_writes_eq_canon _ _ _ (coverC c i arg2 harg2 arg3 harg3 arg4 harg4 arg5 harg5 arg6 harg6 arg7 harg7 hc1 hc2 x0 x1 x2 x3 xs)]
  unfold kernelRunC
  dsimp only
  try sl_unfold_words
  rw [View.canon_unit_zero hz, View.readCov_unit_zero (S := S512x128) _ hz]
  simp only [View.readAt_eq_ld, harg2.read_unread, harg3.read_unread, harg4.read_unread, harg5.read_unread, harg7.read_unread, View.ld_unit_zero (S := S512x512) hz, View.ld_unit_zero (S := S512x128) hz, View.ld_unit_zero (S := S512x1) hz]
  rfl

variable (V : (c : Dev nD) → (b : Ref sig .tc) → Buf (Elt F) ((c : Thread nD τ).loc b))

/-- The 512-row tile of window 1's block the body loads at point `t = 8 i + k`: rows `512 k … 512 k + 511` of the
    `[4096,128]` array. -/
def xk (c : Dev nD) (t : Fin cfg1.N) : Vec F S512x128 .f32 :=
  View.ld (iblk V c 1 t) (Rect.unit (s := S4096x128) (k1_off1 (grid1.coords t)) S512x128.size (k1_off1_inb (grid1.coords t)))

theorem xk_eq (c : Dev nD) (t : Fin cfg1.N) : xk V c t = xkOf (grid1.coords t) (iblk V c 1 t) := rfl

/-- At `k = 0` the accumulator is the first partial product added onto zero. -/
theorem accAt_first (c : Dev nD) (t : Fin cfg1.N) (h : t.val % 8 = 0) :
    accAt V c t.val t.isLt = k1_pay2 (xk V c t) k1_pay1 (iblk V c 0 t) := by
  rw [accAt_A V c t h, soutA_eq]; rfl

/-- At `k ≠ 0` the accumulator is the point's partial product added onto what the point before left. -/
theorem accAt_next (c : Dev nD) (t : Fin cfg1.N) (h : t.val % 8 ≠ 0) :
    accAt V c t.val t.isLt = k1_pay2 (xk V c t) (accAt V c (t.val - 1) (by omega)) (iblk V c 0 t) := by
  by_cases h7 : t.val % 8 = 7
  · rw [accAt_C V c t h h7, soutC_eq]; rfl
  · rw [accAt_B V c t h h7, soutB_eq]; rfl

/-- At `k = 7` the output's staging buffer holds the epilogue of the finished accumulator and the point's blocks of
    windows 2 and 3. -/
theorem after4_last (c : Dev nD) (t : Fin cfg1.N) (h7 : t.val % 8 = 7) :
    (dat V c).after 4 t = k1_pay3 (accAt V c t.val t.isLt) (iblk V c 2 t) (iblk V c 3 t) := by
  have h0 : ¬t.val % 8 = 0 := by omega
  rw [after_out, outAt_C V c t h0 h7, outC_eq, accAt_C V c t h0 h7, soutC_eq]

end Cert.ReferenceIdeal.L2

end
-- ==== Proof.RefL2Value.lean ====
/-
  The second program's layer 2 (its second region), at any entry contents: what its result array holds when the region
  is left. A grid point is a pair (row tile i, block k). The scratch accumulates, over the eight blocks of a row tile,
  the products of B's 512×512 blocks with the matching 512-row tiles of z2: after the last block it holds the whole
  product B_i · z2 (the blocks regroup the sum over the contracted axis). The epilogue's store at the last block is then
  the specification's tile, the write-backs tile the array, and the array ends at the specification's function.
-/
import proofs.«173193_g2000702591456375_pallasbulk_739_11_alg».proof.Proof.RefL2Read
import proofs.«173193_g2000702591456375_pallasbulk_739_11_alg».proof.Proof.Spec
import proofs.«173193_g2000702591456375_pallasbulk_739_11_alg».proof.Proof.KerTiles
import proofs.«173193_g2000702591456375_pallasbulk_739_11_alg».proof.Proof.BridgeTiles
import Idealize.ShloMosaic.Lib.Pipeline.Value
import Idealize.ShloMosaic.Lib.Tactic

set_option maxRecDepth 16384

noncomputable section

namespace Cert.ReferenceIdeal.L2

open Idealize.ShloMosaic Idealize.ShloMosaic.TcCoe Idealize.SL.Sem Idealize.ShloMosaic.ValueIdx
open Idealize.ShloMosaic.Pipeline (Dat)
open Cert.ReferenceIdeal Cert.ReferenceIdeal.Gen Cert.Sage
open Cert.KernelIdeal.Hand (apply_congr2 tile128_apply tile4096_apply tile1_apply stack128_apply)

variable (V : (c : Dev nD) → (b : Ref sig .tc) → Buf (Elt Ideal) ((c : Thread nD τ).loc b))

/-- A grid point's row tile and its block along the contracted axis. -/
def rowOf (t : Fin cfg1.N) : Fin 8 := ⟨t.val / 8, by have := t.isLt; have h : cfg1.N = 64 := N_1; omega⟩
def blkOf (t : Fin cfg1.N) : Fin 8 := ⟨t.val % 8, Nat.mod_lt _ (by decide)⟩
/-- The point of row tile `i` and block `k`. -/
def ptOf (i : Fin 8) (k : Fin 8) : Fin cfg1.N := ⟨8 * i.val + k.val, by have := i.isLt; have := k.isLt; have h : cfg1.N = 64 := N_1; omega⟩

/-- The printed index maps and the load's row offset over the grid. -/
theorem idx1 : ∀ t : Fin cfg1.N,
    (win1_0.index t (0 : Fin 2) = t.val / 8 ∧ win1_0.index t (1 : Fin 2) = t.val % 8)
    ∧ (win1_1.index t (0 : Fin 2) = 0 ∧ win1_1.index t (1 : Fin 2) = 0)
    ∧ (win1_2.index t (0 : Fin 2) = t.val / 8 ∧ win1_2.index t (1 : Fin 2) = 0)
    ∧ (win1_3.index t (0 : Fin 2) = t.val / 8 ∧ win1_3.index t (1 : Fin 2) = 0)
    ∧ (win1_4.index t (0 : Fin 2) = t.val / 8 ∧ win1_4.index t (1 : Fin 2) = 0)
    ∧ (k1_off1 (grid1.coords t) (0 : Fin 2) = 512 * (t.val % 8) ∧ k1_off1 (grid1.coords t) (1 : Fin 2) = 0) :=
  (by decide +kernel : ∀ t : Fin grid1.N, _)

/-! ## The input windows' blocks -/

/-- Window 0's block at (i, k): rows 512 i …, columns 512 k … of B. -/
theorem blkB_apply (c : Dev nD) (t : Fin cfg1.N) (y : S512x512.Idx) (k : S4096x4096.Idx)
    (h0 : (k 0).val = 512 * (t.val / 8) + (y 0).val) (h1 : (k 1).val = 512 * (t.val % 8) + (y 1).val) :
    (iblk V c 0 t : Vec Ideal S512x512 .bf16) y = (V c main_v2 : S4096x4096.Idx → EReal) k := by
  obtain ⟨e0, e1⟩ := (idx1 t).1
  unfold iblk
  rw [View.read_apply]
  refine apply_congr2 (V c main_v2) _ k ?_ ?_
  · show win1_0.index t (0 : Fin 2) * 512 + 1 * (y 0).val = (k 0).val; rw [e0, h0]; omega
  · show win1_0.index t (1 : Fin 2) * 512 + 1 * (y 1).val = (k 1).val; rw [e1, h1]; omega

theorem blkZ (c : Dev nD) (t : Fin cfg1.N) : (iblk V c 1 t : Vec Ideal S4096x128 .f32) = V c main_v23_0 := by
  obtain ⟨e0, e1⟩ := (idx1 t).2.1
  funext y
  unfold iblk
  rw [View.read_apply]
  refine apply_congr2 (V c main_v23_0) _ y ?_ ?_
  · show win1_1.index t (0 : Fin 2) * 4096 + 1 * (y 0).val = (y 0).val; rw [e0]; omega
  · show win1_1.index t (1 : Fin 2) * 128 + 1 * (y 1).val = (y 1).val; rw [e1]; omega

theorem blkD (c : Dev nD) (t : Fin cfg1.N) : (iblk V c 2 t : Vec Ideal S512x1 .f32) = tile1 (V c main_v5) (rowOf t) := by
  obtain ⟨e0, e1⟩ := (idx1 t).2.2.1
  funext y
  unfold iblk
  rw [View.read_apply]
  refine (tile1_apply (V c main_v5) (rowOf t) y _ ?_ ?_).symm
  · show win1_2.index t (0 : Fin 2) * 512 + 1 * (y 0).val = 512 * (t.val / 8) + (y 0).val; rw [e0]; omega
  · show win1_2.index t (1 : Fin 2) * 1 + 1 * (y 1).val = (y 1).val; rw [e1]; omega

theorem blkS (c : Dev nD) (t : Fin cfg1.N) : (iblk V c 3 t : Vec Ideal S512x128 .f32) = tile128 (V c main_v23_1) (rowOf t) := by
  obtain ⟨e0, e1⟩ := (idx1 t).2.2.2.1
  funext y
  unfold iblk
  rw [View.read_apply]
  refine (tile128_apply (V c main_v23_1) (rowOf t) y _ ?_ ?_).symm
  · show win1_3.index t (0 : Fin 2) * 512 + 1 * (y 0).val = 512 * (t.val / 8) + (y 0).val; rw [e0]; omega
  · show win1_3.index t (1 : Fin 2) * 128 + 1 * (y 1).val = (y 1).val; rw [e1]; omega

/-- The rows of z2 the body loads at block k: rows 512 k …. -/
theorem xk_apply (c : Dev nD) (t : Fin cfg1.N) (y : S512x128.Idx) (k : S4096x128.Idx)
    (h0 : (k 0).val = 512 * (t.val % 8) + (y 0).val) (h1 : (k 1).val = (y 1).val) :
    (xk V c t : Vec Ideal S512x128 .f32) y = (V c main_v23_0 : S4096x128.Idx → EReal) k := by
  obtain ⟨e0, e1⟩ := (idx1 t).2.2.2.2.2
  unfold xk
  rw [blkZ V c t]
  show (V c main_v23_0 : S4096x128.Idx → EReal) ((Rect.unit (s := S4096x128) (k1_off1 (grid1.coords t)) S512x128.size (k1_off1_inb (grid1.coords t))).idx y) = _
  refine apply_congr2 (V c main_v23_0) _ k ?_ ?_
  · simp only [LoadRect.idx_apply, Rect.emb_apply, Rect.off_unit, Rect.stride_unit, Nat.one_mul]; rw [e0, h0]
  · simp only [LoadRect.idx_apply, Rect.emb_apply, Rect.off_unit, Rect.stride_unit, Nat.one_mul]; rw [e1, h1]; omega

/-! ## The accumulation over a row tile's eight blocks is the whole product -/

theorem accAt_congr (c : Dev nD) {n n' : ℕ} (e : n = n') (h : n < cfg1.N) (h' : n' < cfg1.N) : accAt V c n h = accAt V c n' h' := by
  subst e; rfl

theorem ptOf_val (i k : Fin 8) : (ptOf i k).val = 8 * i.val + k.val := rfl
theorem ptOf_div (i k : Fin 8) : (ptOf i k).val / 8 = i.val := by rw [ptOf_val]; have := k.isLt; omega
theorem ptOf_mod (i k : Fin 8) : (ptOf i k).val % 8 = k.val := by rw [ptOf_val]; have := k.isLt; omega

/-- The scratch along row tile `i`: after block `n`. -/
def accRow (c : Dev nD) (i : Fin 8) (n : ℕ) : Vec Ideal S512x128 .f32 :=
  if h : 8 * i.val + n < cfg1.N then accAt V c (8 * i.val + n) h else k1_pay1 (F := Ideal)

theorem accRow_eq (c : Dev nD) (i k : Fin 8) : accRow V c i k.val = accAt V c (ptOf i k).val (ptOf i k).isLt := by
  unfold accRow; exact dif_pos (ptOf i k).isLt

theorem acc_last (c : Dev nD) (i : Fin 8) :
    (accAt V c (ptOf i 7).val (ptOf i 7).isLt : Vec Ideal S512x128 .f32)
      = Bridge.product (tile4096 (V c main_v2) i) (V c main_v23_0) := by
  rw [← accRow_eq V c i 7]
  refine Fold.acc_eq_product (tile4096 (V c main_v2) i) (V c main_v23_0)
    (fun k => iblk V c 0 (ptOf i k)) (fun k => xk V c (ptOf i k)) ?_ ?_ (k1_pay1 (F := Ideal)) Bridge.zero_l2
    (accRow V c i) ?_ ?_
  · intro k r j
    have hr := r.isLt; have hj := j.isLt; have hi := i.isLt; have hk := k.isLt
    let K : S4096x4096.Idx := ix2 ⟨512 * i.val + r.val, by omega⟩ (Fold.pos k j)
    refine (blkB_apply V c (ptOf i k) (ix2 r j) K ?_ ?_).trans (tile4096_apply (V c main_v2) i (ix2 r (Fold.pos k j)) K rfl rfl).symm
    · show 512 * i.val + r.val = 512 * ((ptOf i k).val / 8) + r.val; rw [ptOf_div]
    · show 512 * k.val + j.val = 512 * ((ptOf i k).val % 8) + j.val; rw [ptOf_mod]
  · intro k j cc
    refine xk_apply V c (ptOf i k) (ix2 j cc) (ix2 (Fold.pos k j) cc) ?_ rfl
    show 512 * k.val + j.val = 512 * ((ptOf i k).val % 8) + j.val; rw [ptOf_mod]
  · show accRow V c i (0 : Fin 8).val = _
    rw [accRow_eq V c i 0, accAt_first V c (ptOf i 0) (ptOf_mod i 0), Bridge.step_l2]
  · intro k h
    show accRow V c i (⟨k + 1, h⟩ : Fin 8).val = _
    rw [accRow_eq V c i ⟨k + 1, h⟩, accAt_next V c (ptOf i ⟨k + 1, h⟩) (by rw [ptOf_mod]; exact Nat.succ_ne_zero k), Bridge.step_l2]
    congr 1
    have hk : k < 8 := by omega
    rw [show accRow V c i k = accRow V c i (⟨k, hk⟩ : Fin 8).val from rfl, accRow_eq V c i ⟨k, hk⟩]
    exact accAt_congr V c (by rw [ptOf_val, ptOf_val]; show 8 * i.val + (k + 1) - 1 = 8 * i.val + k; omega) _ _

/-! ## What the last block of a row tile writes back, and the whole array -/

theorem out_last (c : Dev nD) (i : Fin 8) :
    ((dat V c).after 4 (ptOf i 7) : Vec Ideal S512x128 .f32)
      = Cert.KernelIdeal.Gen.k1_pay1 (F := Ideal) (tile4096 (V c main_v2) i) (V c main_v23_0) (tile1 (V c main_v5) i) (tile128 (V c main_v23_1) i) := by
  have hr : rowOf (ptOf i 7) = i := Fin.ext (ptOf_div i 7)
  rw [after4_last V c (ptOf i 7) (ptOf_mod i 7), acc_last V c i, blkD V c (ptOf i 7), blkS V c (ptOf i 7), hr]
  exact Bridge.out_tile _ _ _ _

theorem read_stack4 (T : Fin 8 → S512x128.Idx → EReal) (t : Fin cfg1.N) :
    ((cfg1.win 4).blk t).view.read (Elt Ideal) (stack128 T) = T (rowOf t) := by
  obtain ⟨e0, e1⟩ := (idx1 t).2.2.2.2.1
  funext y
  rw [View.read_apply]
  refine stack128_apply T (rowOf t) y _ ?_ ?_
  · show win1_4.index t (0 : Fin 2) * 512 + 1 * (y 0).val = 512 * (t.val / 8) + (y 0).val; rw [e0]; omega
  · show win1_4.index t (1 : Fin 2) * 128 + 1 * (y 1).val = (y 1).val; rw [e1]; omega

theorem flushed4 (c : Dev nD) (t : Fin cfg1.N) (hf : (cfg1.win 4).flush t = true) :
    (dat V c).flushed 4 t = ((cfg1.win 4).blk t).view.read (Elt Ideal)
      (out (V c main_v2) (V c main_v23_0) (V c main_v5) (V c main_v23_1)) := by
  have h7 : t.val % 8 = 7 := (flush1_4 t).mp hf
  have ht : t = ptOf (rowOf t) 7 := Fin.ext (by rw [ptOf_val]; show t.val = 8 * (t.val / 8) + 7; omega)
  show (cfg1.win 4).cut (grid1.coords t) ((dat V c).after 4 t) = _
  unfold out
  rw [read_stack4]
  rw [ht, out_last V c (rowOf t)]
  have hr : rowOf (ptOf (rowOf t) 7) = rowOf t := Fin.ext (ptOf_div (rowOf t) 7)
  rw [hr]
  rfl

theorem cover4 (i : S4096x128.Idx) : ∃ t : Fin cfg1.N, (cfg1.win 4).flush t = true ∧ i ∈ ((cfg1.win 4).blk t).view.set := by
  have h0 : (i 0).val < 4096 := idx2_lt0 i
  have h1 : (i 1).val < 128 := idx2_lt1 i
  let ii : Fin 8 := ⟨(i 0).val / 512, by omega⟩
  refine ⟨ptOf ii 7, (flush1_4 _).mpr (ptOf_mod ii 7), ?_⟩
  obtain ⟨e0, e1⟩ := (idx1 (ptOf ii 7)).2.2.2.2.1
  have ev : (ptOf ii 7).val / 8 = (i 0).val / 512 := ptOf_div ii 7
  show i ∈ ((View.whole main_v24).slice (win1_4.rect (ptOf ii 7))).set
  rw [View.set_slice_whole, Rect.mem_set_unit]
  intro a
  match a with
  | ⟨0, _⟩ => show win1_4.index (ptOf ii 7) (0 : Fin 2) * 512 ≤ (i 0).val ∧ (i 0).val < win1_4.index (ptOf ii 7) (0 : Fin 2) * 512 + 512; rw [e0, ev]; omega
  | ⟨1, _⟩ => show win1_4.index (ptOf ii 7) (1 : Fin 2) * 128 ≤ (i 1).val ∧ (i 1).val < win1_4.index (ptOf ii 7) (1 : Fin 2) * 128 + 128; rw [e1]; omega

/-- Layer 2's result array, whole. -/
theorem final4 (c : Dev nD) : (dat V c).arrAt 4 cfg1.N = out (V c main_v2) (V c main_v23_0) (V c main_v5) (V c main_v23_1) :=
  (dat V c).arrAt_eq_of_cover 4 _ (fun t hf => flushed4 V c t hf) cover4

end Cert.ReferenceIdeal.L2

end
-- ==== Proof.LibSetScatter.lean ====
/-
  A scatter whose body returns the update (`x.at[...].set(v)`), read element by element.

  `Host.scatter` is a left fold over every update index in row-major order. When no two updates
  land at the same element, the order does not matter and the fold never has to be run: the result
  at an element is the update that lands there, or the operand's element when none does. This
  module proves that for any dimension numbers, by induction over the LIST the fold runs over, and
  derives the two placements a padded copy `zeros.at[:r, :c].set(a)` is made of: a full-size
  update placed at the origin, and a smaller update placed as the leading block.
-/
import Idealize.ShloMosaic.PureOps.ShapeOps
import Idealize.ShloMosaic.Lib.ValueIdx

namespace Idealize.ShloMosaic.SetScatter

variable {s si u : Shape} {α : Type} {w : Nat}

/-! ### Where an update lands -/

/-- Update index `j` lands at `i` exactly when, on every axis, start plus window coordinate is
    `i`'s coordinate. -/
theorem resultIdx?_eq_some_iff (d : ScatterDims s si u) (j : u.Idx) (idx : IVec si w) (i : s.Idx) :
    d.resultIdx? j idx = some i ↔ ∀ a, d.start j idx a + d.window j a = ((i a).val : Int) := by
  unfold ScatterDims.resultIdx?
  constructor
  · intro h a
    split at h
    · next hb =>
      have hi := Option.some.inj h
      have := congrArg (fun f : s.Idx => (f a).val) hi
      simp only at this
      have h0 := (hb a).1
      omega
    · exact absurd h (by simp)
  · intro h
    have hb : ∀ a, 0 ≤ d.start j idx a + d.window j a ∧ d.start j idx a + d.window j a < s.size a := by
      intro a; have := h a; have := (i a).isLt; omega
    rw [dif_pos hb]
    congr 1
    funext a
    apply Fin.ext
    have := h a
    simp only
    omega

/-- The sufficient half: an update whose start plus window coordinate is `i`'s coordinate on every
    axis lands at `i`. -/
theorem resultIdx?_eq_some (d : ScatterDims s si u) {j : u.Idx} {idx : IVec si w} {i : s.Idx}
    (h : ∀ a, d.start j idx a + d.window j a = ((i a).val : Int)) : d.resultIdx? j idx = some i :=
  (resultIdx?_eq_some_iff d j idx i).2 h

/-! ### The fold, over any list of update indices -/

/-- One step of a replacing scatter: the update at `j` replaces the element it lands at, and is
    dropped when it lands outside the operand. -/
def step (d : ScatterDims s si u) (idx : IVec si w) (upd : u.Idx → α) (r : s.Idx → α) (j : u.Idx) : s.Idx → α :=
  match d.resultIdx? j idx with
  | some i => fun i' => if i' = i then upd j else r i'
  | none => r

/-- A step reads the update at the element the update lands at. -/
theorem step_of_lands (d : ScatterDims s si u) (idx : IVec si w) (upd : u.Idx → α) (r : s.Idx → α) {j : u.Idx} {i : s.Idx}
    (h : d.resultIdx? j idx = some i) : step d idx upd r j i = upd j := by
  unfold step; rw [h]; exact if_pos rfl

/-- A step leaves every element but the one the update lands at. -/
theorem step_of_not_lands (d : ScatterDims s si u) (idx : IVec si w) (upd : u.Idx → α) (r : s.Idx → α) {j : u.Idx} {i : s.Idx}
    (h : d.resultIdx? j idx ≠ some i) : step d idx upd r j i = r i := by
  unfold step
  cases hres : d.resultIdx? j idx with
  | none => rfl
  | some i' =>
    have hne : i ≠ i' := fun e => h (e ▸ hres)
    exact if_neg hne

/-- Steps over a list none of whose updates lands at `i` leave the element at `i`. -/
theorem foldl_step_of_not_lands (d : ScatterDims s si u) (idx : IVec si w) (upd : u.Idx → α) (l : List u.Idx)
    (x : s.Idx → α) (i : s.Idx) (h : ∀ j ∈ l, d.resultIdx? j idx ≠ some i) :
    l.foldl (step d idx upd) x i = x i := by
  induction l generalizing x with
  | nil => rfl
  | cons j l ih =>
    rw [List.foldl_cons, ih _ fun j' hj' => h j' (List.mem_cons_of_mem _ hj'),
      step_of_not_lands d idx upd x (h j List.mem_cons_self)]

/-- Steps over a list without repetition, in which `j` is the one update that lands at `i`,
    leave the update at `j` there: whatever the order of the list. -/
theorem foldl_step_of_lands (d : ScatterDims s si u) (idx : IVec si w) (upd : u.Idx → α) (l : List u.Idx) (hl : l.Nodup)
    (x : s.Idx → α) {j : u.Idx} {i : s.Idx} (hj : j ∈ l) (h : d.resultIdx? j idx = some i)
    (huniq : ∀ j' ∈ l, d.resultIdx? j' idx = some i → j' = j) :
    l.foldl (step d idx upd) x i = upd j := by
  induction l generalizing x with
  | nil => cases hj
  | cons j0 l ih =>
    rw [List.foldl_cons]
    have hnd := List.nodup_cons.1 hl
    rcases List.mem_cons.1 hj with e | hj'
    · subst e
      rw [foldl_step_of_not_lands d idx upd l _ i fun j' hj' e' => hnd.1 (huniq j' (List.mem_cons_of_mem _ hj') e' ▸ hj'),
        step_of_lands d idx upd x h]
    · exact ih hnd.2 _ hj' fun j' hj'' => huniq j' (List.mem_cons_of_mem _ hj'')

/-- The replacing scatter is the steps taken over the update indices in row-major order. -/
theorem scatter_eq_foldl_step (d : ScatterDims s si u) (x : s.Idx → α) (idx : IVec si w) (upd : u.Idx → α) :
    Host.scatter d (fun _ b => b) x idx upd
      = ((List.finRange u.numel).map u.rowMajor.symm).foldl (step d idx upd) x := by
  rw [List.foldl_map]; rfl

/-! ### The replacing scatter, element by element -/

/-- Where exactly one update lands, the replacing scatter holds that update. -/
theorem scatter_apply_of_lands (d : ScatterDims s si u) (x : s.Idx → α) (idx : IVec si w) (upd : u.Idx → α)
    {j : u.Idx} {i : s.Idx} (h : d.resultIdx? j idx = some i) (huniq : ∀ j', d.resultIdx? j' idx = some i → j' = j) :
    Host.scatter d (fun _ b => b) x idx upd i = upd j := by
  rw [scatter_eq_foldl_step]
  exact foldl_step_of_lands d idx upd _ ((List.nodup_finRange _).map u.rowMajor.symm.injective) x
    (List.mem_map.2 ⟨u.rowMajor j, List.mem_finRange _, u.rowMajor.symm_apply_apply j⟩) h fun j' _ => huniq j'

/-- Where no update lands, the replacing scatter holds the operand's element. -/
theorem scatter_apply_of_not_lands (d : ScatterDims s si u) (x : s.Idx → α) (idx : IVec si w) (upd : u.Idx → α)
    {i : s.Idx} (h : ∀ j, d.resultIdx? j idx ≠ some i) :
    Host.scatter d (fun _ b => b) x idx upd i = x i := by
  rw [scatter_eq_foldl_step]
  exact foldl_step_of_not_lands d idx upd _ x i fun j _ => h j

/-- The replacing scatter when the landing map is injective on the updates that land (two updates
    landing at one element are the same update): the update that lands at `i`. -/
theorem scatter_apply_of_injOn (d : ScatterDims s si u) (x : s.Idx → α) (idx : IVec si w) (upd : u.Idx → α)
    (hinj : ∀ j j' i, d.resultIdx? j idx = some i → d.resultIdx? j' idx = some i → j' = j)
    {j : u.Idx} {i : s.Idx} (h : d.resultIdx? j idx = some i) :
    Host.scatter d (fun _ b => b) x idx upd i = upd j :=
  scatter_apply_of_lands d x idx upd h fun j' h' => hinj j j' i h h'

/-! ### Updates placed by an injective map of indices -/

/-- When update `j` lands at `e j` for an injective `e`, the replacing scatter holds `upd j` at `e j`. -/
theorem scatter_apply_emb (d : ScatterDims s si u) (x : s.Idx → α) (idx : IVec si w) (upd : u.Idx → α)
    (e : u.Idx → s.Idx) (he : Function.Injective e) (h : ∀ j, d.resultIdx? j idx = some (e j)) (j : u.Idx) :
    Host.scatter d (fun _ b => b) x idx upd (e j) = upd j :=
  scatter_apply_of_lands d x idx upd (h j) fun j' h' => he (Option.some.inj ((h j').symm.trans h'))

/-- When update `j` lands at `e j`, the replacing scatter holds the operand's element off `e`'s range. -/
theorem scatter_apply_off_range (d : ScatterDims s si u) (x : s.Idx → α) (idx : IVec si w) (upd : u.Idx → α)
    (e : u.Idx → s.Idx) (h : ∀ j, d.resultIdx? j idx = some (e j)) {i : s.Idx} (hi : ∀ j, e j ≠ i) :
    Host.scatter d (fun _ b => b) x idx upd i = x i :=
  scatter_apply_of_not_lands d x idx upd fun j e' => hi j (Option.some.inj ((h j).symm.trans e'))

/-! ### Identity placement: a full-size update at the origin -/

/-- A full-size update each of whose elements lands at its own index replaces the whole operand:
    the replacing scatter IS the update. -/
theorem scatter_eq_update_of_lands_self (d : ScatterDims s si s) (x : s.Idx → α) (idx : IVec si w) (upd : s.Idx → α)
    (h : ∀ j, d.resultIdx? j idx = some j) : Host.scatter d (fun _ b => b) x idx upd = upd :=
  funext fun j => scatter_apply_emb d x idx upd id Function.injective_id h j

/-- The same from the coordinates: start plus window coordinate is the update's own coordinate on
    every axis. -/
theorem scatter_eq_update (d : ScatterDims s si s) (x : s.Idx → α) (idx : IVec si w) (upd : s.Idx → α)
    (h : ∀ j a, d.start j idx a + d.window j a = ((j a).val : Int)) : Host.scatter d (fun _ b => b) x idx upd = upd :=
  scatter_eq_update_of_lands_self d x idx upd fun j => resultIdx?_eq_some d (h j)

/-! ### Leading block: a smaller update at the origin -/

/-- The index of `s` with the coordinates of the index `j` of `u`, for `u` of the same rank and no
    larger on any axis. -/
def lead (hr : u.rank = s.rank) (hle : ∀ a : Fin u.rank, u.size a ≤ s.size (a.cast hr)) (j : u.Idx) : s.Idx :=
  fun a => ⟨(j (a.cast hr.symm)).val, Nat.lt_of_lt_of_le (j (a.cast hr.symm)).isLt (hle (a.cast hr.symm))⟩

/-- `lead` keeps every coordinate. -/
theorem lead_val (hr : u.rank = s.rank) (hle : ∀ a : Fin u.rank, u.size a ≤ s.size (a.cast hr)) (j : u.Idx) (a : Fin s.rank) :
    (lead hr hle j a).val = (j (a.cast hr.symm)).val := rfl

/-- Two indices with the same image under `lead` are equal. -/
theorem lead_injective (hr : u.rank = s.rank) (hle : ∀ a : Fin u.rank, u.size a ≤ s.size (a.cast hr)) :
    Function.Injective (lead (s := s) hr hle) := by
  intro j j' e
  funext a
  apply Fin.ext
  have := congrArg (fun f : s.Idx => (f (a.cast hr)).val) e
  exact this

/-- An index of `s` every coordinate of which is inside `u`'s extents, as an index of `u`. -/
def unlead (hr : u.rank = s.rank) (i : s.Idx) (hi : ∀ a : Fin u.rank, (i (a.cast hr)).val < u.size a) : u.Idx :=
  fun a => ⟨(i (a.cast hr)).val, hi a⟩

/-- `lead` of `unlead` is the index. -/
theorem lead_unlead (hr : u.rank = s.rank) (hle : ∀ a : Fin u.rank, u.size a ≤ s.size (a.cast hr)) (i : s.Idx)
    (hi : ∀ a : Fin u.rank, (i (a.cast hr)).val < u.size a) : lead hr hle (unlead hr i hi) = i := rfl

/-- A smaller update each of whose elements lands at the index with its own coordinates fills the
    leading block: inside `u`'s extents the replacing scatter holds the update at the same
    coordinates, elsewhere the operand's element. -/
theorem scatter_apply_lead (d : ScatterDims s si u) (x : s.Idx → α) (idx : IVec si w) (upd : u.Idx → α)
    (hr : u.rank = s.rank) (hle : ∀ a : Fin u.rank, u.size a ≤ s.size (a.cast hr))
    (h : ∀ j, d.resultIdx? j idx = some (lead hr hle j)) (i : s.Idx) :
    Host.scatter d (fun _ b => b) x idx upd i
      = if hi : ∀ a : Fin u.rank, (i (a.cast hr)).val < u.size a then upd (unlead hr i hi) else x i := by
  split
  · next hi =>
    have := scatter_apply_emb d x idx upd (lead hr hle) (lead_injective hr hle) h (unlead hr i hi)
    rwa [lead_unlead] at this
  · next hi =>
    refine scatter_apply_off_range d x idx upd (lead hr hle) h fun j e => hi fun a => ?_
    rw [← e]; exact (j a).isLt

/-- The same from the coordinates: start plus window coordinate is the update's own coordinate on
    every axis. -/
theorem scatter_apply_lead_of_coords (d : ScatterDims s si u) (x : s.Idx → α) (idx : IVec si w) (upd : u.Idx → α)
    (hr : u.rank = s.rank) (hle : ∀ a : Fin u.rank, u.size a ≤ s.size (a.cast hr))
    (h : ∀ j (a : Fin s.rank), d.start j idx a + d.window j a = ((j (a.cast hr.symm)).val : Int)) (i : s.Idx) :
    Host.scatter d (fun _ b => b) x idx upd i
      = if hi : ∀ a : Fin u.rank, (i (a.cast hr)).val < u.size a then upd (unlead hr i hi) else x i :=
  scatter_apply_lead d x idx upd hr hle (fun j => resultIdx?_eq_some d (h j)) i

/-! ### Rank two: a padded copy `zeros.at[:r', :c'].set(a)` -/

/-- A rank-two update no larger than the operand, each of whose elements lands at the index with its
    own coordinates: inside the update's rows and columns the replacing scatter holds the update,
    elsewhere the operand's element. -/
theorem scatter_apply_block2 {r c r' c' : Nat} (d : ScatterDims ⟨2, ![r, c]⟩ si ⟨2, ![r', c']⟩)
    (x : (⟨2, ![r, c]⟩ : Shape).Idx → α) (idx : IVec si w) (upd : (⟨2, ![r', c']⟩ : Shape).Idx → α) (hr : r' ≤ r) (hc : c' ≤ c)
    (h : ∀ (j : (⟨2, ![r', c']⟩ : Shape).Idx) (a : Fin 2), d.start j idx a + d.window j a = ((j a).val : Int))
    (i : (⟨2, ![r, c]⟩ : Shape).Idx) :
    Host.scatter d (fun _ b => b) x idx upd i
      = if hi : (i 0).val < r' ∧ (i 1).val < c' then upd (ValueIdx.ix2 ⟨(i 0).val, hi.1⟩ ⟨(i 1).val, hi.2⟩) else x i := by
  have hle : ∀ a : Fin (⟨2, ![r', c']⟩ : Shape).rank,
      (⟨2, ![r', c']⟩ : Shape).size a ≤ (⟨2, ![r, c]⟩ : Shape).size (a.cast rfl) := Fin.forall_fin_two.2 ⟨hr, hc⟩
  have hland : ∀ j, d.resultIdx? j idx = some (lead (s := ⟨2, ![r, c]⟩) (u := ⟨2, ![r', c']⟩) rfl hle j) :=
    fun j => resultIdx?_eq_some d fun a => h j a
  by_cases hi : (i 0).val < r' ∧ (i 1).val < c'
  · rw [dif_pos hi]
    have e : lead (s := ⟨2, ![r, c]⟩) (u := ⟨2, ![r', c']⟩) rfl hle (ValueIdx.ix2 ⟨(i 0).val, hi.1⟩ ⟨(i 1).val, hi.2⟩) = i :=
      funext (Fin.forall_fin_two.2 ⟨rfl, rfl⟩)
    have := scatter_apply_emb d x idx upd (lead (s := ⟨2, ![r, c]⟩) (u := ⟨2, ![r', c']⟩) rfl hle) (lead_injective (s := ⟨2, ![r, c]⟩) (u := ⟨2, ![r', c']⟩) rfl hle) hland
      (ValueIdx.ix2 ⟨(i 0).val, hi.1⟩ ⟨(i 1).val, hi.2⟩)
    rwa [e] at this
  · rw [dif_neg hi]
    refine scatter_apply_off_range d x idx upd (lead (s := ⟨2, ![r, c]⟩) (u := ⟨2, ![r', c']⟩) rfl hle) hland fun j e => hi ?_
    rw [← e]
    exact ⟨(j 0).isLt, (j 1).isLt⟩

/-- The same for an update with the operand's rows and no more columns (a copy padded with columns):
    the update on the update's columns, the operand's element on the others. -/
theorem scatter_apply_cols2 {r c c' : Nat} (d : ScatterDims ⟨2, ![r, c]⟩ si ⟨2, ![r, c']⟩)
    (x : (⟨2, ![r, c]⟩ : Shape).Idx → α) (idx : IVec si w) (upd : (⟨2, ![r, c']⟩ : Shape).Idx → α) (hc : c' ≤ c)
    (h : ∀ (j : (⟨2, ![r, c']⟩ : Shape).Idx) (a : Fin 2), d.start j idx a + d.window j a = ((j a).val : Int))
    (i : (⟨2, ![r, c]⟩ : Shape).Idx) :
    Host.scatter d (fun _ b => b) x idx upd i
      = if hi : (i 1).val < c' then upd (ValueIdx.ix2 ⟨(i 0).val, ValueIdx.idx2_lt0 i⟩ ⟨(i 1).val, hi⟩) else x i := by
  rw [scatter_apply_block2 d x idx upd (le_refl r) hc h i]
  by_cases hi : (i 1).val < c'
  · rw [dif_pos hi, dif_pos ⟨ValueIdx.idx2_lt0 i, hi⟩]
  · rw [dif_neg hi, dif_neg fun h' => hi h'.2]

end Idealize.ShloMosaic.SetScatter
-- ==== Proof.RefEntry.lean ====
/-
  The arrays the first kernel region is entered with, and the last host operation.

  Before its first region the second program's @main pads every argument: a broadcast of the constant 0
  to the padded extents, then a scatter that REPLACES the leading block by the argument
  (`zeros.at[:r, :c].set(a)`). Six of the nine arguments already have the padded extents, so the
  padded copy IS the argument (the adjacency is then converted to bf16, which keeps every ideal
  value; the degree vector is first reshaped to a column). The three layer-2 arguments have 64 of the
  128 padded columns: the copy holds the argument on columns below 64 and 0 on the others. After
  the regions one slice takes the leading 64 columns of the second region's result.
-/
import proofs.«173193_g2000702591456375_pallasbulk_739_11_alg».proof.Proof.RefRun
import proofs.«173193_g2000702591456375_pallasbulk_739_11_alg».proof.Proof.LibSetScatter
import Idealize.ShloMosaic.Lib.ValueIdx
import Idealize.ShloMosaic.PureOps.Ideal.Laws
import Idealize.ShloMosaic.Lib.Pipeline.Value
import Idealize.ShloMosaic.Lib.StableHlo.Run

set_option maxRecDepth 16384

noncomputable section

namespace Cert.ReferenceIdeal.Hand

open Cert.ReferenceIdeal Cert.ReferenceIdeal.Gen
open Idealize.ShloMosaic Idealize.ShloMosaic.TcCoe
open Idealize.ShloMosaic.StableHlo (after_cons after_nil)
open Idealize.ShloMosaic.SetScatter

section Entry

variable (m : (ℓ : Loc nD τ sig) → Buf (Elt Ideal) ℓ)

/-! ### Each entered array as the host operations' term over the launch memory -/

/-- The adjacency: the padded copy, converted to bf16. -/
theorem e_v2 (c : Dev nD) :
    (V1 (F := Ideal) m c main_v2 : S4096x4096.Idx → EReal)
      = truncf (F := Ideal) .bf16 (Host.scatter scatter_S4096x4096_S0_S4096x4096_01_n_n_0 (fun _ b => b)
          (broadcastInDim S4096x4096 ![] bcast_S_S4096x4096 (constant (F := Ideal) S_ .f32 0x00000000#32))
          (emptyVec S0 hz_S0 : IVec S0 32)
          (m ((c : Thread nD τ).loc main_arg1))) bitsLt_bf16_f32 := by
  show StableHlo.after hostOps0 (fun b => m (c, b)) (Proc.devRef .tc main_v2) = _
  after_results

/-- The degree vector: reshaped to a column, then the padded copy. -/
theorem e_v5 (c : Dev nD) :
    (V1 (F := Ideal) m c main_v5 : S4096x1.Idx → EReal)
      = Host.scatter scatter_S4096x1_S0_S4096x1_01_n_n_0 (fun _ b => b)
          (broadcastInDim S4096x1 ![] bcast_S_S4096x1 (constant (F := Ideal) S_ .f32 0x00000000#32))
          (emptyVec S0 hz_S0 : IVec S0 32)
          (shapeCast S4096x1 (m ((c : Thread nD τ).loc main_arg2) : S4096.Idx → EReal) shapeCasts_S4096_S4096x1) := by
  show StableHlo.after hostOps0 (fun b => m (c, b)) (Proc.devRef .tc main_v5) = _
  after_results <;> rfl

/-- The padded copy of the features. -/
theorem e_v7 (c : Dev nD) :
    (V1 (F := Ideal) m c main_v7 : S4096x128.Idx → EReal)
      = Host.scatter scatter_S4096x128_S0_S4096x128_01_n_n_0 (fun _ b => b)
          (broadcastInDim S4096x128 ![] bcast_S_S4096x128 (constant (F := Ideal) S_ .f32 0x00000000#32))
          (emptyVec S0 hz_S0 : IVec S0 32)
          (m ((c : Thread nD τ).loc main_arg0)) := by
  show StableHlo.after hostOps0 (fun b => m (c, b)) (Proc.devRef .tc main_v7) = _
  after_results

/-- The padded copy of layer 1's self weights. -/
theorem e_v9 (c : Dev nD) :
    (V1 (F := Ideal) m c main_v9 : S128x256.Idx → EReal)
      = Host.scatter scatter_S128x256_S0_S128x256_01_n_n_0 (fun _ b => b)
          (broadcastInDim S128x256 ![] bcast_S_S128x256 (constant (F := Ideal) S_ .f32 0x00000000#32))
          (emptyVec S0 hz_S0 : IVec S0 32)
          (m ((c : Thread nD τ).loc main_arg3)) := by
  show StableHlo.after hostOps0 (fun b => m (c, b)) (Proc.devRef .tc main_v9) = _
  after_results

/-- The padded copy of layer 1's neighbour weights. -/
theorem e_v11 (c : Dev nD) :
    (V1 (F := Ideal) m c main_v11 : S128x256.Idx → EReal)
      = Host.scatter scatter_S128x256_S0_S128x256_01_n_n_0 (fun _ b => b)
          (broadcastInDim S128x256 ![] bcast_S_S128x256 (constant (F := Ideal) S_ .f32 0x00000000#32))
          (emptyVec S0 hz_S0 : IVec S0 32)
          (m ((c : Thread nD τ).loc main_arg4)) := by
  show StableHlo.after hostOps0 (fun b => m (c, b)) (Proc.devRef .tc main_v11) = _
  after_results

/-- The padded copy of layer 1's bias. -/
theorem e_v13 (c : Dev nD) :
    (V1 (F := Ideal) m c main_v13 : S1x256.Idx → EReal)
      = Host.scatter scatter_S1x256_S0_S1x256_01_n_n_0 (fun _ b => b)
          (broadcastInDim S1x256 ![] bcast_S_S1x256 (constant (F := Ideal) S_ .f32 0x00000000#32))
          (emptyVec S0 hz_S0 : IVec S0 32)
          (m ((c : Thread nD τ).loc main_arg5)) := by
  show StableHlo.after hostOps0 (fun b => m (c, b)) (Proc.devRef .tc main_v13) = _
  after_results

/-- The padded copy of layer 2's self weights: placed at column 0. -/
theorem e_v16 (c : Dev nD) :
    (V1 (F := Ideal) m c main_v16 : S256x128.Idx → EReal)
      = Host.scatter scatter_S256x128_S1_S256x64_01_n_1_0 (fun _ b => b)
          (broadcastInDim S256x128 ![] bcast_S_S256x128 (constant (F := Ideal) S_ .f32 0x00000000#32))
          (broadcastInDim S1 ![] bcast_S_S1 (constantI S_ 32 0#32))
          (m ((c : Thread nD τ).loc main_arg6)) := by
  show StableHlo.after hostOps0 (fun b => m (c, b)) (Proc.devRef .tc main_v16) = _
  after_results

/-- The padded copy of layer 2's neighbour weights: placed at column 0. -/
theorem e_v19 (c : Dev nD) :
    (V1 (F := Ideal) m c main_v19 : S256x128.Idx → EReal)
      = Host.scatter scatter_S256x128_S1_S256x64_01_n_1_0 (fun _ b => b)
          (broadcastInDim S256x128 ![] bcast_S_S256x128 (constant (F := Ideal) S_ .f32 0x00000000#32))
          (broadcastInDim S1 ![] bcast_S_S1 (constantI S_ 32 0#32))
          (m ((c : Thread nD τ).loc main_arg7)) := by
  show StableHlo.after hostOps0 (fun b => m (c, b)) (Proc.devRef .tc main_v19) = _
  after_results

/-- The padded copy of layer 2's bias: placed at column 0. -/
theorem e_v22 (c : Dev nD) :
    (V1 (F := Ideal) m c main_v22 : S1x128.Idx → EReal)
      = Host.scatter scatter_S1x128_S1_S1x64_01_n_1_0 (fun _ b => b)
          (broadcastInDim S1x128 ![] bcast_S_S1x128 (constant (F := Ideal) S_ .f32 0x00000000#32))
          (broadcastInDim S1 ![] bcast_S_S1 (constantI S_ 32 0#32))
          (m ((c : Thread nD τ).loc main_arg8)) := by
  show StableHlo.after hostOps0 (fun b => m (c, b)) (Proc.devRef .tc main_v22) = _
  after_results

/-! ### Where the updates land: every update element at the index with its own coordinates

With no start component (an empty index tensor) the start is 0 on both axes; with the one component 0
for axis 1 it is 0 there too. Both update axes are window axes, so the window coordinate is the
update's own. -/

/-- A full-size update with no start component lands at its own index. -/
theorem coords_S4096x4096 (idx : IVec S0 32) (j : S4096x4096.Idx) (a : Fin S4096x4096.rank) :
    scatter_S4096x4096_S0_S4096x4096_01_n_n_0.start j idx a + scatter_S4096x4096_S0_S4096x4096_01_n_n_0.window j a = ((j a).val : Int) := by
  revert a
  refine Fin.forall_fin_two.2 ⟨?_, ?_⟩
  · show (0 : Int) + (((j 0).val : Nat) : Int) = _
    exact Int.zero_add _
  · show (0 : Int) + (((j 1).val : Nat) : Int) = _
    exact Int.zero_add _

/-- A full-size update with no start component lands at its own index. -/
theorem coords_S4096x1 (idx : IVec S0 32) (j : S4096x1.Idx) (a : Fin S4096x1.rank) :
    scatter_S4096x1_S0_S4096x1_01_n_n_0.start j idx a + scatter_S4096x1_S0_S4096x1_01_n_n_0.window j a = ((j a).val : Int) := by
  revert a
  refine Fin.forall_fin_two.2 ⟨?_, ?_⟩
  · show (0 : Int) + (((j 0).val : Nat) : Int) = _
    exact Int.zero_add _
  · show (0 : Int) + (((j 1).val : Nat) : Int) = _
    exact Int.zero_add _

/-- A full-size update with no start component lands at its own index. -/
theorem coords_S4096x128 (idx : IVec S0 32) (j : S4096x128.Idx) (a : Fin S4096x128.rank) :
    scatter_S4096x128_S0_S4096x128_01_n_n_0.start j idx a + scatter_S4096x128_S0_S4096x128_01_n_n_0.window j a = ((j a).val : Int) := by
  revert a
  refine Fin.forall_fin_two.2 ⟨?_, ?_⟩
  · show (0 : Int) + (((j 0).val : Nat) : Int) = _
    exact Int.zero_add _
  · show (0 : Int) + (((j 1).val : Nat) : Int) = _
    exact Int.zero_add _

/-- A full-size update with no start component lands at its own index. -/
theorem coords_S128x256 (idx : IVec S0 32) (j : S128x256.Idx) (a : Fin S128x256.rank) :
    scatter_S128x256_S0_S128x256_01_n_n_0.start j idx a + scatter_S128x256_S0_S128x256_01_n_n_0.window j a = ((j a).val : Int) := by
  revert a
  refine Fin.forall_fin_two.2 ⟨?_, ?_⟩
  · show (0 : Int) + (((j 0).val : Nat) : Int) = _
    exact Int.zero_add _
  · show (0 : Int) + (((j 1).val : Nat) : Int) = _
    exact Int.zero_add _

/-- A full-size update with no start component lands at its own index. -/
theorem coords_S1x256 (idx : IVec S0 32) (j : S1x256.Idx) (a : Fin S1x256.rank) :
    scatter_S1x256_S0_S1x256_01_n_n_0.start j idx a + scatter_S1x256_S0_S1x256_01_n_n_0.window j a = ((j a).val : Int) := by
  revert a
  refine Fin.forall_fin_two.2 ⟨?_, ?_⟩
  · show (0 : Int) + (((j 0).val : Nat) : Int) = _
    exact Int.zero_add _
  · show (0 : Int) + (((j 1).val : Nat) : Int) = _
    exact Int.zero_add _

/-- An update started at column 0 lands at the index with its own coordinates. -/
theorem coords_S256x128 (j : S256x64.Idx) (a : Fin 2) :
    scatter_S256x128_S1_S256x64_01_n_1_0.start j (broadcastInDim S1 ![] bcast_S_S1 (constantI S_ 32 0#32)) a
      + scatter_S256x128_S1_S256x64_01_n_1_0.window j a = ((j a).val : Int) := by
  revert a
  refine Fin.forall_fin_two.2 ⟨?_, ?_⟩
  · show (0 : Int) + (((j 0).val : Nat) : Int) = _
    exact Int.zero_add _
  · show (0 : Int) + (((j 1).val : Nat) : Int) = _
    exact Int.zero_add _

/-- An update started at column 0 lands at the index with its own coordinates. -/
theorem coords_S1x128 (j : S1x64.Idx) (a : Fin 2) :
    scatter_S1x128_S1_S1x64_01_n_1_0.start j (broadcastInDim S1 ![] bcast_S_S1 (constantI S_ 32 0#32)) a
      + scatter_S1x128_S1_S1x64_01_n_1_0.window j a = ((j a).val : Int) := by
  revert a
  refine Fin.forall_fin_two.2 ⟨?_, ?_⟩
  · show (0 : Int) + (((j 0).val : Nat) : Int) = _
    exact Int.zero_add _
  · show (0 : Int) + (((j 1).val : Nat) : Int) = _
    exact Int.zero_add _

/-! ### The entered arrays -/

/-- The adjacency is entered as launched: the padded copy is the argument, and the conversion to
    bf16 keeps every ideal value. -/
theorem entry_v2 (c : Dev nD) :
    (V1 (F := Ideal) m c main_v2 : S4096x4096.Idx → EReal) = m ((c : Thread nD τ).loc main_arg1) := by
  rw [e_v2]
  funext j
  rw [ValueIdx.truncf_apply, scatter_eq_update scatter_S4096x4096_S0_S4096x4096_01_n_n_0 _ _ _ (coords_S4096x4096 _)]

/-- The array of the features is entered as launched. -/
theorem entry_v7 (c : Dev nD) :
    (V1 (F := Ideal) m c main_v7 : S4096x128.Idx → EReal) = m ((c : Thread nD τ).loc main_arg0) := by
  rw [e_v7]
  exact scatter_eq_update _ _ _ _ (coords_S4096x128 _)

/-- The array of layer 1's self weights is entered as launched. -/
theorem entry_v9 (c : Dev nD) :
    (V1 (F := Ideal) m c main_v9 : S128x256.Idx → EReal) = m ((c : Thread nD τ).loc main_arg3) := by
  rw [e_v9]
  exact scatter_eq_update _ _ _ _ (coords_S128x256 _)

/-- The array of layer 1's neighbour weights is entered as launched. -/
theorem entry_v11 (c : Dev nD) :
    (V1 (F := Ideal) m c main_v11 : S128x256.Idx → EReal) = m ((c : Thread nD τ).loc main_arg4) := by
  rw [e_v11]
  exact scatter_eq_update _ _ _ _ (coords_S128x256 _)

/-- The array of layer 1's bias is entered as launched. -/
theorem entry_v13 (c : Dev nD) :
    (V1 (F := Ideal) m c main_v13 : S1x256.Idx → EReal) = m ((c : Thread nD τ).loc main_arg5) := by
  rw [e_v13]
  exact scatter_eq_update _ _ _ _ (coords_S1x256 _)

/-- The degree column is entered holding the degree vector: row `r` of the column is element `r`. -/
theorem entry_v5_apply (c : Dev nD) (j : S4096x1.Idx) :
    (V1 (F := Ideal) m c main_v5 : S4096x1.Idx → EReal) j
      = (m ((c : Thread nD τ).loc main_arg2) : S4096.Idx → EReal) (ValueIdx.ix1 ⟨(j 0).val, ValueIdx.idx2_lt0 j⟩) := by
  rw [e_v5, scatter_eq_update _ _ _ _ (coords_S4096x1 _)]
  refine shapeCast_apply _ _ j _ ?_
  have e1 : (S4096.rowMajor (ValueIdx.ix1 ⟨(j 0).val, ValueIdx.idx2_lt0 j⟩)).val = (j 0).val := Shape.rowMajor_val_one _
  have e2 : (S4096x1.rowMajor j).val = (j 0).val * 1 + (j 1).val := Shape.rowMajor_val_two j
  have h1 : (j 1).val < 1 := (j 1).isLt
  exact e1.trans (by rw [e2]; omega)

/-- The array of layer 2's self weights is entered holding the argument on columns below 64 and 0 on the others. -/
theorem entry_v16_apply (c : Dev nD) (j : S256x128.Idx) :
    (V1 (F := Ideal) m c main_v16 : S256x128.Idx → EReal) j
      = (if h : (j 1).val < 64 then
          (m ((c : Thread nD τ).loc main_arg6) : S256x64.Idx → EReal) (ValueIdx.ix2 ⟨(j 0).val, ValueIdx.idx2_lt0 j⟩ ⟨(j 1).val, h⟩)
        else 0 : EReal) := by
  rw [e_v16, scatter_apply_cols2 _ _ _ _ (by decide) coords_S256x128 j]
  by_cases h : (j 1).val < 64
  · rw [dif_pos h, dif_pos h]
  · rw [dif_neg h, dif_neg h]
    exact Ideal.ofBits_zero_f32

/-- The array of layer 2's neighbour weights is entered holding the argument on columns below 64 and 0 on the others. -/
theorem entry_v19_apply (c : Dev nD) (j : S256x128.Idx) :
    (V1 (F := Ideal) m c main_v19 : S256x128.Idx → EReal) j
      = (if h : (j 1).val < 64 then
          (m ((c : Thread nD τ).loc main_arg7) : S256x64.Idx → EReal) (ValueIdx.ix2 ⟨(j 0).val, ValueIdx.idx2_lt0 j⟩ ⟨(j 1).val, h⟩)
        else 0 : EReal) := by
  rw [e_v19, scatter_apply_cols2 _ _ _ _ (by decide) coords_S256x128 j]
  by_cases h : (j 1).val < 64
  · rw [dif_pos h, dif_pos h]
  · rw [dif_neg h, dif_neg h]
    exact Ideal.ofBits_zero_f32

/-- The array of layer 2's bias is entered holding the argument on columns below 64 and 0 on the others. -/
theorem entry_v22_apply (c : Dev nD) (j : S1x128.Idx) :
    (V1 (F := Ideal) m c main_v22 : S1x128.Idx → EReal) j
      = (if h : (j 1).val < 64 then
          (m ((c : Thread nD τ).loc main_arg8) : S1x64.Idx → EReal) (ValueIdx.ix2 ⟨(j 0).val, ValueIdx.idx2_lt0 j⟩ ⟨(j 1).val, h⟩)
        else 0 : EReal) := by
  rw [e_v22, scatter_apply_cols2 _ _ _ _ (by decide) coords_S1x128 j]
  by_cases h : (j 1).val < 64
  · rw [dif_pos h, dif_pos h]
  · rw [dif_neg h, dif_neg h]
    exact Ideal.ofBits_zero_f32

end Entry

/-! ### The last host operation -/

section Tail

variable {F : FTy → Type} [FloatOps F]

/-- After the regions @main's result is the leading 64 columns of the second region's result array. -/
theorem tail_v25 (W3 : Valuation τ sig (Elt F)) :
    StableHlo.after hostOps2 W3 (Proc.devRef .tc main_v25)
      = extractStridedSlice S4096x64 ![0, 0] (W3 (Proc.devRef .tc main_v24) : FVec F S4096x128 .f32) slices_S4096x128_S4096x64_0_0 := by
  after_results

end Tail

end Cert.ReferenceIdeal.Hand
-- ==== Proof.SpecLemmas.lean ====
/-
  The copy of B that layer 1 hands to layer 2 is B: a change of float format is the identity at the exact values, and
  stacking the row tiles of an array gives the array back.
-/
import proofs.«173193_g2000702591456375_pallasbulk_739_11_alg».proof.Proof.Spec

noncomputable section

namespace Cert.Sage

open Idealize.ShloMosaic Idealize.ShloMosaic.ValueIdx
open Cert.KernelIdeal Cert.KernelIdeal.Gen

variable [Cert.KernelIdeal.Facts]

theorem stack4096_tile4096 (A : S4096x4096.Idx → EReal) : stack4096 (fun i => tile4096 A i) = A := by
  funext j
  have h0 := idx2_lt0 j
  unfold stack4096 tile4096
  refine congrArg A ?_
  funext a; apply Fin.ext
  match a with
  | ⟨0, _⟩ => show 512 * ((j 0).val / 512) + (j 0).val % 512 = (j 0).val; omega
  | ⟨1, _⟩ => rfl

theorem bcopy_eq (B : S4096x4096.Idx → EReal) : bcopy B = B := by
  unfold bcopy
  exact stack4096_tile4096 B

end Cert.Sage

end
-- ==== Proof.RefResult.lean ====
/-
  The second program's result. Its run leaves the result array at the last host operation applied to what the second
  region leaves; the second region's result array is layer 2's function of the arrays it is entered with; of those, z2
  and s2 are what the first region leaves — layer 1's functions of the arrays IT is entered with — and B and the
  degree column pass through the first region unchanged. So the result is the leading 64 columns of the specification's
  padded result at the arrays the first region is entered with.
-/
import proofs.«173193_g2000702591456375_pallasbulk_739_11_alg».proof.Proof.RefRun
import proofs.«173193_g2000702591456375_pallasbulk_739_11_alg».proof.Proof.RefL1Value
import proofs.«173193_g2000702591456375_pallasbulk_739_11_alg».proof.Proof.RefL2Value
import proofs.«173193_g2000702591456375_pallasbulk_739_11_alg».proof.Proof.RefEntry
import proofs.«173193_g2000702591456375_pallasbulk_739_11_alg».proof.Proof.SpecLemmas

set_option maxRecDepth 16384

noncomputable section

namespace Cert.ReferenceIdeal.Hand

open Cert.ReferenceIdeal Cert.ReferenceIdeal.Gen
open Idealize.ShloMosaic Idealize.ShloMosaic.TcCoe Idealize.SL.Sem
open Idealize.ShloMosaic.Pipeline (Dat)
open Cert.Sage

variable (m : (ℓ : Loc nD τ sig) → Buf (Elt Ideal) ℓ) (ρ : Dev nD → PrngReg)

/-- The two regions' proof data at any entry contents. -/
abbrev D0 : Entry Ideal → (c : Dev nD) → Dat τ (Elt Ideal) Unit ℕ (UR sig nD τ) ℕ cfg0 c := fun V c => L1.dat V c
abbrev D1 : Entry Ideal → (c : Dev nD) → Dat τ (Elt Ideal) Unit ℕ (UR sig nD τ) ℕ cfg1 c := fun V c => L2.dat V c

/-- B passes through the first region. -/
theorem exit0_B (c : Dev nD) : V2 m D0 c main_v2 = V1 m c main_v2 :=
  (W2_arr m D0 c 0).trans (((D0 (V1 m) c).arrAt_in 0 rfl _).trans (L1.A_eq (V1 m) c 0))
/-- The degree column passes through the first region. -/
theorem exit0_D (c : Dev nD) : V2 m D0 c main_v5 = V1 m c main_v5 :=
  (W2_arr m D0 c 2).trans (((D0 (V1 m) c).arrAt_in 2 rfl _).trans (L1.A_eq (V1 m) c 2))
/-- The first region leaves z2 and s2. -/
theorem exit0_z2 (c : Dev nD) : (V2 m D0 c main_v23_0 : S4096x128.Idx → EReal)
    = z2 (V1 m c main_v2) (V1 m c main_v7) (V1 m c main_v7) (V1 m c main_v5) (V1 m c main_v9) (V1 m c main_v11) (V1 m c main_v13) (V1 m c main_v16) :=
  (W2_arr m D0 c 9).trans (L1.final9 (V1 m) c)
theorem exit0_s2 (c : Dev nD) : (V2 m D0 c main_v23_1 : S4096x128.Idx → EReal)
    = s2 (V1 m c main_v2) (V1 m c main_v7) (V1 m c main_v7) (V1 m c main_v5) (V1 m c main_v9) (V1 m c main_v11) (V1 m c main_v13) (V1 m c main_v19) (V1 m c main_v22) :=
  (W2_arr m D0 c 10).trans (L1.final10 (V1 m) c)

/-- The second region leaves the specification's padded result. -/
theorem exit1_out (c : Dev nD) : (W3 m D0 D1 c (Proc.devRef .tc main_v24) : S4096x128.Idx → EReal)
    = padded (V1 m c main_v2) (V1 m c main_v7) (V1 m c main_v7) (V1 m c main_v5) (V1 m c main_v9) (V1 m c main_v11) (V1 m c main_v13)
        (V1 m c main_v16) (V1 m c main_v19) (V1 m c main_v22) := by
  refine (W3_arr m D0 D1 c 4).trans ?_
  rw [L2.final4 (V2 m D0) c, exit0_B m c, exit0_D m c, exit0_z2 m c, exit0_s2 m c]
  unfold padded
  rw [bcopy_eq]

/-- The result array after the run. -/
theorem result_eq (c : Dev nD) : (W4 m D0 D1 c (Proc.devRef .tc main_v25) : S4096x64.Idx → EReal)
    = extractStridedSlice S4096x64 ![0, 0] (padded (V1 m c main_v2) (V1 m c main_v7) (V1 m c main_v7) (V1 m c main_v5) (V1 m c main_v9) (V1 m c main_v11) (V1 m c main_v13)
        (V1 m c main_v16) (V1 m c main_v19) (V1 m c main_v22)) slices_S4096x128_S4096x64_0_0 := by
  show StableHlo.after hostOps2 (W3 m D0 D1 c) (Proc.devRef .tc main_v25) = _
  rw [tail_v25, exit1_out m c]

/-- THE RUN WITH ITS VALUE: every weakly fair execution terminates with the result array at the leading 64 columns of the
    specification's padded result and each argument array as launched. -/
theorem run_value : θ_run defs (onTc (τ := τ) (main (F := Ideal))) ⟨m, fun _ => 0, ρ⟩ (fun r => ∀ c : Dev nD,
      r.2.mem ((c.tc : Thread nD τ).loc main_v25)
        = extractStridedSlice S4096x64 ![0, 0] (padded (V1 m c main_v2) (V1 m c main_v7) (V1 m c main_v7) (V1 m c main_v5) (V1 m c main_v9) (V1 m c main_v11) (V1 m c main_v13)
            (V1 m c main_v16) (V1 m c main_v19) (V1 m c main_v22)) slices_S4096x128_S4096x64_0_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result_eq m c), (h c).2⟩)
    (run (F := Ideal) m ρ D0 D1
      (fun V c w => L1.A_eq V c w) (fun V c w => L1.q_eq V c w) (fun V c t => L1.owed_eq V c t) (fun _ _ _ => rfl)
      (fun V c => L1.body_obligation V c) (fun V c => L1.hin V c) (fun V c => L1.hout V c)
      (fun V c w => L2.A_eq V c w) (fun V c w => L2.q_eq V c w) (fun V c t => L2.owed_eq V c t) (fun _ _ _ => rfl)
      (fun V c => L2.body_obligation V c) (fun V c => L2.hin V c) (fun V c => L2.hout V c))

end Cert.ReferenceIdeal.Hand

end
-- ==== Proof.Final.lean ====
/-
  The two idealized programs end with equal results. Both results are the leading 64 columns of ONE function — the
  specification's padded result — of the arrays each program's first region is entered with; and those arrays are equal:
  B, X, W1l, W1r, b1 are the arguments themselves in both programs (the first program's bf16 copy of X and the second's
  copies into zero arrays hold the same numbers), the degree column is the degree vector as a column in both, and the
  layer-2 weights and bias are the arguments on the first 64 columns and zero on the other 64 in both — the first program
  pads with zeros, the second writes the argument into an array of zeros. No finiteness of the inputs is used.
-/
import proofs.«173193_g2000702591456375_pallasbulk_739_11_alg».proof.Defs
import proofs.«173193_g2000702591456375_pallasbulk_739_11_alg».proof.Proof.KerRun
import proofs.«173193_g2000702591456375_pallasbulk_739_11_alg».proof.Proof.KerValue
import proofs.«173193_g2000702591456375_pallasbulk_739_11_alg».proof.Proof.RefResult
import proofs.«173193_g2000702591456375_pallasbulk_739_11_alg».proof.Proof.Gen.Pre_finite_inputs

set_option maxRecDepth 16384

noncomputable section

namespace Cert.Proof.Sage

open Idealize.ShloMosaic Idealize.ShloMosaic.TcCoe Idealize.SL.Sem

/-- The arrays the two programs' first regions are entered with are the same arrays, when the arguments agree. -/
theorem algebraic : Cert.algebraic_KernelIdeal_ReferenceIdeal := by
  intro m ρ m' ρ' _ hagree
  refine ⟨fun c => extractStridedSlice Cert.KernelIdeal.S4096x64 ![0, 0]
      (Cert.Sage.padded (m ((c : Thread Cert.KernelIdeal.nD Cert.KernelIdeal.τ).loc Cert.KernelIdeal.main_arg1)) (Cert.KernelIdeal.Gen.V6 m ρ c Cert.KernelIdeal.main_v0)
        (m ((c : Thread Cert.KernelIdeal.nD Cert.KernelIdeal.τ).loc Cert.KernelIdeal.main_arg0)) (Cert.KernelIdeal.Gen.V6 m ρ c Cert.KernelIdeal.main_v1)
        (m ((c : Thread Cert.KernelIdeal.nD Cert.KernelIdeal.τ).loc Cert.KernelIdeal.main_arg3)) (m ((c : Thread Cert.KernelIdeal.nD Cert.KernelIdeal.τ).loc Cert.KernelIdeal.main_arg4))
        (m ((c : Thread Cert.KernelIdeal.nD Cert.KernelIdeal.τ).loc Cert.KernelIdeal.main_arg5))
        (Cert.KernelIdeal.Gen.V6 m ρ c Cert.KernelIdeal.main_v2) (Cert.KernelIdeal.Gen.V6 m ρ c Cert.KernelIdeal.main_v3) (Cert.KernelIdeal.Gen.V6 m ρ c Cert.KernelIdeal.main_v4))
      Cert.KernelIdeal.Facts₀.slices_S4096x128_S4096x64_0_0, ?_, ?_⟩
  · exact (θ_run Cert.KernelIdeal.defs _ _).mono (fun r h c => ⟨(h c).1.trans (Cert.KernelIdeal.Hand.result_eq m ρ c), (h c).2⟩)
      (Cert.KernelIdeal.Hand.run (F := Ideal) m ρ)
  · refine (θ_run Cert.ReferenceIdeal.defs _ _).mono (fun r h c => ⟨(h c).1.trans ?_, (h c).2⟩)
      (Cert.ReferenceIdeal.Hand.run_value m' ρ')
    obtain ⟨a0, a1, a2, a3, a4, a5, a6, a7, a8⟩ := hagree c
    have hB := (Cert.ReferenceIdeal.Hand.entry_v2 m' c).trans a1
    have hX := (Cert.ReferenceIdeal.Hand.entry_v7 m' c).trans a0
    have hW1l := (Cert.ReferenceIdeal.Hand.entry_v9 m' c).trans a3
    have hW1r := (Cert.ReferenceIdeal.Hand.entry_v11 m' c).trans a4
    have hb1 := (Cert.ReferenceIdeal.Hand.entry_v13 m' c).trans a5
    have hXk := Cert.KernelIdeal.Hand.entry_v0 m ρ c
    have hD : (Cert.ReferenceIdeal.Hand.V1 m' c Cert.ReferenceIdeal.main_v5 : Cert.ReferenceIdeal.S4096x1.Idx → EReal)
        = Cert.KernelIdeal.Gen.V6 m ρ c Cert.KernelIdeal.main_v1 := funext fun j => by
      rw [Cert.ReferenceIdeal.Hand.entry_v5_apply, Cert.KernelIdeal.Hand.entry_v1_apply, a2]
    have hW2l : (Cert.ReferenceIdeal.Hand.V1 m' c Cert.ReferenceIdeal.main_v16 : Cert.ReferenceIdeal.S256x128.Idx → EReal)
        = Cert.KernelIdeal.Gen.V6 m ρ c Cert.KernelIdeal.main_v2 := funext fun j => by
      rw [Cert.ReferenceIdeal.Hand.entry_v16_apply, Cert.KernelIdeal.Hand.entry_v2_apply, a6]
    have hW2r : (Cert.ReferenceIdeal.Hand.V1 m' c Cert.ReferenceIdeal.main_v19 : Cert.ReferenceIdeal.S256x128.Idx → EReal)
        = Cert.KernelIdeal.Gen.V6 m ρ c Cert.KernelIdeal.main_v3 := funext fun j => by
      rw [Cert.ReferenceIdeal.Hand.entry_v19_apply, Cert.KernelIdeal.Hand.entry_v3_apply, a7]
    have hb2 : (Cert.ReferenceIdeal.Hand.V1 m' c Cert.ReferenceIdeal.main_v22 : Cert.ReferenceIdeal.S1x128.Idx → EReal)
        = Cert.KernelIdeal.Gen.V6 m ρ c Cert.KernelIdeal.main_v4 := funext fun j => by
      rw [Cert.ReferenceIdeal.Hand.entry_v22_apply, Cert.KernelIdeal.Hand.entry_v4_apply, a8]
    beta_reduce
    rw [hB, hX, hD, hW1l, hW1r, hb1, hW2l, hW2r, hb2, hXk]

end Cert.Proof.Sage

end
-- ==== Proof.lean ====
/-
  The certificate. Three programs: the kernel as printed (word level), its idealization and the idealized reference (both
  read at the exact values: floats are extended reals, every operation exact, a change of float format the identity).
  Each runs to the end without a fault and leaves its arguments as launched; nothing was rewritten between the kernel and
  its idealization; and the two idealized programs end with equal results: a two-layer mean-aggregation graph network on
  4096 nodes, computed by the kernel with one whole product B_i · X per row tile and by the reference with the same
  product accumulated over eight blocks of the contracted axis — equal because a finite sum may be regrouped.
-/
import proofs.«173193_g2000702591456375_pallasbulk_739_11_alg».proof.Defs
import proofs.«173193_g2000702591456375_pallasbulk_739_11_alg».proof.Proof.Gen.Kernel
import proofs.«173193_g2000702591456375_pallasbulk_739_11_alg».proof.Proof.Gen.Kernel.Frame
import proofs.«173193_g2000702591456375_pallasbulk_739_11_alg».proof.Proof.Gen.KernelIdeal
import proofs.«173193_g2000702591456375_pallasbulk_739_11_alg».proof.Proof.Gen.KernelIdeal.Frame
import proofs.«173193_g2000702591456375_pallasbulk_739_11_alg».proof.Proof.Gen.ReferenceIdeal
import proofs.«173193_g2000702591456375_pallasbulk_739_11_alg».proof.Proof.Gen.Pre_finite_inputs
import proofs.«173193_g2000702591456375_pallasbulk_739_11_alg».proof.Proof.Final
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
/-- The reference's frame is its run with the result dropped. -/
theorem frame_referenceIdeal : Cert.frame_ReferenceIdeal := fun m ρ _ =>
  (θ_run Cert.ReferenceIdeal.defs _ _).mono (fun _ h c => (h c).2) (Cert.ReferenceIdeal.Hand.run_value m ρ)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, Cert.Proof.Sage.algebraic⟩

end Cert.Proof

end
